-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v256) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x300 : Shape := ⟨2, ![100000, 300]⟩
abbrev S2x1600000 : Shape := ⟨2, ![2, 1600000]⟩
abbrev S1600000 : Shape := ⟨1, ![1600000]⟩
abbrev S300x64 : Shape := ⟨2, ![300, 64]⟩
abbrev S64 : Shape := ⟨1, ![64]⟩
abbrev S8x64x64 : Shape := ⟨3, ![8, 64, 64]⟩
abbrev S64x20 : Shape := ⟨2, ![64, 20]⟩
abbrev S20 : Shape := ⟨1, ![20]⟩
abbrev S_ : Shape := ⟨0, ![]⟩

class Facts : Prop where
  bcast_S_S100000x300 : S_.BroadcastsInDim S100000x300 (![] : Fin 0 → Fin S100000x300.rank)
  reducesTo_S100000x300_S_d0_1 : S100000x300.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S300x64 : S_.BroadcastsInDim S300x64 (![] : Fin 0 → Fin S300x64.rank)
  reducesTo_S300x64_S_d0_1 : S300x64.ReducesTo [0, 1] S_
  bcast_S_S64 : S_.BroadcastsInDim S64 (![] : Fin 0 → Fin S64.rank)
  reducesTo_S64_S_d0 : S64.ReducesTo [0] S_
  bcast_S_S8x64x64 : S_.BroadcastsInDim S8x64x64 (![] : Fin 0 → Fin S8x64x64.rank)
  reducesTo_S8x64x64_S_d0_1_2 : S8x64x64.ReducesTo [0, 1, 2] S_
  bcast_S_S64x20 : S_.BroadcastsInDim S64x20 (![] : Fin 0 → Fin S64x20.rank)
  reducesTo_S64x20_S_d0_1 : S64x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg5 : FVec F S8x64x64 .f32) (main_arg6 : FVec F S64x20 .f32) (main_arg7 : FVec F S20 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S8x64x64 .f32 := Host.absf main_arg5
  let main_cst_6 : FVec F S_ .f32 := constant S_ .f32 0x7F800000#32
  let main_v20 : FVec F S8x64x64 .f32 := broadcastInDim S8x64x64 ![] bcast_S_S8x64x64 main_cst_6
  let main_v21 : IVec S8x64x64 1 := cmpf .olt main_v19 main_v20
  let main_c_7 : IVec S_ 1 := constantI S_ 1 1#1
  let main_v22 : IVec S_ 1 := (fun x v => Host.reduce IntOp.andi x v reducesTo_S8x64x64_S_d0_1_2 h_S_) main_v21 main_c_7
  let main_v23 : IVec S_ 1 := andi main_v18 main_v22
  let main_v24 : FVec F S64x20 .f32 := Host.absf main_arg6
  let main_cst_8 : FVec F S_ .f32 := constant S_ .f32 0x7F800000#32
  let main_v25 : FVec F S64x20 .f32 := broadcastInDim S64x20 ![] bcast_S_S64x20 main_cst_8
  let main_v26 : IVec S64x20 1 := cmpf .olt main_v24 main_v25
  let main_c_9 : IVec S_ 1 := constantI S_ 1 1#1
  let main_v27 : IVec S_ 1 := (fun x v => Host.reduce IntOp.andi x v reducesTo_S64x20_S_d0_1 h_S_) main_v26 main_c_9
  let main_v28 : IVec S_ 1 := andi main_v23 main_v27
  let main_v29 : FVec F S20 .f32 := Host.absf main_arg7
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  main_v33

def fn {F : FTy → Type} [FloatOps F] (main_arg0 : FVec F S100000x300 .f32) (main_arg1 : IVec S2x1600000 32) (main_arg2 : FVec F S1600000 .f32) (main_arg3 : FVec F S300x64 .f32) (main_arg4 : FVec F S64 .f32) (main_arg5 : FVec F S8x64x64 .f32) (main_arg6 : FVec F S64x20 .f32) (main_arg7 : FVec F S20 .f32) : IVec S_ 1 :=
  let main_v0 : FVec F S100000x300 .f32 := Host.absf main_arg0
  let main_cst : FVec F S_ .f32 := constant S_ .f32 0x7F800000#32
  let main_v1 : FVec F S100000x300 .f32 := broadcastInDim S100000x300 ![] bcast_S_S100000x300 main_cst
  let main_v2 : IVec S100000x300 1 := cmpf .olt main_v0 main_v1
  let main_c : IVec S_ 1 := constantI S_ 1 1#1
  let main_v3 : IVec S_ 1 := (fun x v => Host.reduce IntOp.andi x v reducesTo_S100000x300_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S300x64 .f32 := Host.absf main_arg3
  let main_cst_2 : FVec F S_ .f32 := constant S_ .f32 0x7F800000#32
  let main_v10 : FVec F S300x64 .f32 := broadcastInDim S300x64 ![] bcast_S_S300x64 main_cst_2
  let main_v11 : IVec S300x64 1 := cmpf .olt main_v9 main_v10
  let main_c_3 : IVec S_ 1 := constantI S_ 1 1#1
  let main_v12 : IVec S_ 1 := (fun x v => Host.reduce IntOp.andi x v reducesTo_S300x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x300 : Shape := ⟨2, ![100000, 300]⟩
abbrev S2x1600000 : Shape := ⟨2, ![2, 1600000]⟩
abbrev S1600000 : Shape := ⟨1, ![1600000]⟩
abbrev S300x64 : Shape := ⟨2, ![300, 64]⟩
abbrev S64 : Shape := ⟨1, ![64]⟩
abbrev S8x64x64 : Shape := ⟨3, ![8, 64, 64]⟩
abbrev S64x20 : Shape := ⟨2, ![64, 20]⟩
abbrev S20 : Shape := ⟨1, ![20]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x300 : Shape := ⟨2, ![5000, 300]⟩
abbrev S5000x64 : Shape := ⟨2, ![5000, 64]⟩
abbrev S1x64 : Shape := ⟨2, ![1, 64]⟩
abbrev S1700000x64 : Shape := ⟨2, ![1700000, 64]⟩
abbrev S1x64x64 : Shape := ⟨3, ![1, 64, 64]⟩
abbrev S64x64 : Shape := ⟨2, ![64, 64]⟩
abbrev S10000x64 : Shape := ⟨2, ![10000, 64]⟩
abbrev S100000x20 : Shape := ⟨2, ![100000, 20]⟩
abbrev S5000x20 : Shape := ⟨2, ![5000, 20]⟩
abbrev S1x20 : Shape := ⟨2, ![1, 20]⟩

abbrev nBuf : Space → Nat
  | .hbm => 204
  | .vmem => 68
  | .smem => 0
  | _ => 0

abbrev hbmTy0_0 (i : Nat) : BufTy := match i % 128 with
  | 0 => ⟨S100000x300, .f32⟩
  | 1 => ⟨S2x1600000, .i32⟩
  | 2 => ⟨S1600000, .f32⟩
  | 3 => ⟨S300x64, .f32⟩
  | 4 => ⟨S64, .f32⟩
  | 5 => ⟨S8x64x64, .f32⟩
  | 6 => ⟨S64x20, .f32⟩
  | 7 => ⟨S20, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64x64, .f32⟩
  | 68 => ⟨S64x64, .f32⟩
  | 69 => ⟨S100000x64, .f32⟩
  | 70 => ⟨S_, .i32⟩
  | 71 => ⟨S1700000, .i32⟩
  | 72 => ⟨S1700000, .i1⟩
  | 73 => ⟨S_, .i32⟩
  | 74 => ⟨S1700000, .i32⟩
  | 75 => ⟨S1700000, .i32⟩
  | 76 => ⟨S1700000, .i32⟩
  | 77 => ⟨S1700000x1, .i32⟩
  | 78 => ⟨S1700000x64, .f32⟩
  | 79 => ⟨S1700000x1, .f32⟩
  | 80 => ⟨S1700000x64, .f32⟩
  | 81 => ⟨S1700000x64, .f32⟩
  | 82 => ⟨S_, .f32⟩
  | 83 => ⟨S100000x64, .f32⟩
  | 84 => ⟨S1700000x1, .i32⟩
  | 85 => ⟨S100000x64, .f32⟩
  | 86 => ⟨S1x64x64, .f32⟩
  | 87 => ⟨S64x64, .f32⟩
  | 88 => ⟨S100000x64, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000x64, .f32⟩
  | 98 => ⟨S1700000x1, .f32⟩
  | 99 => ⟨S1700000x64, .f32⟩
  | 100 => ⟨S1700000x64, .f32⟩
  | 101 => ⟨S_, .f32⟩
  | 102 => ⟨S100000x64, .f32⟩
  | 103 => ⟨S1700000x1, .i32⟩
  | 104 => ⟨S100000x64, .f32⟩
  | 105 => ⟨S1x64x64, .f32⟩
  | 106 => ⟨S64x64, .f32⟩
  | 107 => ⟨S100000x64, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x64, .f32⟩
  | 117 => ⟨S1700000x1, .f32⟩
  | 118 => ⟨S1700000x64, .f32⟩
  | 119 => ⟨S1700000x64, .f32⟩
  | 120 => ⟨S_, .f32⟩
  | 121 => ⟨S100000x64, .f32⟩
  | 122 => ⟨S1700000x1, .i32⟩
  | 123 => ⟨S100000x64, .f32⟩
  | 124 => ⟨S1x64x64, .f32⟩
  | 125 => ⟨S64x64, .f32⟩
  | 126 => ⟨S100000x64, .f32⟩
  | 127 => ⟨S_, .i32⟩
  | _ => ⟨S100000x300, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000x64, .f32⟩
  | 8 => ⟨S1700000x1, .f32⟩
  | 9 => ⟨S1700000x64, .f32⟩
  | 10 => ⟨S1700000x64, .f32⟩
  | 11 => ⟨S_, .f32⟩
  | 12 => ⟨S100000x64, .f32⟩
  | 13 => ⟨S1700000x1, .i32⟩
  | 14 => ⟨S100000x64, .f32⟩
  | 15 => ⟨S1x64x64, .f32⟩
  | 16 => ⟨S64x64, .f32⟩
  | 17 => ⟨S100000x64, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S1700000x64, .f32⟩
  | 27 => ⟨S1700000x1, .f32⟩
  | 28 => ⟨S1700000x64, .f32⟩
  | 29 => ⟨S1700000x64, .f32⟩
  | 30 => ⟨S_, .f32⟩
  | 31 => ⟨S100000x64, .f32⟩
  | 32 => ⟨S1700000x1, .i32⟩
  | 33 => ⟨S100000x64, .f32⟩
  | 34 => ⟨S1x64x64, .f32⟩
  | 35 => ⟨S64x64, .f32⟩
  | 36 => ⟨S100000x64, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000x64, .f32⟩
  | 46 => ⟨S1700000x1, .f32⟩
  | 47 => ⟨S1700000x64, .f32⟩
  | 48 => ⟨S1700000x64, .f32⟩
  | 49 => ⟨S_, .f32⟩
  | 50 => ⟨S100000x64, .f32⟩
  | 51 => ⟨S1700000x1, .i32⟩
  | 52 => ⟨S100000x64, .f32⟩
  | 53 => ⟨S1x64x64, .f32⟩
  | 54 => ⟨S64x64, .f32⟩
  | 55 => ⟨S100000x64, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x1, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64x64, .f32⟩
  | 73 => ⟨S64x64, .f32⟩
  | 74 => ⟨S100000x64, .f32⟩
  | 75 => ⟨S100000x20, .f32⟩
  | _ => ⟨S100000x300, .f32⟩

abbrev hbmTy (i : Nat) : BufTy := match i / 128 with
  | 0 => hbmTy0_0 i
  | 1 => hbmTy0_1 i
  | _ => ⟨S100000x300, .f32⟩

abbrev bufTy : (tb : Table) → Fin (tcTables nBuf tb) → BufTy
  | .hbm, ⟨i, _⟩ => hbmTy i
  | .local _ .vmem, ⟨0, _⟩ => ⟨S5000x300, .f32⟩
  | .local _ .vmem, ⟨1, _⟩ => ⟨S5000x300, .f32⟩
  | .local _ .vmem, ⟨2, _⟩ => ⟨S300x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S64x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S64x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S64x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S64x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S64x64, .f32⟩
  | .local _ .vmem, ⟨60, _⟩ => ⟨S10000x64, .f32⟩
  | .local _ .vmem, ⟨61, _⟩ => ⟨S10000x64, .f32⟩
  | .local _ .vmem, ⟨62, _⟩ => ⟨S5000x64, .f32⟩
  | .local _ .vmem, ⟨63, _⟩ => ⟨S5000x64, .f32⟩
  | .local _ .vmem, ⟨64, _⟩ => ⟨S64x20, .f32⟩
  | .local _ .vmem, ⟨65, _⟩ => ⟨S20, .f32⟩
  | .local _ .vmem, ⟨66, _⟩ => ⟨S5000x20, .f32⟩
  | .local _ .vmem, ⟨67, _⟩ => ⟨S5000x20, .f32⟩
  | _, _ => ⟨S100000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_15 : Ref sig .tc := ⟨.hbm, 108, rfl⟩
abbrev main_v81 : Ref sig .tc := ⟨.hbm, 109, rfl⟩
abbrev main_v82 : Ref sig .tc := ⟨.hbm, 110, rfl⟩
abbrev main_c_16 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_17 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_18 : Ref sig .tc := ⟨.hbm, 127, rfl⟩
abbrev main_v97 : Ref sig .tc := ⟨.hbm, 128, rfl⟩
abbrev main_v98 : Ref sig .tc := ⟨.hbm, 129, rfl⟩
abbrev main_c_19 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_20 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_c_21 : Ref sig .tc := ⟨.hbm, 146, rfl⟩
abbrev main_v113 : Ref sig .tc := ⟨.hbm, 147, rfl⟩
abbrev main_v114 : Ref sig .tc := ⟨.hbm, 148, rfl⟩
abbrev main_c_22 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_23 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_c_24 : Ref sig .tc := ⟨.hbm, 165, rfl⟩
abbrev main_v129 : Ref sig .tc := ⟨.hbm, 166, rfl⟩
abbrev main_v130 : Ref sig .tc := ⟨.hbm, 167, rfl⟩
abbrev main_c_25 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_26 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_c_27 : Ref sig .tc := ⟨.hbm, 184, rfl⟩
abbrev main_v145 : Ref sig .tc := ⟨.hbm, 185, rfl⟩
abbrev main_v146 : Ref sig .tc := ⟨.hbm, 186, rfl⟩
abbrev main_c_28 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_cst_29 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg3_1 : Ref sig .tc := ⟨.vmem, 54, rfl⟩
abbrev cc8_stg0_0 : Ref sig .tc := ⟨.vmem, 55, rfl⟩
abbrev cc8_stg0_1 : Ref sig .tc := ⟨.vmem, 56, rfl⟩
abbrev cc8_stg1_0 : Ref sig .tc := ⟨.vmem, 57, rfl⟩
abbrev cc8_stg1_1 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg3_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg2_0 : Ref sig .tc := ⟨.vmem, 65, rfl⟩
abbrev cc9_stg3_0 : Ref sig .tc := ⟨.vmem, 66, rfl⟩
abbrev cc9_stg3_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem3_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem3_0 : DmaSem sig := 53
abbrev cc7_sem3_1 : DmaSem sig := 54
abbrev cc8_sem0_0 : DmaSem sig := 55
abbrev cc8_sem0_1 : DmaSem sig := 56
abbrev cc8_sem1_0 : DmaSem sig := 57
abbrev cc8_sem1_1 : DmaSem sig := 58
abbrev cc8_sem2_0 : DmaSem sig := 59
abbrev cc8_sem3_0 : DmaSem sig := 60
abbrev cc8_sem3_1 : DmaSem sig := 61
abbrev cc9_sem0_0 : DmaSem sig := 62
abbrev cc9_sem0_1 : DmaSem sig := 63
abbrev cc9_sem1_0 : DmaSem sig := 64
abbrev cc9_sem2_0 : DmaSem sig := 65
abbrev cc9_sem3_0 : DmaSem sig := 66
abbrev cc9_sem3_1 : DmaSem sig := 67

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x20 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S20 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x20 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x300_S5000x300_0_0 : ∀ a, (![0, 0] : Fin 2 → Nat) a + S5000x300.size a ≤ S5000x300.size a
  h_S5000x300 : 0 < S5000x300.numel
  bitsLt_bf16_f32 : FTy.bits .bf16 < FTy.bits .f32
  inb_S300x64_S300x64_0_0 : ∀ a, (![0, 0] : Fin 2 → Nat) a + S300x64.size a ≤ S300x64.size a
  h_S300x64 : 0 < S300x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S8x64x64_S1x64x64_0_0_0 : S8x64x64.Slices ![0, 0, 0] S1x64x64
  shapeCasts_S1x64x64_S64x64 : S1x64x64.ShapeCasts S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  shapeCasts_S5000x64_S5000x64 : S5000x64.ShapeCasts S5000x64
  inb_S64x20_S64x20_0_0 : ∀ a, (![0, 0] : Fin 2 → Nat) a + S64x20.size a ≤ S64x20.size a
  h_S64x20 : 0 < S64x20.numel
  inb_S20_S20_0 : ∀ a, (![0] : Fin 1 → Nat) a + S20.size a ≤ S20.size a
  h_S20 : 0 < S20.numel
  shapeCasts_S20_S1x20 : S20.ShapeCasts S1x20
  broadcasts_S1x20_S5000x20 : S1x20.Broadcasts S5000x20
  inb_S5000x20_S5000x20_0_0 : ∀ a, (![0, 0] : Fin 2 → Nat) a + S5000x20.size a ≤ S5000x20.size a
  h_S5000x20 : 0 < S5000x20.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x300_S300x64_S5000x64_1_0_0_1_n_n_wf : DotDims.WF S5000x300 S300x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S5000x64_S64x20_S5000x20_1_0_0_1_n_n_wf : DotDims.WF S5000x64 S64x20 S5000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x300.size a ≤ S100000x300.size a
  hwx0_0 : ∀ i : grid0.Coords, EltTy.bits .f32 = 32 ∨ (Rect.block (s := S100000x300) S5000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x64.size a ≤ S300x64.size a
  hwx0_1 : ∀ i : grid0.Coords, EltTy.bits .f32 = 32 ∨ (Rect.block (s := S300x64) S300x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x64.size a ≤ S100000x64.size a
  hwx6_3 : ∀ i : grid6.Coords, EltTy.bits .f32 = 32 ∨ (Rect.block (s := S100000x64) S10000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S100000x64.size a
  hwx7_3 : ∀ i : grid7.Coords, EltTy.bits .f32 = 32 ∨ (Rect.block (s := S100000x64) S10000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S100000x64.size a
  hwx8_1 : ∀ i : grid8.Coords, EltTy.bits .f32 = 32 ∨ (Rect.block (s := S100000x64) S10000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x64.size a ≤ S100000x64.size a
  hwx8_3 : ∀ i : grid8.Coords, EltTy.bits .f32 = 32 ∨ (Rect.block (s := S100000x64) S10000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x20.size a ≤ S64x20.size a
  hwx9_1 : ∀ i : grid9.Coords, EltTy.bits .f32 = 32 ∨ (Rect.block (s := S64x20) S64x20.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S20.size a ≤ S20.size a
  hwx9_2 : ∀ i : grid9.Coords, EltTy.bits .f32 = 32 ∨ (Rect.block (s := S20) S20.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x20.size a ≤ S100000x20.size a
  hwx9_3 : ∀ i : grid9.Coords, EltTy.bits .f32 = 32 ∨ (Rect.block (s := S100000x20) S5000x20.size (cc9_transform_3 i) (hinb9_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x300_S300x64_S5000x64_1_0_0_1_n_n : DotDims S5000x300 S300x64 S5000x64 where
  lhsContracting := [1]
  rhsContracting := [0]
  lhsNonContracting := [0]
  rhsNonContracting := [1]
  lhsBatch := []
  rhsBatch := []
  wf := dot_S5000x300_S300x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S5000x64_S64x20_S5000x20_1_0_0_1_n_n : DotDims S5000x64 S64x20 S5000x20 where
  lhsContracting := [1]
  rhsContracting := [0]
  lhsNonContracting := [0]
  rhsNonContracting := [1]
  lhsBatch := []
  rhsBatch := []
  wf := dot_S5000x64_S64x20_S5000x20_1_0_0_1_n_n_wf

abbrev win0_0 : Pipeline.Window sig grid0 :=
  Pipeline.Window.ofSpec (Memref.whole main_arg0) S5000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S300x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v77) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v93) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v95) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v96) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v109) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v32) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v111) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v112) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v125) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v32) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v127) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v128) S10000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v141) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v32) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v143) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v144) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v157) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v32) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v159) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v160) S10000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v160) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg6) S64x20.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg7) S20.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v161) S5000x20.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x300 : Shape := ⟨2, ![100000, 300]⟩
abbrev S2x1600000 : Shape := ⟨2, ![2, 1600000]⟩
abbrev S1600000 : Shape := ⟨1, ![1600000]⟩
abbrev S300x64 : Shape := ⟨2, ![300, 64]⟩
abbrev S64 : Shape := ⟨1, ![64]⟩
abbrev S8x64x64 : Shape := ⟨3, ![8, 64, 64]⟩
abbrev S64x20 : Shape := ⟨2, ![64, 20]⟩
abbrev S20 : Shape := ⟨1, ![20]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1700000x64 : Shape := ⟨2, ![1700000, 64]⟩
abbrev S1x64x64 : Shape := ⟨3, ![1, 64, 64]⟩
abbrev S64x64 : Shape := ⟨2, ![64, 64]⟩
abbrev S100000x20 : Shape := ⟨2, ![100000, 20]⟩
abbrev S1x20 : Shape := ⟨2, ![1, 20]⟩

abbrev nBuf : Space → Nat
  | .hbm => 349
  | .vmem => 0
  | .smem => 0
  | _ => 0

abbrev hbmTy0_0 (i : Nat) : BufTy := match i % 128 with
  | 0 => ⟨S100000x300, .f32⟩
  | 1 => ⟨S2x1600000, .i32⟩
  | 2 => ⟨S1600000, .f32⟩
  | 3 => ⟨S300x64, .f32⟩
  | 4 => ⟨S64, .f32⟩
  | 5 => ⟨S8x64x64, .f32⟩
  | 6 => ⟨S64x20, .f32⟩
  | 7 => ⟨S20, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S1700000x1, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S_, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S1x64x64, .f32⟩
  | 84 => ⟨S64x64, .f32⟩
  | 85 => ⟨S100000x64, .f32⟩
  | 86 => ⟨S_, .f32⟩
  | 87 => ⟨S100000x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S1700000x1, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x64, .f32⟩
  | 103 => ⟨S1700000x64, .f32⟩
  | 104 => ⟨S1700000x64, .f32⟩
  | 105 => ⟨S_, .f32⟩
  | 106 => ⟨S100000x64, .f32⟩
  | 107 => ⟨S1700000x1, .i32⟩
  | 108 => ⟨S100000x64, .f32⟩
  | 109 => ⟨S_, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S1x64x64, .f32⟩
  | 120 => ⟨S64x64, .f32⟩
  | 121 => ⟨S100000x64, .f32⟩
  | 122 => ⟨S_, .f32⟩
  | 123 => ⟨S100000x64, .f32⟩
  | 124 => ⟨S100000x64, .f32⟩
  | 125 => ⟨S100000x64, .f32⟩
  | 126 => ⟨S_, .f32⟩
  | 127 => ⟨S100000x64, .f32⟩
  | _ => ⟨S100000x300, .f32⟩

abbrev hbmTy0_1 (i : Nat) : BufTy := match i % 128 with
  | 0 => ⟨S100000x64, .f32⟩
  | 1 => ⟨S1700000x1, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000x64, .f32⟩
  | 11 => ⟨S1700000x64, .f32⟩
  | 12 => ⟨S1700000x64, .f32⟩
  | 13 => ⟨S_, .f32⟩
  | 14 => ⟨S100000x64, .f32⟩
  | 15 => ⟨S1700000x1, .i32⟩
  | 16 => ⟨S100000x64, .f32⟩
  | 17 => ⟨S_, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S1x64x64, .f32⟩
  | 28 => ⟨S64x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S1700000x1, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000x64, .f32⟩
  | 47 => ⟨S1700000x64, .f32⟩
  | 48 => ⟨S1700000x64, .f32⟩
  | 49 => ⟨S_, .f32⟩
  | 50 => ⟨S100000x64, .f32⟩
  | 51 => ⟨S1700000x1, .i32⟩
  | 52 => ⟨S100000x64, .f32⟩
  | 53 => ⟨S_, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S1x64x64, .f32⟩
  | 64 => ⟨S64x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S1700000x1, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x64, .f32⟩
  | 83 => ⟨S1700000x64, .f32⟩
  | 84 => ⟨S1700000x64, .f32⟩
  | 85 => ⟨S_, .f32⟩
  | 86 => ⟨S100000x64, .f32⟩
  | 87 => ⟨S1700000x1, .i32⟩
  | 88 => ⟨S100000x64, .f32⟩
  | 89 => ⟨S_, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S1x64x64, .f32⟩
  | 100 => ⟨S64x64, .f32⟩
  | 101 => ⟨S100000x64, .f32⟩
  | 102 => ⟨S_, .f32⟩
  | 103 => ⟨S100000x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S1700000x1, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S_, .f32⟩
  | 126 => ⟨S100000x64, .f32⟩
  | 127 => ⟨S100000x64, .f32⟩
  | _ => ⟨S100000x300, .f32⟩

abbrev hbmTy0_2 (i : Nat) : BufTy := match i % 128 with
  | 0 => ⟨S_, .f32⟩
  | 1 => ⟨S100000x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S1x64x64, .f32⟩
  | 8 => ⟨S64x64, .f32⟩
  | 9 => ⟨S100000x64, .f32⟩
  | 10 => ⟨S_, .f32⟩
  | 11 => ⟨S100000x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S1700000x1, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S1700000x64, .f32⟩
  | 27 => ⟨S1700000x64, .f32⟩
  | 28 => ⟨S1700000x64, .f32⟩
  | 29 => ⟨S_, .f32⟩
  | 30 => ⟨S100000x64, .f32⟩
  | 31 => ⟨S1700000x1, .i32⟩
  | 32 => ⟨S100000x64, .f32⟩
  | 33 => ⟨S_, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S1x64x64, .f32⟩
  | 44 => ⟨S64x64, .f32⟩
  | 45 => ⟨S100000x64, .f32⟩
  | 46 => ⟨S_, .f32⟩
  | 47 => ⟨S100000x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S1700000x1, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x64, .f32⟩
  | 63 => ⟨S1700000x64, .f32⟩
  | 64 => ⟨S1700000x64, .f32⟩
  | 65 => ⟨S_, .f32⟩
  | 66 => ⟨S100000x64, .f32⟩
  | 67 => ⟨S1700000x1, .i32⟩
  | 68 => ⟨S100000x64, .f32⟩
  | 69 => ⟨S_, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S1x64x64, .f32⟩
  | 80 => ⟨S64x64, .f32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S100000x20, .f32⟩
  | 90 => ⟨S1x20, .f32⟩
  | 91 => ⟨S100000x20, .f32⟩
  | 92 => ⟨S100000x20, .f32⟩
  | _ => ⟨S100000x300, .f32⟩

abbrev hbmTy (i : Nat) : BufTy := match i / 128 with
  | 0 => hbmTy0_0 i
  | 1 => hbmTy0_1 i
  | 2 => hbmTy0_2 i
  | _ => ⟨S100000x300, .f32⟩

abbrev bufTy : (tb : Table) → Fin (tcTables nBuf tb) → BufTy
  | .hbm, ⟨i, _⟩ => hbmTy i
  | _, _ => ⟨S100000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call2_cst : Ref sig .tc := ⟨.hbm, 90, rfl⟩
abbrev main_call2_v0 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_16 : Ref sig .tc := ⟨.hbm, 109, rfl⟩
abbrev main_v77 : Ref sig .tc := ⟨.hbm, 110, rfl⟩
abbrev main_v78 : Ref sig .tc := ⟨.hbm, 111, rfl⟩
abbrev main_cst_17 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_19 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_v90 : Ref sig .tc := ⟨.hbm, 128, rfl⟩
abbrev main_v91 : Ref sig .tc := ⟨.hbm, 129, rfl⟩
abbrev main_c_20 : Ref sig .tc := ⟨.hbm, 130, rfl⟩
abbrev main_v92 : Ref sig .tc := ⟨.hbm, 131, rfl⟩
abbrev main_v93 : Ref sig .tc := ⟨.hbm, 132, rfl⟩
abbrev main_c_21 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_22 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_23 : Ref sig .tc := ⟨.hbm, 145, rfl⟩
abbrev main_v104 : Ref sig .tc := ⟨.hbm, 146, rfl⟩
abbrev main_v105 : Ref sig .tc := ⟨.hbm, 147, rfl⟩
abbrev main_cst_24 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_25 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_26 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_call4_cst : Ref sig .tc := ⟨.hbm, 162, rfl⟩
abbrev main_call4_v0 : Ref sig .tc := ⟨.hbm, 163, rfl⟩
abbrev main_v117 : Ref sig .tc := ⟨.hbm, 164, rfl⟩
abbrev main_v118 : Ref sig .tc := ⟨.hbm, 165, rfl⟩
abbrev main_c_27 : Ref sig .tc := ⟨.hbm, 166, rfl⟩
abbrev main_v119 : Ref sig .tc := ⟨.hbm, 167, rfl⟩
abbrev main_v120 : Ref sig .tc := ⟨.hbm, 168, rfl⟩
abbrev main_c_28 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_29 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_30 : Ref sig .tc := ⟨.hbm, 181, rfl⟩
abbrev main_v131 : Ref sig .tc := ⟨.hbm, 182, rfl⟩
abbrev main_v132 : Ref sig .tc := ⟨.hbm, 183, rfl⟩
abbrev main_cst_31 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_32 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_33 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_call5_cst : Ref sig .tc := ⟨.hbm, 198, rfl⟩
abbrev main_call5_v0 : Ref sig .tc := ⟨.hbm, 199, rfl⟩
abbrev main_v144 : Ref sig .tc := ⟨.hbm, 200, rfl⟩
abbrev main_v145 : Ref sig .tc := ⟨.hbm, 201, rfl⟩
abbrev main_c_34 : Ref sig .tc := ⟨.hbm, 202, rfl⟩
abbrev main_v146 : Ref sig .tc := ⟨.hbm, 203, rfl⟩
abbrev main_v147 : Ref sig .tc := ⟨.hbm, 204, rfl⟩
abbrev main_c_35 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_cst_36 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_cst_37 : Ref sig .tc := ⟨.hbm, 217, rfl⟩
abbrev main_v158 : Ref sig .tc := ⟨.hbm, 218, rfl⟩
abbrev main_v159 : Ref sig .tc := ⟨.hbm, 219, rfl⟩
abbrev main_cst_38 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_cst_39 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_cst_40 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_call6_cst : Ref sig .tc := ⟨.hbm, 234, rfl⟩
abbrev main_call6_v0 : Ref sig .tc := ⟨.hbm, 235, rfl⟩
abbrev main_v171 : Ref sig .tc := ⟨.hbm, 236, rfl⟩
abbrev main_v172 : Ref sig .tc := ⟨.hbm, 237, rfl⟩
abbrev main_c_41 : Ref sig .tc := ⟨.hbm, 238, rfl⟩
abbrev main_v173 : Ref sig .tc := ⟨.hbm, 239, rfl⟩
abbrev main_v174 : Ref sig .tc := ⟨.hbm, 240, rfl⟩
abbrev main_c_42 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_cst_43 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_cst_44 : Ref sig .tc := ⟨.hbm, 253, rfl⟩
abbrev main_v185 : Ref sig .tc := ⟨.hbm, 254, rfl⟩
abbrev main_v186 : Ref sig .tc := ⟨.hbm, 255, rfl⟩
abbrev main_cst_45 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_cst_46 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_cst_47 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_call7_cst : Ref sig .tc := ⟨.hbm, 270, rfl⟩
abbrev main_call7_v0 : Ref sig .tc := ⟨.hbm, 271, rfl⟩
abbrev main_v198 : Ref sig .tc := ⟨.hbm, 272, rfl⟩
abbrev main_v199 : Ref sig .tc := ⟨.hbm, 273, rfl⟩
abbrev main_c_48 : Ref sig .tc := ⟨.hbm, 274, rfl⟩
abbrev main_v200 : Ref sig .tc := ⟨.hbm, 275, rfl⟩
abbrev main_v201 : Ref sig .tc := ⟨.hbm, 276, rfl⟩
abbrev main_c_49 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_cst_50 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_cst_51 : Ref sig .tc := ⟨.hbm, 289, rfl⟩
abbrev main_v212 : Ref sig .tc := ⟨.hbm, 290, rfl⟩
abbrev main_v213 : Ref sig .tc := ⟨.hbm, 291, rfl⟩
abbrev main_cst_52 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_cst_53 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_cst_54 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_call8_cst : Ref sig .tc := ⟨.hbm, 306, rfl⟩
abbrev main_call8_v0 : Ref sig .tc := ⟨.hbm, 307, rfl⟩
abbrev main_v225 : Ref sig .tc := ⟨.hbm, 308, rfl⟩
abbrev main_v226 : Ref sig .tc := ⟨.hbm, 309, rfl⟩
abbrev main_c_55 : Ref sig .tc := ⟨.hbm, 310, rfl⟩
abbrev main_v227 : Ref sig .tc := ⟨.hbm, 311, rfl⟩
abbrev main_v228 : Ref sig .tc := ⟨.hbm, 312, rfl⟩
abbrev main_c_56 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_cst_57 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_cst_58 : Ref sig .tc := ⟨.hbm, 325, rfl⟩
abbrev main_v239 : Ref sig .tc := ⟨.hbm, 326, rfl⟩
abbrev main_v240 : Ref sig .tc := ⟨.hbm, 327, rfl⟩
abbrev main_cst_59 : Ref sig .tc := ⟨.hbm, 328, rfl⟩
abbrev main_v241 : Ref sig .tc := ⟨.hbm, 329, rfl⟩
abbrev main_v242 : Ref sig .tc := ⟨.hbm, 330, rfl⟩
abbrev main_v243 : Ref sig .tc := ⟨.hbm, 331, rfl⟩
abbrev main_cst_60 : Ref sig .tc := ⟨.hbm, 332, rfl⟩
abbrev main_v244 : Ref sig .tc := ⟨.hbm, 333, rfl⟩
abbrev main_v245 : Ref sig .tc := ⟨.hbm, 334, rfl⟩
abbrev main_v246 : Ref sig .tc := ⟨.hbm, 335, rfl⟩
abbrev main_v247 : Ref sig .tc := ⟨.hbm, 336, rfl⟩
abbrev main_v248 : Ref sig .tc := ⟨.hbm, 337, rfl⟩
abbrev main_cst_61 : Ref sig .tc := ⟨.hbm, 338, rfl⟩
abbrev main_v249 : Ref sig .tc := ⟨.hbm, 339, rfl⟩
abbrev main_v250 : Ref sig .tc := ⟨.hbm, 340, rfl⟩
abbrev main_v251 : Ref sig .tc := ⟨.hbm, 341, rfl⟩
abbrev main_call9_cst : Ref sig .tc := ⟨.hbm, 342, rfl⟩
abbrev main_call9_v0 : Ref sig .tc := ⟨.hbm, 343, rfl⟩
abbrev main_v252 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1700000x1_S1700000x64_0_1 : S1700000x1.BroadcastsInDim S1700000x64 (![0, 1] : Fin 2 → Fin S1700000x64.rank)
  slices_S8x64x64_S1x64x64_0_0_0 : S8x64x64.Slices ![0, 0, 0] S1x64x64
  shapeCasts_S1x64x64_S64x64 : S1x64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x300_S300x64_S100000x64_1_0_0_1_n_n_wf : DotDims.WF S100000x300 S300x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x20_S100000x20_1_0_0_1_n_n_wf : DotDims.WF S100000x64 S64x20 S100000x20 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x300_S300x64_S100000x64_1_0_0_1_n_n : DotDims S100000x300 S300x64 S100000x64 where
  lhsContracting := [1]
  rhsContracting := [0]
  lhsNonContracting := [0]
  rhsNonContracting := [1]
  lhsBatch := []
  rhsBatch := []
  wf := dot_S100000x300_S300x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x20_S100000x20_1_0_0_1_n_n : DotDims S100000x64 S64x20 S100000x20 where
  lhsContracting := [1]
  rhsContracting := [0]
  lhsNonContracting := [0]
  rhsNonContracting := [1]
  lhsBatch := []
  rhsBatch := []
  wf := dot_S100000x64_S64x20_S100000x20_1_0_0_1_n_n_wf

class Facts : Prop extends Facts₀ where

variable [Facts]
-- ==== Proof.Model.lean ====
/-
  The network both programs compute, written once as whole-array operations on the extended reals.

  A graph of 100000 nodes and 1600000 weighted edges gets a self-loop of weight 1 at every node (1700000 edges in all).
  With deg the sum of the weights arriving at a node and dinv = deg^(-1/2) where deg > 0 (else 0), an edge from s to t of
  weight w has the coefficient dinv s · w · dinv t.  The features are first projected, x0 = max (x·W_in + b_in) 0; then
  eight times h ↦ max ((1-β)·z + β·(z·W_l)) 0 with z = (9/10 as f32)·(A h) + (1/10 as f32)·x0, where A h sums, into
  every node, coefficient × the feature row of the edge's source; last the projection h·W_out + b_out.
  The constants are kept as the binary words both programs print.
-/
import proofs.«103257_j52364241273198_2_alg».proof.ReferenceIdeal
import Idealize.ShloMosaic.PureOps.Ideal

noncomputable section

namespace Cert.Gcn

open Idealize.ShloMosaic Cert.ReferenceIdeal
open Cert.ReferenceIdeal.Facts₀ Cert.ReferenceIdeal.Facts

variable [Cert.ReferenceIdeal.Facts]

/-- The sources of the 1700000 edges: the first row of the edge list, then every node once (its self-loop). -/
def rowOf (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets of the 1700000 edges: the second row of the edge list, then every node once. -/
def colOf (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The edge weights, the self-loops' being 1. -/
def wgtOf (w : FVec Ideal S1600000 .f32) : FVec Ideal S1700000 .f32 :=
  concatenate S1700000 0 [⟨S1600000, w⟩, ⟨S100000, (broadcastInDim S100000 ![] bcast_S_S100000 (constant (F := Ideal) S_ .f32 0x3F800000#32))⟩] concatenates_S1600000_S100000_S1700000_d0

/-- A vector of node numbers as a column of gather indices, a negative number counted from the end. -/
def wrapIdx (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The weighted in-degree of every node. -/
def degOf (e : IVec S2x1600000 32) (w : FVec Ideal S1600000 .f32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 (colOf e)) (wgtOf w)

/-- deg^(-1/2) where the degree is positive, 0 elsewhere. -/
def dinvOf (e : IVec S2x1600000 32) (w : FVec Ideal S1600000 .f32) : FVec Ideal S100000 .f32 :=
  select (cmpf .ogt (degOf e w) (broadcastInDim S100000 ![] bcast_S_S100000 (constant (F := Ideal) S_ .f32 0x00000000#32)))
    (Host.rsqrt (F := Ideal) (degOf e w))
    (broadcastInDim S100000 ![] bcast_S_S100000 (id (constant (F := Ideal) S_ .f32 0x00000000#32)))

/-- The coefficient of every edge: dinv at its source, times its weight, times dinv at its target. -/
def normOf (e : IVec S2x1600000 32) (w : FVec Ideal S1600000 .f32) : FVec Ideal S1700000 .f32 :=
  mulf (mulf (Host.gather gather_S100000_S1700000x1_S1700000_n_0_n_n_0_1_1 (dinvOf e w) (wrapIdx (rowOf e))) (wgtOf w))
    (Host.gather gather_S100000_S1700000x1_S1700000_n_0_n_n_0_1_1 (dinvOf e w) (wrapIdx (colOf e)))

/-- One propagation: into every node the sum, over the edges arriving there, of coefficient × the source's feature row. -/
def aggOf (row col : IVec S1700000 32) (nrm : FVec Ideal S1700000 .f32) (h : FVec Ideal S100000x64 .f32) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 col)
    (mulf (broadcastInDim S1700000x64 ![0, 1] bcast_S1700000x1_S1700000x64_0_1 (broadcastInDim S1700000x1 ![0] bcast_S1700000_S1700000x1_0 nrm))
      (Host.gather gather_S100000x64_S1700000x1_S1700000x64_1_0_n_n_0_1_164 h (wrapIdx row)))

/-- The input projection: max (x·W + b) 0. -/
def linOf (x : FVec Ideal S100000x300 .f32) (w : FVec Ideal S300x64 .f32) (b : FVec Ideal S64 .f32) : FVec Ideal S100000x64 .f32 :=
  maximumf (addf (Host.dotGeneral (F := Ideal) dot_S100000x300_S300x64_S100000x64_1_0_0_1_n_n none x w)
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- The residual mix z = c9·a + c1·x0 (c9, c1 the words of 9/10 and 1/10). -/
def zOf (a x0 : FVec Ideal S100000x64 .f32) : FVec Ideal S100000x64 .f32 :=
  addf (mulf (broadcastInDim S100000x64 ![] bcast_S_S100000x64 (constant (F := Ideal) S_ .f32 0x3F666666#32)) a)
    (mulf (broadcastInDim S100000x64 ![] bcast_S_S100000x64 (constant (F := Ideal) S_ .f32 0x3DCCCCCD#32)) x0)

/-- One layer's dense half: max (p·z + q·(z·W)) 0, with p, q the words of 1-β and β. -/
def mixOf (p q : BitVec 32) (a x0 : FVec Ideal S100000x64 .f32) (w : FVec Ideal S64x64 .f32) : FVec Ideal S100000x64 .f32 :=
  maximumf (addf (mulf (broadcastInDim S100000x64 ![] bcast_S_S100000x64 (constant (F := Ideal) S_ .f32 p)) (zOf a x0))
      (mulf (broadcastInDim S100000x64 ![] bcast_S_S100000x64 (constant (F := Ideal) S_ .f32 q))
        (Host.dotGeneral (F := Ideal) dot_S100000x64_S64x64_S100000x64_1_0_0_1_n_n none (zOf a x0) w)))
    (broadcastInDim S100000x64 ![] bcast_S_S100000x64 (constant (F := Ideal) S_ .f32 0x00000000#32))

/-- The output projection h·W + b. -/
def projOf (h : FVec Ideal S100000x64 .f32) (w : FVec Ideal S64x20 .f32) (b : FVec Ideal S20 .f32) : FVec Ideal S100000x20 .f32 :=
  addf (Host.dotGeneral (F := Ideal) dot_S100000x64_S64x20_S100000x20_1_0_0_1_n_n none h w)
    (broadcastInDim S100000x20 ![0, 1] bcast_S1x20_S100000x20_0_1 (broadcastInDim S1x20 ![1] bcast_S20_S1x20_1 b))

/-- Layer l's 64×64 weight matrix out of the stack of eight. -/
def w0 (cw : FVec Ideal S8x64x64 .f32) : FVec Ideal S64x64 .f32 :=
  shapeCast _ (extractStridedSlice S1x64x64 ![0, 0, 0] cw slices_S8x64x64_S1x64x64_0_0_0) shapeCasts_S1x64x64_S64x64
def w1 (cw : FVec Ideal S8x64x64 .f32) : FVec Ideal S64x64 .f32 :=
  shapeCast _ (extractStridedSlice S1x64x64 ![1, 0, 0] cw slices_S8x64x64_S1x64x64_1_0_0) shapeCasts_S1x64x64_S64x64
def w2 (cw : FVec Ideal S8x64x64 .f32) : FVec Ideal S64x64 .f32 :=
  shapeCast _ (extractStridedSlice S1x64x64 ![2, 0, 0] cw slices_S8x64x64_S1x64x64_2_0_0) shapeCasts_S1x64x64_S64x64
def w3 (cw : FVec Ideal S8x64x64 .f32) : FVec Ideal S64x64 .f32 :=
  shapeCast _ (extractStridedSlice S1x64x64 ![3, 0, 0] cw slices_S8x64x64_S1x64x64_3_0_0) shapeCasts_S1x64x64_S64x64
def w4 (cw : FVec Ideal S8x64x64 .f32) : FVec Ideal S64x64 .f32 :=
  shapeCast _ (extractStridedSlice S1x64x64 ![4, 0, 0] cw slices_S8x64x64_S1x64x64_4_0_0) shapeCasts_S1x64x64_S64x64
def w5 (cw : FVec Ideal S8x64x64 .f32) : FVec Ideal S64x64 .f32 :=
  shapeCast _ (extractStridedSlice S1x64x64 ![5, 0, 0] cw slices_S8x64x64_S1x64x64_5_0_0) shapeCasts_S1x64x64_S64x64
def w6 (cw : FVec Ideal S8x64x64 .f32) : FVec Ideal S64x64 .f32 :=
  shapeCast _ (extractStridedSlice S1x64x64 ![6, 0, 0] cw slices_S8x64x64_S1x64x64_6_0_0) shapeCasts_S1x64x64_S64x64
def w7 (cw : FVec Ideal S8x64x64 .f32) : FVec Ideal S64x64 .f32 :=
  shapeCast _ (extractStridedSlice S1x64x64 ![7, 0, 0] cw slices_S8x64x64_S1x64x64_7_0_0) shapeCasts_S1x64x64_S64x64

/-- One whole layer: propagate, then mix with the first projection. -/
def layerOf (p q : BitVec 32) (row col : IVec S1700000 32) (nrm : FVec Ideal S1700000 .f32) (x0 : FVec Ideal S100000x64 .f32)
    (w : FVec Ideal S64x64 .f32) (h : FVec Ideal S100000x64 .f32) : FVec Ideal S100000x64 .f32 :=
  mixOf p q (aggOf row col nrm h) x0 w

/-- The features after the input projection and after each of the eight layers. -/
def h0 (x : FVec Ideal S100000x300 .f32) (e : IVec S2x1600000 32) (ew : FVec Ideal S1600000 .f32) (win : FVec Ideal S300x64 .f32) (bin : FVec Ideal S64 .f32) (cw : FVec Ideal S8x64x64 .f32) : FVec Ideal S100000x64 .f32 := linOf x win bin
def h1 (x : FVec Ideal S100000x300 .f32) (e : IVec S2x1600000 32) (ew : FVec Ideal S1600000 .f32) (win : FVec Ideal S300x64 .f32) (bin : FVec Ideal S64 .f32) (cw : FVec Ideal S8x64x64 .f32) : FVec Ideal S100000x64 .f32 :=
  layerOf 0x3F183370#32 0x3ECF991F#32 (rowOf e) (colOf e) (normOf e ew) (linOf x win bin) (w0 cw) (h0 x e ew win bin cw)
def h2 (x : FVec Ideal S100000x300 .f32) (e : IVec S2x1600000 32) (ew : FVec Ideal S1600000 .f32) (win : FVec Ideal S300x64 .f32) (bin : FVec Ideal S64 .f32) (cw : FVec Ideal S8x64x64 .f32) : FVec Ideal S100000x64 .f32 :=
  layerOf 0x3F46E010#32 0x3E647FBE#32 (rowOf e) (colOf e) (normOf e ew) (linOf x win bin) (w1 cw) (h1 x e ew win bin cw)
def h3 (x : FVec Ideal S100000x300 .f32) (e : IVec S2x1600000 32) (ew : FVec Ideal S1600000 .f32) (win : FVec Ideal S300x64 .f32) (bin : FVec Ideal S64 .f32) (cw : FVec Ideal S8x64x64 .f32) : FVec Ideal S100000x64 .f32 :=
  layerOf 0x3F588995#32 0x3E1DD9AD#32 (rowOf e) (colOf e) (normOf e ew) (linOf x win bin) (w2 cw) (h2 x e ew win bin cw)
def h4 (x : FVec Ideal S100000x300 .f32) (e : IVec S2x1600000 32) (ew : FVec Ideal S1600000 .f32) (win : FVec Ideal S300x64 .f32) (bin : FVec Ideal S64 .f32) (cw : FVec Ideal S8x64x64 .f32) : FVec Ideal S100000x64 .f32 :=
  layerOf 0x3F61D8F9#32 0x3DF1383B#32 (rowOf e) (colOf e) (normOf e ew) (linOf x win bin) (w3 cw) (h3 x e ew win bin cw)
def h5 (x : FVec Ideal S100000x300 .f32) (e : IVec S2x1600000 32) (ew : FVec Ideal S1600000 .f32) (win : FVec Ideal S300x64 .f32) (bin : FVec Ideal S64 .f32) (cw : FVec Ideal S8x64x64 .f32) : FVec Ideal S100000x64 .f32 :=
  layerOf 0x3F6799C1#32 0x3DC331FC#32 (rowOf e) (colOf e) (normOf e ew) (linOf x win bin) (w4 cw) (h4 x e ew win bin cw)
def h6 (x : FVec Ideal S100000x300 .f32) (e : IVec S2x1600000 32) (ew : FVec Ideal S1600000 .f32) (win : FVec Ideal S300x64 .f32) (bin : FVec Ideal S64 .f32) (cw : FVec Ideal S8x64x64 .f32) : FVec Ideal S100000x64 .f32 :=
  layerOf 0x3F6B8252#32 0x3DA3ED6E#32 (rowOf e) (colOf e) (normOf e ew) (linOf x win bin) (w5 cw) (h5 x e ew win bin cw)
def h7 (x : FVec Ideal S100000x300 .f32) (e : IVec S2x1600000 32) (ew : FVec Ideal S1600000 .f32) (win : FVec Ideal S300x64 .f32) (bin : FVec Ideal S64 .f32) (cw : FVec Ideal S8x64x64 .f32) : FVec Ideal S100000x64 .f32 :=
  layerOf 0x3F6E567C#32 0x3D8D4C22#32 (rowOf e) (colOf e) (normOf e ew) (linOf x win bin) (w6 cw) (h6 x e ew win bin cw)
def h8 (x : FVec Ideal S100000x300 .f32) (e : IVec S2x1600000 32) (ew : FVec Ideal S1600000 .f32) (win : FVec Ideal S300x64 .f32) (bin : FVec Ideal S64 .f32) (cw : FVec Ideal S8x64x64 .f32) : FVec Ideal S100000x64 .f32 :=
  layerOf 0x3F707AE8#32 0x3D785186#32 (rowOf e) (colOf e) (normOf e ew) (linOf x win bin) (w7 cw) (h7 x e ew win bin cw)

/-- The whole network. -/
def netOf (x : FVec Ideal S100000x300 .f32) (e : IVec S2x1600000 32) (ew : FVec Ideal S1600000 .f32) (win : FVec Ideal S300x64 .f32) (bin : FVec Ideal S64 .f32) (cw : FVec Ideal S8x64x64 .f32) (wout : FVec Ideal S64x20 .f32) (bout : FVec Ideal S20 .f32) : FVec Ideal S100000x20 .f32 :=
  projOf (h8 x e ew win bin cw) wout bout

end Cert.Gcn

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.LibRowBlock.lean ====
/-
  General facts about row blocks, at the ideal values.  A matrix product's entry (r, j) is the sum over k of A(r,k)·B(k,j):
  it needs one row of the left operand, so a block of rows times a matrix is that block of rows of the whole product.
  And a length-n vector written as one row and repeated down the rows reads, at (r, j), its entry j — whether the
  repeating is a kernel's shape cast and broadcast or the host's two broadcasts.  Nothing here mentions a program.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.RowBlockLib

open Idealize.ShloMosaic Idealize.ShloMosaic.ValueIdx Idealize.ShloMosaic.Pipeline

/-- Row a of a block of rows times a matrix is row a' of the whole matrix times it, when the block's row a is the whole
    matrix's row a'. -/
theorem dotGeneral_plain_row {M m k n : Nat} {φ₁ φ₁' φ₂ φ₂' : FTy} (prec prec' : Option ContractPrecision)
    (A : FVec Ideal ⟨2, ![M, k]⟩ φ₁) (Ab : FVec Ideal ⟨2, ![m, k]⟩ φ₁') (B : FVec Ideal ⟨2, ![k, n]⟩ φ₂) (Bb : FVec Ideal ⟨2, ![k, n]⟩ φ₂')
    (a : Fin m) (a' : Fin M) (b : Fin n)
    (hA : ∀ c : Fin k, (Ab (ix2 a c) : EReal) = A (ix2 a' c)) (hB : ∀ c : Fin k, (Bb (ix2 c b) : EReal) = B (ix2 c b)) :
    (Host.dotGeneral (DotDims.plain m k n) prec Ab Bb (ix2 a b) : EReal) = Host.dotGeneral (DotDims.plain M k n) prec' A B (ix2 a' b) := by
  rw [StackMember.dotGeneral_plain_apply, StackMember.dotGeneral_plain_apply]
  exact Finset.sum_congr rfl fun c _ => by rw [hA c, hB c]

/-- A length-n vector stored as one row and broadcast down m rows reads, at (p, j), the vector's entry j. -/
theorem bias_rows_apply {α : Type} {m n : Nat} (hn : n ≠ 1) (v : (⟨1, ![n]⟩ : Shape).Idx → α)
    (h1 : (⟨1, ![n]⟩ : Shape).ShapeCasts ⟨2, ![1, n]⟩) (h2 : (⟨2, ![1, n]⟩ : Shape).Broadcasts ⟨2, ![m, n]⟩) (p : Fin m) (j : Fin n) :
    broadcastTo ⟨2, ![m, n]⟩ (shapeCast ⟨2, ![1, n]⟩ v h1) h2 (ix2 p j) = v (ix1 j) := by
  refine (broadcastTo_apply _ h2 (ix2 p j) (ix2 (0 : Fin 1) j) fun ax => ?_).trans ?_
  · match ax with
    | ⟨0, _⟩ => show (0 : Nat) = if (1 : Nat) = 1 then 0 else p.val; rw [if_pos rfl]
    | ⟨1, _⟩ => show j.val = if n = 1 then 0 else j.val; rw [if_neg hn]
  · refine (shapeCast_addUnit_apply ![n] v h1 (ix2 (0 : Fin 1) j)).trans (congrArg v (funext fun a => ?_))
    match a with
    | ⟨0, _⟩ => rfl

/-- The same read of the host's two broadcasts ([n] to [1, n] along axis 1, then to [M, n]). -/
theorem bias_rows_host_apply {α : Type} {M n : Nat} (hn : n ≠ 1) (v : (⟨1, ![n]⟩ : Shape).Idx → α)
    (h1 : (⟨1, ![n]⟩ : Shape).BroadcastsInDim ⟨2, ![1, n]⟩ ![1]) (h2 : (⟨2, ![1, n]⟩ : Shape).BroadcastsInDim ⟨2, ![M, n]⟩ ![0, 1])
    (r : Fin M) (j : Fin n) :
    broadcastInDim ⟨2, ![M, n]⟩ ![0, 1] h2 (broadcastInDim ⟨2, ![1, n]⟩ ![1] h1 v) (ix2 r j) = v (ix1 j) := by
  refine (broadcastInDim_apply _ h2 _ (ix2 r j) (ix2 (0 : Fin 1) j) fun a => ?_).trans
    (broadcastInDim_apply _ h1 v (ix2 (0 : Fin 1) j) (ix1 j) fun a => ?_)
  · match a with
    | ⟨0, _⟩ => show (0 : Nat) = if (1 : Nat) = 1 then 0 else r.val; rw [if_pos rfl]
    | ⟨1, _⟩ => show j.val = if n = 1 then 0 else j.val; rw [if_neg hn]
  · match a with
    | ⟨0, _⟩ => show j.val = if n = 1 then 0 else j.val; rw [if_neg hn]

end Cert.RowBlockLib

end
-- ==== Proof.Stages.lean ====
/-
  The three dense stages at ONE entry.  A stage's kernel works on a block of consecutive rows; entry (r, j) of what it
  stores is a function of row r of the row-tiled operands and of column j of the small matrix.  The whole-array
  operation has the same entry at the corresponding row, because a matrix product's entry (r, j) is the sum over k of
  A(r,k)·B(k,j), whatever the number of rows of A.
-/
import proofs.«103257_j52364241273198_2_alg».proof.Proof.Gen.KernelIdeal.Skeleton
import proofs.«103257_j52364241273198_2_alg».proof.Proof.Gen.ReferenceIdeal
import proofs.«103257_j52364241273198_2_alg».proof.Proof.Model
import proofs.«103257_j52364241273198_2_alg».proof.Proof.LibRowOps
import proofs.«103257_j52364241273198_2_alg».proof.Proof.LibRowBlock
import Idealize.ShloMosaic.Lib.KernelVsHost
import Idealize.ShloMosaic.Lib.Pipeline.Value

noncomputable section

open scoped BigOperators

namespace Cert.Gcn.Stages

open Idealize.ShloMosaic Idealize.ShloMosaic.ValueIdx Idealize.ShloMosaic.Pipeline
open Cert.Gcn Cert.RowBlockLib

section Mix
open Cert.KernelIdeal Cert.KernelIdeal.Facts₀ Cert.KernelIdeal.Facts
variable [Cert.KernelIdeal.Facts]

/-- The residual mix of two loaded blocks: z = c9·a + c1·x0, entry by entry. -/
def zBlk (v0 v2 : Vec Ideal S10000x64 .f32) : FVec Ideal S10000x64 .f32 :=
  addf (mulf (broadcast S10000x64 (Scalar.ofBits (F := Ideal) .f32 0x3F666666#32)) (shapeCast S10000x64 v0 shapeCasts_S10000x64_S10000x64))
    (mulf (broadcast S10000x64 (Scalar.ofBits (F := Ideal) .f32 0x3DCCCCCD#32)) (shapeCast S10000x64 v2 shapeCasts_S10000x64_S10000x64))

/-- The mix kernel's stored value from its three loaded blocks, with the two layer words as parameters:
    max (P·z + Q·(z·W)) 0. -/
def mixPay (P Q : BitVec 32) (v0 v2 : Vec Ideal S10000x64 .f32) (v9 : Vec Ideal S64x64 .f32) : FVec Ideal S10000x64 .f32 :=
  maximumf (addf (mulf (broadcast S10000x64 (Scalar.ofBits (F := Ideal) .f32 P)) (zBlk v0 v2))
      (mulf (broadcast S10000x64 (Scalar.ofBits (F := Ideal) .f32 Q))
        (matmul dot_S10000x64_S64x64_S10000x64_1_0_0_1_n_n none (truncf .bf16 (zBlk v0 v2) bitsLt_bf16_f32)
          (truncf .bf16 (shapeCast S64x64 v9 shapeCasts_S64x64_S64x64) bitsLt_bf16_f32) (constant S10000x64 .f32 0x00000000#32))))
    (broadcast S10000x64 (Scalar.ofBits (F := Ideal) .f32 0x00000000#32))

theorem k1_pay1_eq : Cert.KernelIdeal.Gen.k1_pay1 (F := Ideal) = mixPay 0x3F183370#32 0x3ECF991F#32 := rfl

theorem k2_pay1_eq : Cert.KernelIdeal.Gen.k2_pay1 (F := Ideal) = mixPay 0x3F46E010#32 0x3E647FBE#32 := rfl
theorem k3_pay1_eq : Cert.KernelIdeal.Gen.k3_pay1 (F := Ideal) = mixPay 0x3F588995#32 0x3E1DD9AD#32 := rfl
theorem k4_pay1_eq : Cert.KernelIdeal.Gen.k4_pay1 (F := Ideal) = mixPay 0x3F61D8F9#32 0x3DF1383B#32 := rfl
theorem k5_pay1_eq : Cert.KernelIdeal.Gen.k5_pay1 (F := Ideal) = mixPay 0x3F6799C1#32 0x3DC331FC#32 := rfl
theorem k6_pay1_eq : Cert.KernelIdeal.Gen.k6_pay1 (F := Ideal) = mixPay 0x3F6B8252#32 0x3DA3ED6E#32 := rfl
theorem k7_pay1_eq : Cert.KernelIdeal.Gen.k7_pay1 (F := Ideal) = mixPay 0x3F6E567C#32 0x3D8D4C22#32 := rfl
theorem k8_pay1_eq : Cert.KernelIdeal.Gen.k8_pay1 (F := Ideal) = mixPay 0x3F707AE8#32 0x3D785186#32 := rfl

/-- Entry (p, j) of the mix of a block is entry (r, j) of the mix of the whole arrays, when row p of each row-tiled block is
    row r of its array: z at a row needs only that row, and the product's entry is the sum over k of z(row, k)·W(k, j). -/
theorem mix_point (P Q : BitVec 32) (a x0 : FVec Ideal Cert.ReferenceIdeal.S100000x64 .f32) (w : FVec Ideal Cert.ReferenceIdeal.S64x64 .f32)
    (ab xb : Vec Ideal S10000x64 .f32) (wb : Vec Ideal S64x64 .f32) (p : Fin 10000) (r : Fin 100000) (j : Fin 64)
    (ha : ∀ c : Fin 64, ab (ix2 p c) = a (ix2 r c)) (hx : ∀ c : Fin 64, xb (ix2 p c) = x0 (ix2 r c)) (hw : wb = w) :
    mixPay P Q ab xb wb (ix2 p j) = mixOf P Q a x0 w (ix2 r j) := by
  subst hw
  have hz : ∀ c : Fin 64, zBlk ab xb (ix2 p c) = zOf a x0 (ix2 r c) := fun c => by
    unfold zBlk zOf
    rw [shapeCast_self, shapeCast_self]
    show FloatOps.addf (FloatOps.mulf _ (ab _)) (FloatOps.mulf _ (xb _)) = FloatOps.addf (FloatOps.mulf _ (a _)) (FloatOps.mulf _ (x0 _))
    rw [ha c, hx c]; rfl
  unfold mixPay mixOf
  rw [shapeCast_self, matmul_zero_eq_dotGeneral]
  rw [Cert.RowLib.dotDims_eq_plain dot_S10000x64_S64x64_S10000x64_1_0_0_1_n_n rfl rfl rfl rfl rfl rfl,
    Cert.RowLib.dotDims_eq_plain Cert.ReferenceIdeal.dot_S100000x64_S64x64_S100000x64_1_0_0_1_n_n rfl rfl rfl rfl rfl rfl]
  have hd := dotGeneral_plain_row (φ₂ := .f32) none none (zOf a x0) (truncf .bf16 (zBlk ab xb) bitsLt_bf16_f32) wb (truncf .bf16 wb bitsLt_bf16_f32)
    p r j (fun c => hz c) (fun c => rfl)
  show FloatOps.maximumf (FloatOps.addf (FloatOps.mulf _ (zBlk ab xb (ix2 p j))) (FloatOps.mulf _ (Host.dotGeneral _ none _ _ (ix2 p j)))) _
    = FloatOps.maximumf (FloatOps.addf (FloatOps.mulf _ (zOf a x0 (ix2 r j))) (FloatOps.mulf _ (Host.dotGeneral _ none _ _ (ix2 r j)))) _
  rw [hz j, hd]; rfl

/-- The input projection's stored value from its loaded blocks: max (x·W + b) 0 on 5000 rows. -/
def linPay (v0 : Vec Ideal S5000x300 .f32) (v2 : Vec Ideal S300x64 .f32) (v5 : Vec Ideal S64 .f32) : FVec Ideal S5000x64 .f32 :=
  maximumf (addf (matmul dot_S5000x300_S300x64_S5000x64_1_0_0_1_n_n none (truncf .bf16 v0 bitsLt_bf16_f32) (truncf .bf16 v2 bitsLt_bf16_f32)
        (constant S5000x64 .f32 0x00000000#32))
      (broadcastTo S5000x64 (shapeCast S1x64 v5 shapeCasts_S64_S1x64) broadcasts_S1x64_S5000x64))
    (broadcast S5000x64 (Scalar.ofBits (F := Ideal) .f32 0x00000000#32))

theorem k0_pay1_eq : Cert.KernelIdeal.Gen.k0_pay1 (F := Ideal) = linPay := rfl

/-- Entry (p, j) of the projection of a block of rows is entry (r, j) of the projection of the whole array, when the
    block's row p is the array's row r. -/
theorem lin_point (x : FVec Ideal Cert.ReferenceIdeal.S100000x300 .f32) (w : FVec Ideal Cert.ReferenceIdeal.S300x64 .f32)
    (b : FVec Ideal Cert.ReferenceIdeal.S64 .f32) (xb : Vec Ideal S5000x300 .f32) (wb : Vec Ideal S300x64 .f32) (bb : Vec Ideal S64 .f32)
    (p : Fin 5000) (r : Fin 100000) (j : Fin 64)
    (hx : ∀ c : Fin 300, xb (ix2 p c) = x (ix2 r c)) (hw : wb = w) (hb : bb = b) :
    linPay xb wb bb (ix2 p j) = linOf x w b (ix2 r j) := by
  subst hw hb
  unfold linPay linOf
  rw [matmul_zero_eq_dotGeneral]
  rw [Cert.RowLib.dotDims_eq_plain dot_S5000x300_S300x64_S5000x64_1_0_0_1_n_n rfl rfl rfl rfl rfl rfl,
    Cert.RowLib.dotDims_eq_plain Cert.ReferenceIdeal.dot_S100000x300_S300x64_S100000x64_1_0_0_1_n_n rfl rfl rfl rfl rfl rfl]
  have hd := dotGeneral_plain_row (φ₁ := .f32) (φ₂ := .f32) none none x (truncf .bf16 xb bitsLt_bf16_f32) wb (truncf .bf16 wb bitsLt_bf16_f32)
    p r j (fun c => hx c) (fun c => rfl)
  show FloatOps.maximumf (FloatOps.addf (Host.dotGeneral _ none _ _ (ix2 p j)) (broadcastTo _ _ _ (ix2 p j))) _
    = FloatOps.maximumf (FloatOps.addf (Host.dotGeneral _ none _ _ (ix2 r j)) (broadcastInDim _ _ _ _ (ix2 r j))) _
  rw [hd, bias_rows_apply (by decide), bias_rows_host_apply (by decide)]; rfl

/-- The output projection's stored value from its loaded blocks: h·W + b on 5000 rows. -/
def projPay (v0 : Vec Ideal S5000x64 .f32) (v3 : Vec Ideal S64x20 .f32) (v6 : Vec Ideal S20 .f32) : FVec Ideal S5000x20 .f32 :=
  addf (matmul dot_S5000x64_S64x20_S5000x20_1_0_0_1_n_n none (truncf .bf16 (shapeCast S5000x64 v0 shapeCasts_S5000x64_S5000x64) bitsLt_bf16_f32)
      (truncf .bf16 v3 bitsLt_bf16_f32) (constant S5000x20 .f32 0x00000000#32))
    (broadcastTo S5000x20 (shapeCast S1x20 v6 shapeCasts_S20_S1x20) broadcasts_S1x20_S5000x20)

theorem k9_pay1_eq : Cert.KernelIdeal.Gen.k9_pay1 (F := Ideal) = projPay := rfl

/-- Entry (p, j) of the output projection of a block of rows is entry (r, j) of that of the whole array. -/
theorem proj_point (h : FVec Ideal Cert.ReferenceIdeal.S100000x64 .f32) (w : FVec Ideal Cert.ReferenceIdeal.S64x20 .f32)
    (b : FVec Ideal Cert.ReferenceIdeal.S20 .f32) (hb' : Vec Ideal S5000x64 .f32) (wb : Vec Ideal S64x20 .f32) (bb : Vec Ideal S20 .f32)
    (p : Fin 5000) (r : Fin 100000) (j : Fin 20)
    (hh : ∀ c : Fin 64, hb' (ix2 p c) = h (ix2 r c)) (hw : wb = w) (hb : bb = b) :
    projPay hb' wb bb (ix2 p j) = projOf h w b (ix2 r j) := by
  subst hw hb
  unfold projPay projOf
  rw [shapeCast_self, matmul_zero_eq_dotGeneral]
  rw [Cert.RowLib.dotDims_eq_plain dot_S5000x64_S64x20_S5000x20_1_0_0_1_n_n rfl rfl rfl rfl rfl rfl,
    Cert.RowLib.dotDims_eq_plain Cert.ReferenceIdeal.dot_S100000x64_S64x20_S100000x20_1_0_0_1_n_n rfl rfl rfl rfl rfl rfl]
  have hd := dotGeneral_plain_row (φ₁ := .f32) (φ₂ := .f32) none none h (truncf .bf16 hb' bitsLt_bf16_f32) wb (truncf .bf16 wb bitsLt_bf16_f32)
    p r j (fun c => hh c) (fun c => rfl)
  show FloatOps.addf (Host.dotGeneral _ none _ _ (ix2 p j)) (broadcastTo _ _ _ (ix2 p j))
    = FloatOps.addf (Host.dotGeneral _ none _ _ (ix2 r j)) (broadcastInDim _ _ _ _ (ix2 r j))
  rw [hd, bias_rows_apply (by decide), bias_rows_host_apply (by decide)]

/-- The same three facts at general indices: y in the block, i in the array, in the same column, the block's row being the array's. -/
theorem mix_at (P Q : BitVec 32) (a x0 : FVec Ideal Cert.ReferenceIdeal.S100000x64 .f32) (w : FVec Ideal Cert.ReferenceIdeal.S64x64 .f32)
    (ab xb : Vec Ideal S10000x64 .f32) (wb : Vec Ideal S64x64 .f32) (y : S10000x64.Idx) (i : Cert.ReferenceIdeal.S100000x64.Idx)
    (hcol : (y 1).val = (i 1).val)
    (ha : ∀ c : Fin 64, ab (ix2 (y 0) c) = a (ix2 (i 0) c)) (hx : ∀ c : Fin 64, xb (ix2 (y 0) c) = x0 (ix2 (i 0) c)) (hw : wb = w) :
    mixPay P Q ab xb wb y = mixOf P Q a x0 w i := by
  have e : i 1 = y 1 := Fin.ext hcol.symm
  rw [eq_ix2 y, eq_ix2 i, e]
  exact mix_point P Q a x0 w ab xb wb (y 0) (i 0) (y 1) ha hx hw

theorem lin_at (x : FVec Ideal Cert.ReferenceIdeal.S100000x300 .f32) (w : FVec Ideal Cert.ReferenceIdeal.S300x64 .f32)
    (b : FVec Ideal Cert.ReferenceIdeal.S64 .f32) (xb : Vec Ideal S5000x300 .f32) (wb : Vec Ideal S300x64 .f32) (bb : Vec Ideal S64 .f32)
    (y : S5000x64.Idx) (i : Cert.ReferenceIdeal.S100000x64.Idx) (hcol : (y 1).val = (i 1).val)
    (hx : ∀ c : Fin 300, xb (ix2 (y 0) c) = x (ix2 (i 0) c)) (hw : wb = w) (hb : bb = b) :
    linPay xb wb bb y = linOf x w b i := by
  have e : i 1 = y 1 := Fin.ext hcol.symm
  rw [eq_ix2 y, eq_ix2 i, e]
  exact lin_point x w b xb wb bb (y 0) (i 0) (y 1) hx hw hb

theorem proj_at (h : FVec Ideal Cert.ReferenceIdeal.S100000x64 .f32) (w : FVec Ideal Cert.ReferenceIdeal.S64x20 .f32)
    (b : FVec Ideal Cert.ReferenceIdeal.S20 .f32) (hb' : Vec Ideal S5000x64 .f32) (wb : Vec Ideal S64x20 .f32) (bb : Vec Ideal S20 .f32)
    (y : S5000x20.Idx) (i : Cert.ReferenceIdeal.S100000x20.Idx) (hcol : (y 1).val = (i 1).val)
    (hh : ∀ c : Fin 64, hb' (ix2 (y 0) c) = h (ix2 (i 0) c)) (hw : wb = w) (hb : bb = b) :
    projPay hb' wb bb y = projOf h w b i := by
  have e : i 1 = y 1 := Fin.ext hcol.symm
  rw [eq_ix2 y, eq_ix2 i, e]
  exact proj_point h w b hb' wb bb (y 0) (i 0) (y 1) hh hw hb

end Mix

end Cert.Gcn.Stages

end
-- ==== Proof.Regions.lean ====
/-
  What each of the ten tiled stages leaves in its output array, as ONE whole-array operation of the arrays it finds:
  the input projection, the eight layer mixes, the output projection.  A stage works on a block of consecutive rows
  at a time (5000 or 10000 of the 100000); the point that handles block q reads rows q·size … of its row-tiled operands
  and all of the small weight matrix, and writes rows q·size … of the result.  Every entry (r, j) of the result depends
  only on row r of the row-tiled operands, so the blocks side by side are the whole-array operation; and row r lies in
  block r / size, so the blocks cover the array.
-/
import proofs.«103257_j52364241273198_2_alg».proof.Proof.Gen.KernelIdeal.Frame
import proofs.«103257_j52364241273198_2_alg».proof.Proof.Gen.ReferenceIdeal
import proofs.«103257_j52364241273198_2_alg».proof.Proof.Model
import proofs.«103257_j52364241273198_2_alg».proof.Proof.Stages
import Idealize.ShloMosaic.Lib.Pipeline.Value
import Idealize.ShloMosaic.Lib.ValueIdx

set_option maxRecDepth 16384

noncomputable section

namespace Cert.Gcn.Regions

open Idealize.ShloMosaic Idealize.ShloMosaic.TcCoe Idealize.SL.Sem
open Cert.KernelIdeal Cert.KernelIdeal.Gen Cert.Gcn

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The input projection: twenty blocks of 5000 rows -/

theorem idx0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0 ∧ win0_3.index t (1 : Fin 2) = 0 :=
  (by decide +kernel : ∀ t : Fin grid0.N, _)

theorem onto0 : ∀ q : Fin 20, ∃ t : Fin cfg0.N, win0_3.index t = ![q.val, 0] :=
  (by decide +kernel : ∀ q : Fin 20, ∃ t : Fin grid0.N, win0_3.index t = ![q.val, 0])

/-- What a point writes back is its block of the whole-array projection. -/
theorem flushed0 (c : Dev nD) (t : Fin cfg0.N) :
    (dat0 (F := Ideal) V c).flushed 3 t = ((cfg0.win 3).blk t).view.read (Elt Ideal)
      (linOf (V c main_arg0) (V c main_arg3) (V c main_arg4)) := by
  show (cfg0.win 3).cut (grid0.coords t) ((dat0 V c).after 3 t) = _
  rw [after0_3]
  unfold out0_3
  rw [View.canon_unit_zero hz2]
  simp only [View.ld_unit_zero (S := S5000x300) hz2, View.ld_unit_zero (S := S300x64) hz2, View.ld_unit_zero (S := S64) hz1]
  rw [Stages.k0_pay1_eq]
  obtain ⟨e00, e01, e10, e11, e20, e31⟩ := idx0 t
  funext y
  show Stages.linPay (iblk0 V c 0 t) (iblk0 V c 1 t) (iblk0 V c 2 t) y
    = linOf (V c main_arg0) (V c main_arg3) (V c main_arg4) (((cfg0.win 3).blk t).view.emb y)
  refine Stages.lin_at (V c main_arg0) (V c main_arg3) (V c main_arg4) (iblk0 V c 0 t) (iblk0 V c 1 t) (iblk0 V c 2 t)
    y (((cfg0.win 3).blk t).view.emb y) ?_ (fun k => ?_) (funext fun z => ?_) (funext fun z => ?_)
  · show (y 1).val = win0_3.index t (1 : Fin 2) * 64 + 1 * (y 1).val
    omega
  · show V c main_arg0 (((cfg0.win 0).blk t).view.emb (ValueIdx.ix2 (y 0) k)) = V c main_arg0 (ValueIdx.ix2 ((((cfg0.win 3).blk t).view.emb y) 0) k)
    refine congrArg _ (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 300 + 1 * k.val = k.val; omega
  · show V c main_arg3 (((cfg0.win 1).blk t).view.emb z) = V c main_arg3 z
    refine congrArg _ (funext fun a => Fin.ext ?_)
    match a with
    | ⟨0, _⟩ => show win0_1.index t (0 : Fin 2) * 300 + 1 * (z 0).val = (z 0).val; omega
    | ⟨1, _⟩ => show win0_1.index t (1 : Fin 2) * 64 + 1 * (z 1).val = (z 1).val; omega
  · show V c main_arg4 (((cfg0.win 2).blk t).view.emb z) = V c main_arg4 z
    refine congrArg _ (funext fun a => Fin.ext ?_)
    match a with
    | ⟨0, _⟩ => show win0_2.index t (0 : Fin 1) * 64 + 1 * (z 0).val = (z 0).val; omega

theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v32).slice (win0_3.rect t)).set ↔ _
  rw [View.set_slice_whole, Rect.mem_set_unit]
  exact Iff.rfl

/-- Row r lies in block r / 5000: the twenty blocks cover the array. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

theorem region0 (c : Dev nD) :
    (dat0 (F := Ideal) V c).arrAt 3 cfg0.N = linOf (V c main_arg0) (V c main_arg3) (V c main_arg4) :=
  (dat0 (F := Ideal) V c).arrAt_eq_of_cover 3 _ (fun t _ => flushed0 V c t) cover0

/-! ## Layer 1's mix: ten blocks of 10000 rows -/

/-- The windows' block numbers at every grid point: the three row-tiled windows move together, one block per point; the
    weight matrix is one block. -/
theorem idx1 : ∀ t : Fin cfg1.N, win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0 ∧ win1_3.index t (1 : Fin 2) = 0 :=
  (by decide +kernel : ∀ t : Fin grid1.N, _)

theorem onto1 : ∀ q : Fin 10, ∃ t : Fin cfg1.N, win1_3.index t = ![q.val, 0] :=
  (by decide +kernel : ∀ q : Fin 10, ∃ t : Fin grid1.N, win1_3.index t = ![q.val, 0])

/-- What a point writes back is its block of the whole-array mix. -/
theorem flushed1 (c : Dev nD) (t : Fin cfg1.N) :
    (dat1 (F := Ideal) V c).flushed 3 t = ((cfg1.win 3).blk t).view.read (Elt Ideal)
      (mixOf 0x3F183370#32 0x3ECF991F#32 (V c main_v45) (V c main_v32) (V c main_v47)) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S64x64) hz2]
  rw [Stages.k1_pay1_eq]
  obtain ⟨e00, e01, e10, e11, e20, e21, e31⟩ := idx1 t
  funext y
  show Stages.mixPay 0x3F183370#32 0x3ECF991F#32 (iblk1 V c 0 t) (iblk1 V c 1 t) (iblk1 V c 2 t) y
    = mixOf 0x3F183370#32 0x3ECF991F#32 (V c main_v45) (V c main_v32) (V c main_v47) (((cfg1.win 3).blk t).view.emb y)
  refine Stages.mix_at 0x3F183370#32 0x3ECF991F#32 (V c main_v45) (V c main_v32) (V c main_v47) (iblk1 V c 0 t) (iblk1 V c 1 t) (iblk1 V c 2 t)
    y (((cfg1.win 3).blk t).view.emb y) ?_ (fun k => ?_) (fun k => ?_) (funext fun z => ?_)
  · show (y 1).val = win1_3.index t (1 : Fin 2) * 64 + 1 * (y 1).val
    omega
  · show V c main_v45 (((cfg1.win 0).blk t).view.emb (ValueIdx.ix2 (y 0) k)) = V c main_v45 (ValueIdx.ix2 ((((cfg1.win 3).blk t).view.emb y) 0) k)
    refine congrArg _ (funext fun a => Fin.ext ?_)
    match a with
    | ⟨0, _⟩ => show win1_0.index t (0 : Fin 2) * 10000 + 1 * (y 0).val = win1_3.index t (0 : Fin 2) * 10000 + 1 * (y 0).val; omega
    | ⟨1, _⟩ => show win1_0.index t (1 : Fin 2) * 64 + 1 * k.val = k.val; omega
  · show V c main_v32 (((cfg1.win 1).blk t).view.emb (ValueIdx.ix2 (y 0) k)) = V c main_v32 (ValueIdx.ix2 ((((cfg1.win 3).blk t).view.emb y) 0) k)
    refine congrArg _ (funext fun a => Fin.ext ?_)
    match a with
    | ⟨0, _⟩ => show win1_1.index t (0 : Fin 2) * 10000 + 1 * (y 0).val = win1_3.index t (0 : Fin 2) * 10000 + 1 * (y 0).val; omega
    | ⟨1, _⟩ => show win1_1.index t (1 : Fin 2) * 64 + 1 * k.val = k.val; omega
  · show V c main_v47 (((cfg1.win 2).blk t).view.emb z) = V c main_v47 z
    refine congrArg _ (funext fun a => Fin.ext ?_)
    match a with
    | ⟨0, _⟩ => show win1_2.index t (0 : Fin 2) * 64 + 1 * (z 0).val = (z 0).val; omega
    | ⟨1, _⟩ => show win1_2.index t (1 : Fin 2) * 64 + 1 * (z 1).val = (z 1).val; omega

/-- An index is in a point's block iff each coordinate is in the block's range. -/
theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v48).slice (win1_3.rect t)).set ↔ _
  rw [View.set_slice_whole, Rect.mem_set_unit]
  exact Iff.rfl

/-- Row r lies in block r / 10000: the ten blocks cover the array. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

theorem region1 (c : Dev nD) :
    (dat1 (F := Ideal) V c).arrAt 3 cfg1.N = mixOf 0x3F183370#32 0x3ECF991F#32 (V c main_v45) (V c main_v32) (V c main_v47) :=
  (dat1 (F := Ideal) V c).arrAt_eq_of_cover 3 _ (fun t _ => flushed1 V c t) cover1

/-! ## Layer 2's mix: ten blocks of 10000 rows -/

/-- The windows' block numbers at every grid point: the three row-tiled windows move together, one block per point; the
    weight matrix is one block. -/
theorem idx2 : ∀ t : Fin cfg2.N, win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0 ∧ win2_3.index t (1 : Fin 2) = 0 :=
  (by decide +kernel : ∀ t : Fin grid2.N, _)

theorem onto2 : ∀ q : Fin 10, ∃ t : Fin cfg2.N, win2_3.index t = ![q.val, 0] :=
  (by decide +kernel : ∀ q : Fin 10, ∃ t : Fin grid2.N, win2_3.index t = ![q.val, 0])

/-- What a point writes back is its block of the whole-array mix. -/
theorem flushed2 (c : Dev nD) (t : Fin cfg2.N) :
    (dat2 (F := Ideal) V c).flushed 3 t = ((cfg2.win 3).blk t).view.read (Elt Ideal)
      (mixOf 0x3F46E010#32 0x3E647FBE#32 (V c main_v61) (V c main_v32) (V c main_v63)) := by
  show (cfg2.win 3).cut (grid2.coords t) ((dat2 V c).after 3 t) = _
  rw [after2_3]
  unfold out2_3
  rw [View.canon_unit_zero hz2]
  simp only [View.ld_unit_zero (S := S10000x64) hz2, View.ld_unit_zero (S := S64x64) hz2]
  rw [Stages.k2_pay1_eq]
  obtain ⟨e00, e01, e10, e11, e20, e21, e31⟩ := idx2 t
  funext y
  show Stages.mixPay 0x3F46E010#32 0x3E647FBE#32 (iblk2 V c 0 t) (iblk2 V c 1 t) (iblk2 V c 2 t) y
    = mixOf 0x3F46E010#32 0x3E647FBE#32 (V c main_v61) (V c main_v32) (V c main_v63) (((cfg2.win 3).blk t).view.emb y)
  refine Stages.mix_at 0x3F46E010#32 0x3E647FBE#32 (V c main_v61) (V c main_v32) (V c main_v63) (iblk2 V c 0 t) (iblk2 V c 1 t) (iblk2 V c 2 t)
    y (((cfg2.win 3).blk t).view.emb y) ?_ (fun k => ?_) (fun k => ?_) (funext fun z => ?_)
  · show (y 1).val = win2_3.index t (1 : Fin 2) * 64 + 1 * (y 1).val
    omega
  · show V c main_v61 (((cfg2.win 0).blk t).view.emb (ValueIdx.ix2 (y 0) k)) = V c main_v61 (ValueIdx.ix2 ((((cfg2.win 3).blk t).view.emb y) 0) k)
    refine congrArg _ (funext fun a => Fin.ext ?_)
    match a with
    | ⟨0, _⟩ => show win2_0.index t (0 : Fin 2) * 10000 + 1 * (y 0).val = win2_3.index t (0 : Fin 2) * 10000 + 1 * (y 0).val; omega
    | ⟨1, _⟩ => show win2_0.index t (1 : Fin 2) * 64 + 1 * k.val = k.val; omega
  · show V c main_v32 (((cfg2.win 1).blk t).view.emb (ValueIdx.ix2 (y 0) k)) = V c main_v32 (ValueIdx.ix2 ((((cfg2.win 3).blk t).view.emb y) 0) k)
    refine congrArg _ (funext fun a => Fin.ext ?_)
    match a with
    | ⟨0, _⟩ => show win2_1.index t (0 : Fin 2) * 10000 + 1 * (y 0).val = win2_3.index t (0 : Fin 2) * 10000 + 1 * (y 0).val; omega
    | ⟨1, _⟩ => show win2_1.index t (1 : Fin 2) * 64 + 1 * k.val = k.val; omega
  · show V c main_v63 (((cfg2.win 2).blk t).view.emb z) = V c main_v63 z
    refine congrArg _ (funext fun a => Fin.ext ?_)
    match a with
    | ⟨0, _⟩ => show win2_2.index t (0 : Fin 2) * 64 + 1 * (z 0).val = (z 0).val; omega
    | ⟨1, _⟩ => show win2_2.index t (1 : Fin 2) * 64 + 1 * (z 1).val = (z 1).val; omega

/-- An index is in a point's block iff each coordinate is in the block's range. -/
theorem mem_blk2 (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v64).slice (win2_3.rect t)).set ↔ _
  rw [View.set_slice_whole, Rect.mem_set_unit]
  exact Iff.rfl

/-- Row r lies in block r / 10000: the ten blocks cover the array. -/
theorem cover2 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := onto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

theorem region2 (c : Dev nD) :
    (dat2 (F := Ideal) V c).arrAt 3 cfg2.N = mixOf 0x3F46E010#32 0x3E647FBE#32 (V c main_v61) (V c main_v32) (V c main_v63) :=
  (dat2 (F := Ideal) V c).arrAt_eq_of_cover 3 _ (fun t _ => flushed2 V c t) cover2

/-! ## Layer 3's mix: ten blocks of 10000 rows -/

/-- The windows' block numbers at every grid point: the three row-tiled windows move together, one block per point; the
    weight matrix is one block. -/
theorem idx3 : ∀ t : Fin cfg3.N, win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0 ∧ win3_3.index t (1 : Fin 2) = 0 :=
  (by decide +kernel : ∀ t : Fin grid3.N, _)

theorem onto3 : ∀ q : Fin 10, ∃ t : Fin cfg3.N, win3_3.index t = ![q.val, 0] :=
  (by decide +kernel : ∀ q : Fin 10, ∃ t : Fin grid3.N, win3_3.index t = ![q.val, 0])

/-- What a point writes back is its block of the whole-array mix. -/
theorem flushed3 (c : Dev nD) (t : Fin cfg3.N) :
    (dat3 (F := Ideal) V c).flushed 3 t = ((cfg3.win 3).blk t).view.read (Elt Ideal)
      (mixOf 0x3F588995#32 0x3E1DD9AD#32 (V c main_v77) (V c main_v32) (V c main_v79)) := by
  show (cfg3.win 3).cut (grid3.coords t) ((dat3 V c).after 3 t) = _
  rw [after3_3]
  unfold out3_3
  rw [View.canon_unit_zero hz2]
  simp only [View.ld_unit_zero (S := S10000x64) hz2, View.ld_unit_zero (S := S64x64) hz2]
  rw [Stages.k3_pay1_eq]
  obtain ⟨e00, e01, e10, e11, e20, e21, e31⟩ := idx3 t
  funext y
  show Stages.mixPay 0x3F588995#32 0x3E1DD9AD#32 (iblk3 V c 0 t) (iblk3 V c 1 t) (iblk3 V c 2 t) y
    = mixOf 0x3F588995#32 0x3E1DD9AD#32 (V c main_v77) (V c main_v32) (V c main_v79) (((cfg3.win 3).blk t).view.emb y)
  refine Stages.mix_at 0x3F588995#32 0x3E1DD9AD#32 (V c main_v77) (V c main_v32) (V c main_v79) (iblk3 V c 0 t) (iblk3 V c 1 t) (iblk3 V c 2 t)
    y (((cfg3.win 3).blk t).view.emb y) ?_ (fun k => ?_) (fun k => ?_) (funext fun z => ?_)
  · show (y 1).val = win3_3.index t (1 : Fin 2) * 64 + 1 * (y 1).val
    omega
  · show V c main_v77 (((cfg3.win 0).blk t).view.emb (ValueIdx.ix2 (y 0) k)) = V c main_v77 (ValueIdx.ix2 ((((cfg3.win 3).blk t).view.emb y) 0) k)
    refine congrArg _ (funext fun a => Fin.ext ?_)
    match a with
    | ⟨0, _⟩ => show win3_0.index t (0 : Fin 2) * 10000 + 1 * (y 0).val = win3_3.index t (0 : Fin 2) * 10000 + 1 * (y 0).val; omega
    | ⟨1, _⟩ => show win3_0.index t (1 : Fin 2) * 64 + 1 * k.val = k.val; omega
  · show V c main_v32 (((cfg3.win 1).blk t).view.emb (ValueIdx.ix2 (y 0) k)) = V c main_v32 (ValueIdx.ix2 ((((cfg3.win 3).blk t).view.emb y) 0) k)
    refine congrArg _ (funext fun a => Fin.ext ?_)
    match a with
    | ⟨0, _⟩ => show win3_1.index t (0 : Fin 2) * 10000 + 1 * (y 0).val = win3_3.index t (0 : Fin 2) * 10000 + 1 * (y 0).val; omega
    | ⟨1, _⟩ => show win3_1.index t (1 : Fin 2) * 64 + 1 * k.val = k.val; omega
  · show V c main_v79 (((cfg3.win 2).blk t).view.emb z) = V c main_v79 z
    refine congrArg _ (funext fun a => Fin.ext ?_)
    match a with
    | ⟨0, _⟩ => show win3_2.index t (0 : Fin 2) * 64 + 1 * (z 0).val = (z 0).val; omega
    | ⟨1, _⟩ => show win3_2.index t (1 : Fin 2) * 64 + 1 * (z 1).val = (z 1).val; omega

/-- An index is in a point's block iff each coordinate is in the block's range. -/
theorem mem_blk3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v80).slice (win3_3.rect t)).set ↔ _
  rw [View.set_slice_whole, Rect.mem_set_unit]
  exact Iff.rfl

/-- Row r lies in block r / 10000: the ten blocks cover the array. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := onto3 ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

theorem region3 (c : Dev nD) :
    (dat3 (F := Ideal) V c).arrAt 3 cfg3.N = mixOf 0x3F588995#32 0x3E1DD9AD#32 (V c main_v77) (V c main_v32) (V c main_v79) :=
  (dat3 (F := Ideal) V c).arrAt_eq_of_cover 3 _ (fun t _ => flushed3 V c t) cover3

/-! ## Layer 4's mix: ten blocks of 10000 rows -/

/-- The windows' block numbers at every grid point: the three row-tiled windows move together, one block per point; the
    weight matrix is one block. -/
theorem idx4 : ∀ t : Fin cfg4.N, win4_0.index t (0 : Fin 2) = win4_3.index t (0 : Fin 2) ∧ win4_0.index t (1 : Fin 2) = 0
    ∧ win4_1.index t (0 : Fin 2) = win4_3.index t (0 : Fin 2) ∧ win4_1.index t (1 : Fin 2) = 0
    ∧ win4_2.index t (0 : Fin 2) = 0 ∧ win4_2.index t (1 : Fin 2) = 0 ∧ win4_3.index t (1 : Fin 2) = 0 :=
  (by decide +kernel : ∀ t : Fin grid4.N, _)

theorem onto4 : ∀ q : Fin 10, ∃ t : Fin cfg4.N, win4_3.index t = ![q.val, 0] :=
  (by decide +kernel : ∀ q : Fin 10, ∃ t : Fin grid4.N, win4_3.index t = ![q.val, 0])

/-- What a point writes back is its block of the whole-array mix. -/
theorem flushed4 (c : Dev nD) (t : Fin cfg4.N) :
    (dat4 (F := Ideal) V c).flushed 3 t = ((cfg4.win 3).blk t).view.read (Elt Ideal)
      (mixOf 0x3F61D8F9#32 0x3DF1383B#32 (V c main_v93) (V c main_v32) (V c main_v95)) := by
  show (cfg4.win 3).cut (grid4.coords t) ((dat4 V c).after 3 t) = _
  rw [after4_3]
  unfold out4_3
  rw [View.canon_unit_zero hz2]
  simp only [View.ld_unit_zero (S := S10000x64) hz2, View.ld_unit_zero (S := S64x64) hz2]
  rw [Stages.k4_pay1_eq]
  obtain ⟨e00, e01, e10, e11, e20, e21, e31⟩ := idx4 t
  funext y
  show Stages.mixPay 0x3F61D8F9#32 0x3DF1383B#32 (iblk4 V c 0 t) (iblk4 V c 1 t) (iblk4 V c 2 t) y
    = mixOf 0x3F61D8F9#32 0x3DF1383B#32 (V c main_v93) (V c main_v32) (V c main_v95) (((cfg4.win 3).blk t).view.emb y)
  refine Stages.mix_at 0x3F61D8F9#32 0x3DF1383B#32 (V c main_v93) (V c main_v32) (V c main_v95) (iblk4 V c 0 t) (iblk4 V c 1 t) (iblk4 V c 2 t)
    y (((cfg4.win 3).blk t).view.emb y) ?_ (fun k => ?_) (fun k => ?_) (funext fun z => ?_)
  · show (y 1).val = win4_3.index t (1 : Fin 2) * 64 + 1 * (y 1).val
    omega
  · show V c main_v93 (((cfg4.win 0).blk t).view.emb (ValueIdx.ix2 (y 0) k)) = V c main_v93 (ValueIdx.ix2 ((((cfg4.win 3).blk t).view.emb y) 0) k)
    refine congrArg _ (funext fun a => Fin.ext ?_)
    match a with
    | ⟨0, _⟩ => show win4_0.index t (0 : Fin 2) * 10000 + 1 * (y 0).val = win4_3.index t (0 : Fin 2) * 10000 + 1 * (y 0).val; omega
    | ⟨1, _⟩ => show win4_0.index t (1 : Fin 2) * 64 + 1 * k.val = k.val; omega
  · show V c main_v32 (((cfg4.win 1).blk t).view.emb (ValueIdx.ix2 (y 0) k)) = V c main_v32 (ValueIdx.ix2 ((((cfg4.win 3).blk t).view.emb y) 0) k)
    refine congrArg _ (funext fun a => Fin.ext ?_)
    match a with
    | ⟨0, _⟩ => show win4_1.index t (0 : Fin 2) * 10000 + 1 * (y 0).val = win4_3.index t (0 : Fin 2) * 10000 + 1 * (y 0).val; omega
    | ⟨1, _⟩ => show win4_1.index t (1 : Fin 2) * 64 + 1 * k.val = k.val; omega
  · show V c main_v95 (((cfg4.win 2).blk t).view.emb z) = V c main_v95 z
    refine congrArg _ (funext fun a => Fin.ext ?_)
    match a with
    | ⟨0, _⟩ => show win4_2.index t (0 : Fin 2) * 64 + 1 * (z 0).val = (z 0).val; omega
    | ⟨1, _⟩ => show win4_2.index t (1 : Fin 2) * 64 + 1 * (z 1).val = (z 1).val; omega

/-- An index is in a point's block iff each coordinate is in the block's range. -/
theorem mem_blk4 (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v96).slice (win4_3.rect t)).set ↔ _
  rw [View.set_slice_whole, Rect.mem_set_unit]
  exact Iff.rfl

/-- Row r lies in block r / 10000: the ten blocks cover the array. -/
theorem cover4 (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := onto4 ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

theorem region4 (c : Dev nD) :
    (dat4 (F := Ideal) V c).arrAt 3 cfg4.N = mixOf 0x3F61D8F9#32 0x3DF1383B#32 (V c main_v93) (V c main_v32) (V c main_v95) :=
  (dat4 (F := Ideal) V c).arrAt_eq_of_cover 3 _ (fun t _ => flushed4 V c t) cover4

/-! ## Layer 5's mix: ten blocks of 10000 rows -/

/-- The windows' block numbers at every grid point: the three row-tiled windows move together, one block per point; the
    weight matrix is one block. -/
theorem idx5 : ∀ t : Fin cfg5.N, win5_0.index t (0 : Fin 2) = win5_3.index t (0 : Fin 2) ∧ win5_0.index t (1 : Fin 2) = 0
    ∧ win5_1.index t (0 : Fin 2) = win5_3.index t (0 : Fin 2) ∧ win5_1.index t (1 : Fin 2) = 0
    ∧ win5_2.index t (0 : Fin 2) = 0 ∧ win5_2.index t (1 : Fin 2) = 0 ∧ win5_3.index t (1 : Fin 2) = 0 :=
  (by decide +kernel : ∀ t : Fin grid5.N, _)

theorem onto5 : ∀ q : Fin 10, ∃ t : Fin cfg5.N, win5_3.index t = ![q.val, 0] :=
  (by decide +kernel : ∀ q : Fin 10, ∃ t : Fin grid5.N, win5_3.index t = ![q.val, 0])

/-- What a point writes back is its block of the whole-array mix. -/
theorem flushed5 (c : Dev nD) (t : Fin cfg5.N) :
    (dat5 (F := Ideal) V c).flushed 3 t = ((cfg5.win 3).blk t).view.read (Elt Ideal)
      (mixOf 0x3F6799C1#32 0x3DC331FC#32 (V c main_v109) (V c main_v32) (V c main_v111)) := by
  show (cfg5.win 3).cut (grid5.coords t) ((dat5 V c).after 3 t) = _
  rw [after5_3]
  unfold out5_3
  rw [View.canon_unit_zero hz2]
  simp only [View.ld_unit_zero (S := S10000x64) hz2, View.ld_unit_zero (S := S64x64) hz2]
  rw [Stages.k5_pay1_eq]
  obtain ⟨e00, e01, e10, e11, e20, e21, e31⟩ := idx5 t
  funext y
  show Stages.mixPay 0x3F6799C1#32 0x3DC331FC#32 (iblk5 V c 0 t) (iblk5 V c 1 t) (iblk5 V c 2 t) y
    = mixOf 0x3F6799C1#32 0x3DC331FC#32 (V c main_v109) (V c main_v32) (V c main_v111) (((cfg5.win 3).blk t).view.emb y)
  refine Stages.mix_at 0x3F6799C1#32 0x3DC331FC#32 (V c main_v109) (V c main_v32) (V c main_v111) (iblk5 V c 0 t) (iblk5 V c 1 t) (iblk5 V c 2 t)
    y (((cfg5.win 3).blk t).view.emb y) ?_ (fun k => ?_) (fun k => ?_) (funext fun z => ?_)
  · show (y 1).val = win5_3.index t (1 : Fin 2) * 64 + 1 * (y 1).val
    omega
  · show V c main_v109 (((cfg5.win 0).blk t).view.emb (ValueIdx.ix2 (y 0) k)) = V c main_v109 (ValueIdx.ix2 ((((cfg5.win 3).blk t).view.emb y) 0) k)
    refine congrArg _ (funext fun a => Fin.ext ?_)
    match a with
    | ⟨0, _⟩ => show win5_0.index t (0 : Fin 2) * 10000 + 1 * (y 0).val = win5_3.index t (0 : Fin 2) * 10000 + 1 * (y 0).val; omega
    | ⟨1, _⟩ => show win5_0.index t (1 : Fin 2) * 64 + 1 * k.val = k.val; omega
  · show V c main_v32 (((cfg5.win 1).blk t).view.emb (ValueIdx.ix2 (y 0) k)) = V c main_v32 (ValueIdx.ix2 ((((cfg5.win 3).blk t).view.emb y) 0) k)
    refine congrArg _ (funext fun a => Fin.ext ?_)
    match a with
    | ⟨0, _⟩ => show win5_1.index t (0 : Fin 2) * 10000 + 1 * (y 0).val = win5_3.index t (0 : Fin 2) * 10000 + 1 * (y 0).val; omega
    | ⟨1, _⟩ => show win5_1.index t (1 : Fin 2) * 64 + 1 * k.val = k.val; omega
  · show V c main_v111 (((cfg5.win 2).blk t).view.emb z) = V c main_v111 z
    refine congrArg _ (funext fun a => Fin.ext ?_)
    match a with
    | ⟨0, _⟩ => show win5_2.index t (0 : Fin 2) * 64 + 1 * (z 0).val = (z 0).val; omega
    | ⟨1, _⟩ => show win5_2.index t (1 : Fin 2) * 64 + 1 * (z 1).val = (z 1).val; omega

/-- An index is in a point's block iff each coordinate is in the block's range. -/
theorem mem_blk5 (t : Fin cfg5.N) (i : S100000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v112).slice (win5_3.rect t)).set ↔ _
  rw [View.set_slice_whole, Rect.mem_set_unit]
  exact Iff.rfl

/-- Row r lies in block r / 10000: the ten blocks cover the array. -/
theorem cover5 (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  obtain ⟨t, ht⟩ := onto5 ⟨(i 0).val / 10000, by omega⟩
  have q0 : win5_3.index t (0 : Fin 2) = (i 0).val / 10000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 64 ≤ (i 1).val ∧ (i 1).val < win5_3.index t (1 : Fin 2) * 64 + 64; omega

theorem region5 (c : Dev nD) :
    (dat5 (F := Ideal) V c).arrAt 3 cfg5.N = mixOf 0x3F6799C1#32 0x3DC331FC#32 (V c main_v109) (V c main_v32) (V c main_v111) :=
  (dat5 (F := Ideal) V c).arrAt_eq_of_cover 3 _ (fun t _ => flushed5 V c t) cover5

/-! ## Layer 6's mix: ten blocks of 10000 rows -/

/-- The windows' block numbers at every grid point: the three row-tiled windows move together, one block per point; the
    weight matrix is one block. -/
theorem idx6 : ∀ t : Fin cfg6.N, win6_0.index t (0 : Fin 2) = win6_3.index t (0 : Fin 2) ∧ win6_0.index t (1 : Fin 2) = 0
    ∧ win6_1.index t (0 : Fin 2) = win6_3.index t (0 : Fin 2) ∧ win6_1.index t (1 : Fin 2) = 0
    ∧ win6_2.index t (0 : Fin 2) = 0 ∧ win6_2.index t (1 : Fin 2) = 0 ∧ win6_3.index t (1 : Fin 2) = 0 :=
  (by decide +kernel : ∀ t : Fin grid6.N, _)

theorem onto6 : ∀ q : Fin 10, ∃ t : Fin cfg6.N, win6_3.index t = ![q.val, 0] :=
  (by decide +kernel : ∀ q : Fin 10, ∃ t : Fin grid6.N, win6_3.index t = ![q.val, 0])

/-- What a point writes back is its block of the whole-array mix. -/
theorem flushed6 (c : Dev nD) (t : Fin cfg6.N) :
    (dat6 (F := Ideal) V c).flushed 3 t = ((cfg6.win 3).blk t).view.read (Elt Ideal)
      (mixOf 0x3F6B8252#32 0x3DA3ED6E#32 (V c main_v125) (V c main_v32) (V c main_v127)) := by
  show (cfg6.win 3).cut (grid6.coords t) ((dat6 V c).after 3 t) = _
  rw [after6_3]
  unfold out6_3
  rw [View.canon_unit_zero hz2]
  simp only [View.ld_unit_zero (S := S10000x64) hz2, View.ld_unit_zero (S := S64x64) hz2]
  rw [Stages.k6_pay1_eq]
  obtain ⟨e00, e01, e10, e11, e20, e21, e31⟩ := idx6 t
  funext y
  show Stages.mixPay 0x3F6B8252#32 0x3DA3ED6E#32 (iblk6 V c 0 t) (iblk6 V c 1 t) (iblk6 V c 2 t) y
    = mixOf 0x3F6B8252#32 0x3DA3ED6E#32 (V c main_v125) (V c main_v32) (V c main_v127) (((cfg6.win 3).blk t).view.emb y)
  refine Stages.mix_at 0x3F6B8252#32 0x3DA3ED6E#32 (V c main_v125) (V c main_v32) (V c main_v127) (iblk6 V c 0 t) (iblk6 V c 1 t) (iblk6 V c 2 t)
    y (((cfg6.win 3).blk t).view.emb y) ?_ (fun k => ?_) (fun k => ?_) (funext fun z => ?_)
  · show (y 1).val = win6_3.index t (1 : Fin 2) * 64 + 1 * (y 1).val
    omega
  · show V c main_v125 (((cfg6.win 0).blk t).view.emb (ValueIdx.ix2 (y 0) k)) = V c main_v125 (ValueIdx.ix2 ((((cfg6.win 3).blk t).view.emb y) 0) k)
    refine congrArg _ (funext fun a => Fin.ext ?_)
    match a with
    | ⟨0, _⟩ => show win6_0.index t (0 : Fin 2) * 10000 + 1 * (y 0).val = win6_3.index t (0 : Fin 2) * 10000 + 1 * (y 0).val; omega
    | ⟨1, _⟩ => show win6_0.index t (1 : Fin 2) * 64 + 1 * k.val = k.val; omega
  · show V c main_v32 (((cfg6.win 1).blk t).view.emb (ValueIdx.ix2 (y 0) k)) = V c main_v32 (ValueIdx.ix2 ((((cfg6.win 3).blk t).view.emb y) 0) k)
    refine congrArg _ (funext fun a => Fin.ext ?_)
    match a with
    | ⟨0, _⟩ => show win6_1.index t (0 : Fin 2) * 10000 + 1 * (y 0).val = win6_3.index t (0 : Fin 2) * 10000 + 1 * (y 0).val; omega
    | ⟨1, _⟩ => show win6_1.index t (1 : Fin 2) * 64 + 1 * k.val = k.val; omega
  · show V c main_v127 (((cfg6.win 2).blk t).view.emb z) = V c main_v127 z
    refine congrArg _ (funext fun a => Fin.ext ?_)
    match a with
    | ⟨0, _⟩ => show win6_2.index t (0 : Fin 2) * 64 + 1 * (z 0).val = (z 0).val; omega
    | ⟨1, _⟩ => show win6_2.index t (1 : Fin 2) * 64 + 1 * (z 1).val = (z 1).val; omega

/-- An index is in a point's block iff each coordinate is in the block's range. -/
theorem mem_blk6 (t : Fin cfg6.N) (i : S100000x64.Idx) :
    i ∈ ((cfg6.win 3).blk t).view.set ↔ ∀ a : Fin 2, win6_3.index t a * S10000x64.size a ≤ (i a).val ∧ (i a).val < win6_3.index t a * S10000x64.size a + S10000x64.size a := by
  show i ∈ ((View.whole main_v128).slice (win6_3.rect t)).set ↔ _
  rw [View.set_slice_whole, Rect.mem_set_unit]
  exact Iff.rfl

/-- Row r lies in block r / 10000: the ten blocks cover the array. -/
theorem cover6 (i : S100000x64.Idx) : ∃ t : Fin cfg6.N, (cfg6.win 3).flush t = true ∧ i ∈ ((cfg6.win 3).blk t).view.set := by
  have hi0 : (i 0).val < 100000 := (i 0).isLt
  have hi1 : (i 1).val < 64 := (i 1).isLt
  obtain ⟨t, ht⟩ := onto6 ⟨(i 0).val / 10000, by omega⟩
  have q0 : win6_3.index t (0 : Fin 2) = (i 0).val / 10000 := congrFun ht 0
  have q1 : win6_3.index t (1 : Fin 2) = 0 := congrFun ht 1
  refine ⟨t, flush6_3 t, ?_⟩
  rw [mem_blk6]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 64 ≤ (i 1).val ∧ (i 1).val < win6_3.index t (1 : Fin 2) * 64 + 64; omega

theorem region6 (c : Dev nD) :
    (dat6 (F := Ideal) V c).arrAt 3 cfg6.N = mixOf 0x3F6B8252#32 0x3DA3ED6E#32 (V c main_v125) (V c main_v32) (V c main_v127) :=
  (dat6 (F := Ideal) V c).arrAt_eq_of_cover 3 _ (fun t _ => flushed6 V c t) cover6

/-! ## Layer 7's mix: ten blocks of 10000 rows -/

/-- The windows' block numbers at every grid point: the three row-tiled windows move together, one block per point; the
    weight matrix is one block. -/
theorem idx7 : ∀ t : Fin cfg7.N, win7_0.index t (0 : Fin 2) = win7_3.index t (0 : Fin 2) ∧ win7_0.index t (1 : Fin 2) = 0
    ∧ win7_1.index t (0 : Fin 2) = win7_3.index t (0 : Fin 2) ∧ win7_1.index t (1 : Fin 2) = 0
    ∧ win7_2.index t (0 : Fin 2) = 0 ∧ win7_2.index t (1 : Fin 2) = 0 ∧ win7_3.index t (1 : Fin 2) = 0 :=
  (by decide +kernel : ∀ t : Fin grid7.N, _)

theorem onto7 : ∀ q : Fin 10, ∃ t : Fin cfg7.N, win7_3.index t = ![q.val, 0] :=
  (by decide +kernel : ∀ q : Fin 10, ∃ t : Fin grid7.N, win7_3.index t = ![q.val, 0])

/-- What a point writes back is its block of the whole-array mix. -/
theorem flushed7 (c : Dev nD) (t : Fin cfg7.N) :
    (dat7 (F := Ideal) V c).flushed 3 t = ((cfg7.win 3).blk t).view.read (Elt Ideal)
      (mixOf 0x3F6E567C#32 0x3D8D4C22#32 (V c main_v141) (V c main_v32) (V c main_v143)) := by
  show (cfg7.win 3).cut (grid7.coords t) ((dat7 V c).after 3 t) = _
  rw [after7_3]
  unfold out7_3
  rw [View.canon_unit_zero hz2]
  simp only [View.ld_unit_zero (S := S10000x64) hz2, View.ld_unit_zero (S := S64x64) hz2]
  rw [Stages.k7_pay1_eq]
  obtain ⟨e00, e01, e10, e11, e20, e21, e31⟩ := idx7 t
  funext y
  show Stages.mixPay 0x3F6E567C#32 0x3D8D4C22#32 (iblk7 V c 0 t) (iblk7 V c 1 t) (iblk7 V c 2 t) y
    = mixOf 0x3F6E567C#32 0x3D8D4C22#32 (V c main_v141) (V c main_v32) (V c main_v143) (((cfg7.win 3).blk t).view.emb y)
  refine Stages.mix_at 0x3F6E567C#32 0x3D8D4C22#32 (V c main_v141) (V c main_v32) (V c main_v143) (iblk7 V c 0 t) (iblk7 V c 1 t) (iblk7 V c 2 t)
    y (((cfg7.win 3).blk t).view.emb y) ?_ (fun k => ?_) (fun k => ?_) (funext fun z => ?_)
  · show (y 1).val = win7_3.index t (1 : Fin 2) * 64 + 1 * (y 1).val
    omega
  · show V c main_v141 (((cfg7.win 0).blk t).view.emb (ValueIdx.ix2 (y 0) k)) = V c main_v141 (ValueIdx.ix2 ((((cfg7.win 3).blk t).view.emb y) 0) k)
    refine congrArg _ (funext fun a => Fin.ext ?_)
    match a with
    | ⟨0, _⟩ => show win7_0.index t (0 : Fin 2) * 10000 + 1 * (y 0).val = win7_3.index t (0 : Fin 2) * 10000 + 1 * (y 0).val; omega
    | ⟨1, _⟩ => show win7_0.index t (1 : Fin 2) * 64 + 1 * k.val = k.val; omega
  · show V c main_v32 (((cfg7.win 1).blk t).view.emb (ValueIdx.ix2 (y 0) k)) = V c main_v32 (ValueIdx.ix2 ((((cfg7.win 3).blk t).view.emb y) 0) k)
    refine congrArg _ (funext fun a => Fin.ext ?_)
    match a with
    | ⟨0, _⟩ => show win7_1.index t (0 : Fin 2) * 10000 + 1 * (y 0).val = win7_3.index t (0 : Fin 2) * 10000 + 1 * (y 0).val; omega
    | ⟨1, _⟩ => show win7_1.index t (1 : Fin 2) * 64 + 1 * k.val = k.val; omega
  · show V c main_v143 (((cfg7.win 2).blk t).view.emb z) = V c main_v143 z
    refine congrArg _ (funext fun a => Fin.ext ?_)
    match a with
    | ⟨0, _⟩ => show win7_2.index t (0 : Fin 2) * 64 + 1 * (z 0).val = (z 0).val; omega
    | ⟨1, _⟩ => show win7_2.index t (1 : Fin 2) * 64 + 1 * (z 1).val = (z 1).val; omega

/-- An index is in a point's block iff each coordinate is in the block's range. -/
theorem mem_blk7 (t : Fin cfg7.N) (i : S100000x64.Idx) :
    i ∈ ((cfg7.win 3).blk t).view.set ↔ ∀ a : Fin 2, win7_3.index t a * S10000x64.size a ≤ (i a).val ∧ (i a).val < win7_3.index t a * S10000x64.size a + S10000x64.size a := by
  show i ∈ ((View.whole main_v144).slice (win7_3.rect t)).set ↔ _
  rw [View.set_slice_whole, Rect.mem_set_unit]
  exact Iff.rfl

/-- Row r lies in block r / 10000: the ten blocks cover the array. -/
theorem cover7 (i : S100000x64.Idx) : ∃ t : Fin cfg7.N, (cfg7.win 3).flush t = true ∧ i ∈ ((cfg7.win 3).blk t).view.set := by
  have hi0 : (i 0).val < 100000 := (i 0).isLt
  have hi1 : (i 1).val < 64 := (i 1).isLt
  obtain ⟨t, ht⟩ := onto7 ⟨(i 0).val / 10000, by omega⟩
  have q0 : win7_3.index t (0 : Fin 2) = (i 0).val / 10000 := congrFun ht 0
  have q1 : win7_3.index t (1 : Fin 2) = 0 := congrFun ht 1
  refine ⟨t, flush7_3 t, ?_⟩
  rw [mem_blk7]
  intro a
  match a with
  | ⟨0, _⟩ => show win7_3.index t (0 : Fin 2) * 10000 ≤ (i 0).val ∧ (i 0).val < win7_3.index t (0 : Fin 2) * 10000 + 10000; omega
  | ⟨1, _⟩ => show win7_3.index t (1 : Fin 2) * 64 ≤ (i 1).val ∧ (i 1).val < win7_3.index t (1 : Fin 2) * 64 + 64; omega

theorem region7 (c : Dev nD) :
    (dat7 (F := Ideal) V c).arrAt 3 cfg7.N = mixOf 0x3F6E567C#32 0x3D8D4C22#32 (V c main_v141) (V c main_v32) (V c main_v143) :=
  (dat7 (F := Ideal) V c).arrAt_eq_of_cover 3 _ (fun t _ => flushed7 V c t) cover7

/-! ## Layer 8's mix: ten blocks of 10000 rows -/

/-- The windows' block numbers at every grid point: the three row-tiled windows move together, one block per point; the
    weight matrix is one block. -/
theorem idx8 : ∀ t : Fin cfg8.N, win8_0.index t (0 : Fin 2) = win8_3.index t (0 : Fin 2) ∧ win8_0.index t (1 : Fin 2) = 0
    ∧ win8_1.index t (0 : Fin 2) = win8_3.index t (0 : Fin 2) ∧ win8_1.index t (1 : Fin 2) = 0
    ∧ win8_2.index t (0 : Fin 2) = 0 ∧ win8_2.index t (1 : Fin 2) = 0 ∧ win8_3.index t (1 : Fin 2) = 0 :=
  (by decide +kernel : ∀ t : Fin grid8.N, _)

theorem onto8 : ∀ q : Fin 10, ∃ t : Fin cfg8.N, win8_3.index t = ![q.val, 0] :=
  (by decide +kernel : ∀ q : Fin 10, ∃ t : Fin grid8.N, win8_3.index t = ![q.val, 0])

/-- What a point writes back is its block of the whole-array mix. -/
theorem flushed8 (c : Dev nD) (t : Fin cfg8.N) :
    (dat8 (F := Ideal) V c).flushed 3 t = ((cfg8.win 3).blk t).view.read (Elt Ideal)
      (mixOf 0x3F707AE8#32 0x3D785186#32 (V c main_v157) (V c main_v32) (V c main_v159)) := by
  show (cfg8.win 3).cut (grid8.coords t) ((dat8 V c).after 3 t) = _
  rw [after8_3]
  unfold out8_3
  rw [View.canon_unit_zero hz2]
  simp only [View.ld_unit_zero (S := S10000x64) hz2, View.ld_unit_zero (S := S64x64) hz2]
  rw [Stages.k8_pay1_eq]
  obtain ⟨e00, e01, e10, e11, e20, e21, e31⟩ := idx8 t
  funext y
  show Stages.mixPay 0x3F707AE8#32 0x3D785186#32 (iblk8 V c 0 t) (iblk8 V c 1 t) (iblk8 V c 2 t) y
    = mixOf 0x3F707AE8#32 0x3D785186#32 (V c main_v157) (V c main_v32) (V c main_v159) (((cfg8.win 3).blk t).view.emb y)
  refine Stages.mix_at 0x3F707AE8#32 0x3D785186#32 (V c main_v157) (V c main_v32) (V c main_v159) (iblk8 V c 0 t) (iblk8 V c 1 t) (iblk8 V c 2 t)
    y (((cfg8.win 3).blk t).view.emb y) ?_ (fun k => ?_) (fun k => ?_) (funext fun z => ?_)
  · show (y 1).val = win8_3.index t (1 : Fin 2) * 64 + 1 * (y 1).val
    omega
  · show V c main_v157 (((cfg8.win 0).blk t).view.emb (ValueIdx.ix2 (y 0) k)) = V c main_v157 (ValueIdx.ix2 ((((cfg8.win 3).blk t).view.emb y) 0) k)
    refine congrArg _ (funext fun a => Fin.ext ?_)
    match a with
    | ⟨0, _⟩ => show win8_0.index t (0 : Fin 2) * 10000 + 1 * (y 0).val = win8_3.index t (0 : Fin 2) * 10000 + 1 * (y 0).val; omega
    | ⟨1, _⟩ => show win8_0.index t (1 : Fin 2) * 64 + 1 * k.val = k.val; omega
  · show V c main_v32 (((cfg8.win 1).blk t).view.emb (ValueIdx.ix2 (y 0) k)) = V c main_v32 (ValueIdx.ix2 ((((cfg8.win 3).blk t).view.emb y) 0) k)
    refine congrArg _ (funext fun a => Fin.ext ?_)
    match a with
    | ⟨0, _⟩ => show win8_1.index t (0 : Fin 2) * 10000 + 1 * (y 0).val = win8_3.index t (0 : Fin 2) * 10000 + 1 * (y 0).val; omega
    | ⟨1, _⟩ => show win8_1.index t (1 : Fin 2) * 64 + 1 * k.val = k.val; omega
  · show V c main_v159 (((cfg8.win 2).blk t).view.emb z) = V c main_v159 z
    refine congrArg _ (funext fun a => Fin.ext ?_)
    match a with
    | ⟨0, _⟩ => show win8_2.index t (0 : Fin 2) * 64 + 1 * (z 0).val = (z 0).val; omega
    | ⟨1, _⟩ => show win8_2.index t (1 : Fin 2) * 64 + 1 * (z 1).val = (z 1).val; omega

/-- An index is in a point's block iff each coordinate is in the block's range. -/
theorem mem_blk8 (t : Fin cfg8.N) (i : S100000x64.Idx) :
    i ∈ ((cfg8.win 3).blk t).view.set ↔ ∀ a : Fin 2, win8_3.index t a * S10000x64.size a ≤ (i a).val ∧ (i a).val < win8_3.index t a * S10000x64.size a + S10000x64.size a := by
  show i ∈ ((View.whole main_v160).slice (win8_3.rect t)).set ↔ _
  rw [View.set_slice_whole, Rect.mem_set_unit]
  exact Iff.rfl

/-- Row r lies in block r / 10000: the ten blocks cover the array. -/
theorem cover8 (i : S100000x64.Idx) : ∃ t : Fin cfg8.N, (cfg8.win 3).flush t = true ∧ i ∈ ((cfg8.win 3).blk t).view.set := by
  have hi0 : (i 0).val < 100000 := (i 0).isLt
  have hi1 : (i 1).val < 64 := (i 1).isLt
  obtain ⟨t, ht⟩ := onto8 ⟨(i 0).val / 10000, by omega⟩
  have q0 : win8_3.index t (0 : Fin 2) = (i 0).val / 10000 := congrFun ht 0
  have q1 : win8_3.index t (1 : Fin 2) = 0 := congrFun ht 1
  refine ⟨t, flush8_3 t, ?_⟩
  rw [mem_blk8]
  intro a
  match a with
  | ⟨0, _⟩ => show win8_3.index t (0 : Fin 2) * 10000 ≤ (i 0).val ∧ (i 0).val < win8_3.index t (0 : Fin 2) * 10000 + 10000; omega
  | ⟨1, _⟩ => show win8_3.index t (1 : Fin 2) * 64 ≤ (i 1).val ∧ (i 1).val < win8_3.index t (1 : Fin 2) * 64 + 64; omega

theorem region8 (c : Dev nD) :
    (dat8 (F := Ideal) V c).arrAt 3 cfg8.N = mixOf 0x3F707AE8#32 0x3D785186#32 (V c main_v157) (V c main_v32) (V c main_v159) :=
  (dat8 (F := Ideal) V c).arrAt_eq_of_cover 3 _ (fun t _ => flushed8 V c t) cover8

/-! ## The output projection: twenty blocks of 5000 rows -/

theorem idx9 : ∀ t : Fin cfg9.N, win9_0.index t (0 : Fin 2) = win9_3.index t (0 : Fin 2) ∧ win9_0.index t (1 : Fin 2) = 0
    ∧ win9_1.index t (0 : Fin 2) = 0 ∧ win9_1.index t (1 : Fin 2) = 0
    ∧ win9_2.index t (0 : Fin 1) = 0 ∧ win9_3.index t (1 : Fin 2) = 0 :=
  (by decide +kernel : ∀ t : Fin grid9.N, _)

theorem onto9 : ∀ q : Fin 20, ∃ t : Fin cfg9.N, win9_3.index t = ![q.val, 0] :=
  (by decide +kernel : ∀ q : Fin 20, ∃ t : Fin grid9.N, win9_3.index t = ![q.val, 0])

/-- What a point writes back is its block of the whole-array projection. -/
theorem flushed9 (c : Dev nD) (t : Fin cfg9.N) :
    (dat9 (F := Ideal) V c).flushed 3 t = ((cfg9.win 3).blk t).view.read (Elt Ideal)
      (projOf (V c main_v160) (V c main_arg6) (V c main_arg7)) := by
  show (cfg9.win 3).cut (grid9.coords t) ((dat9 V c).after 3 t) = _
  rw [after9_3]
  unfold out9_3
  rw [View.canon_unit_zero hz2]
  simp only [View.ld_unit_zero (S := S5000x64) hz2, View.ld_unit_zero (S := S64x20) hz2, View.ld_unit_zero (S := S20) hz1]
  rw [Stages.k9_pay1_eq]
  obtain ⟨e00, e01, e10, e11, e20, e31⟩ := idx9 t
  funext y
  show Stages.projPay (iblk9 V c 0 t) (iblk9 V c 1 t) (iblk9 V c 2 t) y
    = projOf (V c main_v160) (V c main_arg6) (V c main_arg7) (((cfg9.win 3).blk t).view.emb y)
  refine Stages.proj_at (V c main_v160) (V c main_arg6) (V c main_arg7) (iblk9 V c 0 t) (iblk9 V c 1 t) (iblk9 V c 2 t)
    y (((cfg9.win 3).blk t).view.emb y) ?_ (fun k => ?_) (funext fun z => ?_) (funext fun z => ?_)
  · show (y 1).val = win9_3.index t (1 : Fin 2) * 20 + 1 * (y 1).val
    omega
  · show V c main_v160 (((cfg9.win 0).blk t).view.emb (ValueIdx.ix2 (y 0) k)) = V c main_v160 (ValueIdx.ix2 ((((cfg9.win 3).blk t).view.emb y) 0) k)
    refine congrArg _ (funext fun a => Fin.ext ?_)
    match a with
    | ⟨0, _⟩ => show win9_0.index t (0 : Fin 2) * 5000 + 1 * (y 0).val = win9_3.index t (0 : Fin 2) * 5000 + 1 * (y 0).val; omega
    | ⟨1, _⟩ => show win9_0.index t (1 : Fin 2) * 64 + 1 * k.val = k.val; omega
  · show V c main_arg6 (((cfg9.win 1).blk t).view.emb z) = V c main_arg6 z
    refine congrArg _ (funext fun a => Fin.ext ?_)
    match a with
    | ⟨0, _⟩ => show win9_1.index t (0 : Fin 2) * 64 + 1 * (z 0).val = (z 0).val; omega
    | ⟨1, _⟩ => show win9_1.index t (1 : Fin 2) * 20 + 1 * (z 1).val = (z 1).val; omega
  · show V c main_arg7 (((cfg9.win 2).blk t).view.emb z) = V c main_arg7 z
    refine congrArg _ (funext fun a => Fin.ext ?_)
    match a with
    | ⟨0, _⟩ => show win9_2.index t (0 : Fin 1) * 20 + 1 * (z 0).val = (z 0).val; omega

theorem mem_blk9 (t : Fin cfg9.N) (i : S100000x20.Idx) :
    i ∈ ((cfg9.win 3).blk t).view.set ↔ ∀ a : Fin 2, win9_3.index t a * S5000x20.size a ≤ (i a).val ∧ (i a).val < win9_3.index t a * S5000x20.size a + S5000x20.size a := by
  show i ∈ ((View.whole main_v161).slice (win9_3.rect t)).set ↔ _
  rw [View.set_slice_whole, Rect.mem_set_unit]
  exact Iff.rfl

/-- Row r lies in block r / 5000: the twenty blocks cover the array. -/
theorem cover9 (i : S100000x20.Idx) : ∃ t : Fin cfg9.N, (cfg9.win 3).flush t = true ∧ i ∈ ((cfg9.win 3).blk t).view.set := by
  have hi0 : (i 0).val < 100000 := (i 0).isLt
  have hi1 : (i 1).val < 20 := (i 1).isLt
  obtain ⟨t, ht⟩ := onto9 ⟨(i 0).val / 5000, by omega⟩
  have q0 : win9_3.index t (0 : Fin 2) = (i 0).val / 5000 := congrFun ht 0
  have q1 : win9_3.index t (1 : Fin 2) = 0 := congrFun ht 1
  refine ⟨t, flush9_3 t, ?_⟩
  rw [mem_blk9]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 20 ≤ (i 1).val ∧ (i 1).val < win9_3.index t (1 : Fin 2) * 20 + 20; omega

theorem region9 (c : Dev nD) :
    (dat9 (F := Ideal) V c).arrAt 3 cfg9.N = projOf (V c main_v160) (V c main_arg6) (V c main_arg7) :=
  (dat9 (F := Ideal) V c).arrAt_eq_of_cover 3 _ (fun t _ => flushed9 V c t) cover9

end Cert.Gcn.Regions

end
-- ==== Proof.LibAfterJoin.lean ====
/-
  A general aid for reading a list of host operations at a buffer: the two-operand join with its operands as plain
  arguments, so that a rewriting pass can go on inside them, and the pass itself.  Nothing here mentions a program.
-/
import Idealize.ShloMosaic.Lib.StableHlo.Run

noncomputable section

namespace Cert.LibAfterJoin

open Idealize.ShloMosaic Idealize.ShloMosaic.StableHlo

/-- Two arrays joined along an axis, the two operands as plain arguments (the join's side condition speaks of the
    operands' shapes only). -/
def concat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- It is the join of the two-element list, by definition. -/
theorem concat2_eq {α : Type} (t : Shape) (a : Fin t.rank) (s1 s2 : Shape) (x : s1.Idx → α) (y : s2.Idx → α)
    (h : Shape.Concatenates [s1, s2] t a) : concatenate t a [⟨s1, x⟩, ⟨s2, y⟩] h = concat2 t a s1 s2 h x y := rfl

end Cert.LibAfterJoin

/-- Reads `StableHlo.after ops V (Proc.devRef .tc r)` for literal lists `ops` (nested `after`s too) down to the operations'
    functions of `V` at the buffers the lists do not write: the library's one-pass reading, which also goes on inside the
    operands of a two-operand join and through the transports of a typed reference whose type equation holds by
    computation.  What is left closes by `rfl` against a term spelt with `concatenate`. -/
macro "after_results_join" : tactic =>
  `(tactic| (simp (disch := decide) only [Cert.LibAfterJoin.concat2_eq,
      Idealize.ShloMosaic.StableHlo.TRef.toBuf, Idealize.ShloMosaic.StableHlo.TRef.ofBuf, cast_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne',
      Idealize.ShloMosaic.StableHlo.binaryIndexed_result_ne']))

end
-- ==== Proof.KernelRun.lean ====
/-
  The tiled program's run with its result named.  Its main function is twenty-one segments: three stretches of
  whole-array operations that compute the edge coefficients, the input projection, then eight times a stretch
  (gather the source rows, scale by the coefficient, sum into the targets; cut the layer's matrix out of the stack)
  followed by the layer's mix, and last the output projection.  The contents of every buffer at every boundary are a
  fold from the launch memory; read at the result buffer and walked back through the fold, stage by stage, that
  fold is the network of the launch arguments.
-/
import proofs.«103257_j52364241273198_2_alg».proof.Proof.Gen.KernelIdeal.Frame
import proofs.«103257_j52364241273198_2_alg».proof.Proof.Gen.ReferenceIdeal
import proofs.«103257_j52364241273198_2_alg».proof.Proof.Model
import proofs.«103257_j52364241273198_2_alg».proof.Proof.Regions
import proofs.«103257_j52364241273198_2_alg».proof.Proof.LibAfterJoin
import Idealize.ShloMosaic.Lib.StableHlo.Run

set_option maxRecDepth 16384

noncomputable section

namespace Cert.Gcn.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Gcn

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- Every weakly fair execution of the main function on the cores terminates, nothing faulting; the result buffer
    ends at the last boundary's contents and every argument as launched. -/
theorem run_fold : θ_run defs (onTc (τ := τ) (main (F := Ideal))) ⟨m, fun _ => 0, ρ⟩ (fun r => ∀ c : Dev nD,
      r.2.mem ((c.tc : Thread nD τ).loc main_v161) = W21 m ρ c (Proc.devRef .tc main_v161)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨(h c _ (mem_uc main_v161 (by decide))),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c)⟩)

/-! ## What the walk carries -/

/-- The buffers every later stage reads again, at the contents a boundary gives them: the edges' sources and targets,
    their coefficients, the first projection, and the three arguments still to be used. -/
structure Inv (W : Valuation τ sig (Elt Ideal)) (R C : IVec S1700000 32) (N : FVec Ideal S1700000 .f32)
    (X0 : FVec Ideal S100000x64 .f32) (CW : FVec Ideal S8x64x64 .f32) (WO : FVec Ideal S64x20 .f32)
    (BO : FVec Ideal S20 .f32) : Prop where
  v3 : W (Proc.devRef .tc main_v3) = R
  v6 : W (Proc.devRef .tc main_v6) = C
  v31 : W (Proc.devRef .tc main_v31) = N
  v32 : W (Proc.devRef .tc main_v32) = X0
  a5 : W (Proc.devRef .tc main_arg5) = CW
  a6 : W (Proc.devRef .tc main_arg6) = WO
  a7 : W (Proc.devRef .tc main_arg7) = BO

/-- A buffer that no operation of a stretch writes keeps its contents: the stretch's result buffers are listed and
    each is told apart from the buffer asked for. -/
macro "stretch_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The three opening stretches: the edge list with its self-loops, the degrees, the coefficients -/

/-- The sources: the first row of the edge list, then every node once. -/
theorem o_v3 (W : Valuation τ sig (Elt Ideal)) :
    StableHlo.after (hostOps0_2 (F := Ideal)) (StableHlo.after (hostOps0_1 (F := Ideal)) (StableHlo.after (hostOps0 (F := Ideal)) W)) (Proc.devRef .tc main_v3) = rowOf (W (Proc.devRef .tc main_arg1)) := by
  after_results_join
  rfl

/-- The targets: the second row, then every node once. -/
theorem o_v6 (W : Valuation τ sig (Elt Ideal)) :
    StableHlo.after (hostOps0_2 (F := Ideal)) (StableHlo.after (hostOps0_1 (F := Ideal)) (StableHlo.after (hostOps0 (F := Ideal)) W)) (Proc.devRef .tc main_v6) = colOf (W (Proc.devRef .tc main_arg1)) := by
  after_results_join
  rfl

/-- The coefficients: the inverse square root of the weighted in-degree (0 where the degree is not positive) at the
    source, times the weight, times the same at the target. -/
theorem o_v31 (W : Valuation τ sig (Elt Ideal)) :
    StableHlo.after (hostOps0_2 (F := Ideal)) (StableHlo.after (hostOps0_1 (F := Ideal)) (StableHlo.after (hostOps0 (F := Ideal)) W)) (Proc.devRef .tc main_v31) = normOf (W (Proc.devRef .tc main_arg1)) (W (Proc.devRef .tc main_arg2)) := by
  after_results_join
  rfl

/-! The opening stretches write no argument. -/

theorem o_arg0 (W : Valuation τ sig (Elt Ideal)) :
    StableHlo.after (hostOps0_2 (F := Ideal)) (StableHlo.after (hostOps0_1 (F := Ideal)) (StableHlo.after (hostOps0 (F := Ideal)) W)) (Proc.devRef .tc main_arg0) = W (Proc.devRef .tc main_arg0) :=
  (show StableHlo.after (hostOps0_2 (F := Ideal)) _ (Proc.devRef .tc main_arg0) = _ by stretch_keep hostOps0_2).trans
    ((show StableHlo.after (hostOps0_1 (F := Ideal)) _ (Proc.devRef .tc main_arg0) = _ by stretch_keep hostOps0_1).trans
      (show StableHlo.after (hostOps0 (F := Ideal)) _ (Proc.devRef .tc main_arg0) = _ by stretch_keep hostOps0))

theorem o_arg3 (W : Valuation τ sig (Elt Ideal)) :
    StableHlo.after (hostOps0_2 (F := Ideal)) (StableHlo.after (hostOps0_1 (F := Ideal)) (StableHlo.after (hostOps0 (F := Ideal)) W)) (Proc.devRef .tc main_arg3) = W (Proc.devRef .tc main_arg3) :=
  (show StableHlo.after (hostOps0_2 (F := Ideal)) _ (Proc.devRef .tc main_arg3) = _ by stretch_keep hostOps0_2).trans
    ((show StableHlo.after (hostOps0_1 (F := Ideal)) _ (Proc.devRef .tc main_arg3) = _ by stretch_keep hostOps0_1).trans
      (show StableHlo.after (hostOps0 (F := Ideal)) _ (Proc.devRef .tc main_arg3) = _ by stretch_keep hostOps0))

theorem o_arg4 (W : Valuation τ sig (Elt Ideal)) :
    StableHlo.after (hostOps0_2 (F := Ideal)) (StableHlo.after (hostOps0_1 (F := Ideal)) (StableHlo.after (hostOps0 (F := Ideal)) W)) (Proc.devRef .tc main_arg4) = W (Proc.devRef .tc main_arg4) :=
  (show StableHlo.after (hostOps0_2 (F := Ideal)) _ (Proc.devRef .tc main_arg4) = _ by stretch_keep hostOps0_2).trans
    ((show StableHlo.after (hostOps0_1 (F := Ideal)) _ (Proc.devRef .tc main_arg4) = _ by stretch_keep hostOps0_1).trans
      (show StableHlo.after (hostOps0 (F := Ideal)) _ (Proc.devRef .tc main_arg4) = _ by stretch_keep hostOps0))

theorem o_arg5 (W : Valuation τ sig (Elt Ideal)) :
    StableHlo.after (hostOps0_2 (F := Ideal)) (StableHlo.after (hostOps0_1 (F := Ideal)) (StableHlo.after (hostOps0 (F := Ideal)) W)) (Proc.devRef .tc main_arg5) = W (Proc.devRef .tc main_arg5) :=
  (show StableHlo.after (hostOps0_2 (F := Ideal)) _ (Proc.devRef .tc main_arg5) = _ by stretch_keep hostOps0_2).trans
    ((show StableHlo.after (hostOps0_1 (F := Ideal)) _ (Proc.devRef .tc main_arg5) = _ by stretch_keep hostOps0_1).trans
      (show StableHlo.after (hostOps0 (F := Ideal)) _ (Proc.devRef .tc main_arg5) = _ by stretch_keep hostOps0))

theorem o_arg6 (W : Valuation τ sig (Elt Ideal)) :
    StableHlo.after (hostOps0_2 (F := Ideal)) (StableHlo.after (hostOps0_1 (F := Ideal)) (StableHlo.after (hostOps0 (F := Ideal)) W)) (Proc.devRef .tc main_arg6) = W (Proc.devRef .tc main_arg6) :=
  (show StableHlo.after (hostOps0_2 (F := Ideal)) _ (Proc.devRef .tc main_arg6) = _ by stretch_keep hostOps0_2).trans
    ((show StableHlo.after (hostOps0_1 (F := Ideal)) _ (Proc.devRef .tc main_arg6) = _ by stretch_keep hostOps0_1).trans
      (show StableHlo.after (hostOps0 (F := Ideal)) _ (Proc.devRef .tc main_arg6) = _ by stretch_keep hostOps0))

theorem o_arg7 (W : Valuation τ sig (Elt Ideal)) :
    StableHlo.after (hostOps0_2 (F := Ideal)) (StableHlo.after (hostOps0_1 (F := Ideal)) (StableHlo.after (hostOps0 (F := Ideal)) W)) (Proc.devRef .tc main_arg7) = W (Proc.devRef .tc main_arg7) :=
  (show StableHlo.after (hostOps0_2 (F := Ideal)) _ (Proc.devRef .tc main_arg7) = _ by stretch_keep hostOps0_2).trans
    ((show StableHlo.after (hostOps0_1 (F := Ideal)) _ (Proc.devRef .tc main_arg7) = _ by stretch_keep hostOps0_1).trans
      (show StableHlo.after (hostOps0 (F := Ideal)) _ (Proc.devRef .tc main_arg7) = _ by stretch_keep hostOps0))

/-! ## The input projection -/

/-- After the input projection the carried buffers hold the network's terms of the launch arguments. -/
theorem start (c : Dev nD) :
    Inv (W4 m ρ c) (rowOf (m ((c.tc : Thread nD τ).loc main_arg1))) (colOf (m ((c.tc : Thread nD τ).loc main_arg1))) (normOf (m ((c.tc : Thread nD τ).loc main_arg1)) (m ((c.tc : Thread nD τ).loc main_arg2)))
      (linOf (m ((c.tc : Thread nD τ).loc main_arg0)) (m ((c.tc : Thread nD τ).loc main_arg3)) (m ((c.tc : Thread nD τ).loc main_arg4))) (m ((c.tc : Thread nD τ).loc main_arg5)) (m ((c.tc : Thread nD τ).loc main_arg6)) (m ((c.tc : Thread nD τ).loc main_arg7)) where
  v3 := (W4_of_ne m ρ c main_v3 (by decide)).trans (o_v3 (W0 m ρ c))
  v6 := (W4_of_ne m ρ c main_v6 (by decide)).trans (o_v6 (W0 m ρ c))
  v31 := (W4_of_ne m ρ c main_v31 (by decide)).trans (o_v31 (W0 m ρ c))
  v32 := by
    calc W4 m ρ c (Proc.devRef .tc main_v32)
      _ = (dat0 (V3 m ρ) c).arrAt 3 cfg0.N := W4_arr m ρ c 3
      _ = linOf (W3 m ρ c (Proc.devRef .tc main_arg0)) (W3 m ρ c (Proc.devRef .tc main_arg3))
            (W3 m ρ c (Proc.devRef .tc main_arg4)) := Regions.region0 (V3 m ρ) c
      _ = linOf (m ((c.tc : Thread nD τ).loc main_arg0)) (m ((c.tc : Thread nD τ).loc main_arg3)) (m ((c.tc : Thread nD τ).loc main_arg4)) := by
          rw [show W3 m ρ c (Proc.devRef .tc main_arg0) = W0 m ρ c (Proc.devRef .tc main_arg0) from o_arg0 (W0 m ρ c),
            show W3 m ρ c (Proc.devRef .tc main_arg3) = W0 m ρ c (Proc.devRef .tc main_arg3) from o_arg3 (W0 m ρ c),
            show W3 m ρ c (Proc.devRef .tc main_arg4) = W0 m ρ c (Proc.devRef .tc main_arg4) from o_arg4 (W0 m ρ c)]
  a5 := (W4_of_ne m ρ c main_arg5 (by decide)).trans (o_arg5 (W0 m ρ c))
  a6 := (W4_of_ne m ρ c main_arg6 (by decide)).trans (o_arg6 (W0 m ρ c))
  a7 := (W4_of_ne m ρ c main_arg7 (by decide)).trans (o_arg7 (W0 m ρ c))

/-! ## Layer 1 -/

/-- Layer 1's stretch writes none of the carried buffers. -/
theorem s1_inv {W : Valuation τ sig (Elt Ideal)} {R C N X0 CW WO BO} (h : Inv W R C N X0 CW WO BO) :
    Inv (StableHlo.after (hostOps1 (F := Ideal)) W) R C N X0 CW WO BO where
  v3 := (show StableHlo.after (hostOps1 (F := Ideal)) W (Proc.devRef .tc main_v3) = W (Proc.devRef .tc main_v3) by stretch_keep hostOps1).trans h.v3
  v6 := (show StableHlo.after (hostOps1 (F := Ideal)) W (Proc.devRef .tc main_v6) = W (Proc.devRef .tc main_v6) by stretch_keep hostOps1).trans h.v6
  v31 := (show StableHlo.after (hostOps1 (F := Ideal)) W (Proc.devRef .tc main_v31) = W (Proc.devRef .tc main_v31) by stretch_keep hostOps1).trans h.v31
  v32 := (show StableHlo.after (hostOps1 (F := Ideal)) W (Proc.devRef .tc main_v32) = W (Proc.devRef .tc main_v32) by stretch_keep hostOps1).trans h.v32
  a5 := (show StableHlo.after (hostOps1 (F := Ideal)) W (Proc.devRef .tc main_arg5) = W (Proc.devRef .tc main_arg5) by stretch_keep hostOps1).trans h.a5
  a6 := (show StableHlo.after (hostOps1 (F := Ideal)) W (Proc.devRef .tc main_arg6) = W (Proc.devRef .tc main_arg6) by stretch_keep hostOps1).trans h.a6
  a7 := (show StableHlo.after (hostOps1 (F := Ideal)) W (Proc.devRef .tc main_arg7) = W (Proc.devRef .tc main_arg7) by stretch_keep hostOps1).trans h.a7

/-- Layer 1's stretch leaves the propagated features: the previous features' rows gathered at the sources, scaled
    by the coefficients, summed into the targets. -/
theorem s1_agg (W : Valuation τ sig (Elt Ideal)) :
    StableHlo.after (hostOps1 (F := Ideal)) W (Proc.devRef .tc main_v45)
      = aggOf (W (Proc.devRef .tc main_v3)) (W (Proc.devRef .tc main_v6)) (W (Proc.devRef .tc main_v31))
          (W (Proc.devRef .tc main_v32)) := by
  after_results_simp
  rfl

/-- … and the layer's matrix cut out of the stack. -/
theorem s1_w (W : Valuation τ sig (Elt Ideal)) :
    StableHlo.after (hostOps1 (F := Ideal)) W (Proc.devRef .tc main_v47) = w0 (W (Proc.devRef .tc main_arg5)) := by
  after_results_simp
  rfl

/-- Layer 1 whole: from the boundary before its stretch to the boundary after its mix. -/
theorem layer1 (c : Dev nD) {R C N X0 CW WO BO H} (h : Inv (W4 m ρ c) R C N X0 CW WO BO)
    (hH : W4 m ρ c (Proc.devRef .tc main_v32) = H) :
    Inv (W6 m ρ c) R C N X0 CW WO BO
      ∧ W6 m ρ c (Proc.devRef .tc main_v48) = layerOf 0x3F183370#32 0x3ECF991F#32 R C N X0 (w0 CW) H := by
  have h5 : Inv (W5 m ρ c) R C N X0 CW WO BO := s1_inv h
  have ha : W5 m ρ c (Proc.devRef .tc main_v45) = aggOf R C N H :=
    (s1_agg (W4 m ρ c)).trans (by rw [h.v3, h.v6, h.v31, hH])
  have hw : W5 m ρ c (Proc.devRef .tc main_v47) = w0 CW :=
    (s1_w (W4 m ρ c)).trans (by rw [h.a5])
  refine ⟨⟨(W6_of_ne m ρ c main_v3 (by decide)).trans h5.v3, (W6_of_ne m ρ c main_v6 (by decide)).trans h5.v6, (W6_of_ne m ρ c main_v31 (by decide)).trans h5.v31,
    ((W6_arr m ρ c 1).trans (((dat1 (V5 m ρ) c).arrAt_in 1 rfl _).trans (A_eq1 (V5 m ρ) c 1))).trans h5.v32,
    (W6_of_ne m ρ c main_arg5 (by decide)).trans h5.a5, (W6_of_ne m ρ c main_arg6 (by decide)).trans h5.a6, (W6_of_ne m ρ c main_arg7 (by decide)).trans h5.a7⟩, ?_⟩
  calc W6 m ρ c (Proc.devRef .tc main_v48)
    _ = (dat1 (V5 m ρ) c).arrAt 3 cfg1.N := W6_arr m ρ c 3
    _ = mixOf 0x3F183370#32 0x3ECF991F#32 (W5 m ρ c (Proc.devRef .tc main_v45)) (W5 m ρ c (Proc.devRef .tc main_v32))
          (W5 m ρ c (Proc.devRef .tc main_v47)) := Regions.region1 (V5 m ρ) c
    _ = layerOf 0x3F183370#32 0x3ECF991F#32 R C N X0 (w0 CW) H := by rw [ha, h5.v32, hw]; rfl

/-! ## Layer 2 -/

/-- Layer 2's stretch writes none of the carried buffers. -/
theorem s2_inv {W : Valuation τ sig (Elt Ideal)} {R C N X0 CW WO BO} (h : Inv W R C N X0 CW WO BO) :
    Inv (StableHlo.after (hostOps2 (F := Ideal)) W) R C N X0 CW WO BO where
  v3 := (show StableHlo.after (hostOps2 (F := Ideal)) W (Proc.devRef .tc main_v3) = W (Proc.devRef .tc main_v3) by stretch_keep hostOps2).trans h.v3
  v6 := (show StableHlo.after (hostOps2 (F := Ideal)) W (Proc.devRef .tc main_v6) = W (Proc.devRef .tc main_v6) by stretch_keep hostOps2).trans h.v6
  v31 := (show StableHlo.after (hostOps2 (F := Ideal)) W (Proc.devRef .tc main_v31) = W (Proc.devRef .tc main_v31) by stretch_keep hostOps2).trans h.v31
  v32 := (show StableHlo.after (hostOps2 (F := Ideal)) W (Proc.devRef .tc main_v32) = W (Proc.devRef .tc main_v32) by stretch_keep hostOps2).trans h.v32
  a5 := (show StableHlo.after (hostOps2 (F := Ideal)) W (Proc.devRef .tc main_arg5) = W (Proc.devRef .tc main_arg5) by stretch_keep hostOps2).trans h.a5
  a6 := (show StableHlo.after (hostOps2 (F := Ideal)) W (Proc.devRef .tc main_arg6) = W (Proc.devRef .tc main_arg6) by stretch_keep hostOps2).trans h.a6
  a7 := (show StableHlo.after (hostOps2 (F := Ideal)) W (Proc.devRef .tc main_arg7) = W (Proc.devRef .tc main_arg7) by stretch_keep hostOps2).trans h.a7

/-- Layer 2's stretch leaves the propagated features: the previous features' rows gathered at the sources, scaled
    by the coefficients, summed into the targets. -/
theorem s2_agg (W : Valuation τ sig (Elt Ideal)) :
    StableHlo.after (hostOps2 (F := Ideal)) W (Proc.devRef .tc main_v61)
      = aggOf (W (Proc.devRef .tc main_v3)) (W (Proc.devRef .tc main_v6)) (W (Proc.devRef .tc main_v31))
          (W (Proc.devRef .tc main_v48)) := by
  after_results_simp
  rfl

/-- … and the layer's matrix cut out of the stack. -/
theorem s2_w (W : Valuation τ sig (Elt Ideal)) :
    StableHlo.after (hostOps2 (F := Ideal)) W (Proc.devRef .tc main_v63) = w1 (W (Proc.devRef .tc main_arg5)) := by
  after_results_simp
  rfl

/-- Layer 2 whole: from the boundary before its stretch to the boundary after its mix. -/
theorem layer2 (c : Dev nD) {R C N X0 CW WO BO H} (h : Inv (W6 m ρ c) R C N X0 CW WO BO)
    (hH : W6 m ρ c (Proc.devRef .tc main_v48) = H) :
    Inv (W8 m ρ c) R C N X0 CW WO BO
      ∧ W8 m ρ c (Proc.devRef .tc main_v64) = layerOf 0x3F46E010#32 0x3E647FBE#32 R C N X0 (w1 CW) H := by
  have h5 : Inv (W7 m ρ c) R C N X0 CW WO BO := s2_inv h
  have ha : W7 m ρ c (Proc.devRef .tc main_v61) = aggOf R C N H :=
    (s2_agg (W6 m ρ c)).trans (by rw [h.v3, h.v6, h.v31, hH])
  have hw : W7 m ρ c (Proc.devRef .tc main_v63) = w1 CW :=
    (s2_w (W6 m ρ c)).trans (by rw [h.a5])
  refine ⟨⟨(W8_of_ne m ρ c main_v3 (by decide)).trans h5.v3, (W8_of_ne m ρ c main_v6 (by decide)).trans h5.v6, (W8_of_ne m ρ c main_v31 (by decide)).trans h5.v31,
    ((W8_arr m ρ c 1).trans (((dat2 (V7 m ρ) c).arrAt_in 1 rfl _).trans (A_eq2 (V7 m ρ) c 1))).trans h5.v32,
    (W8_of_ne m ρ c main_arg5 (by decide)).trans h5.a5, (W8_of_ne m ρ c main_arg6 (by decide)).trans h5.a6, (W8_of_ne m ρ c main_arg7 (by decide)).trans h5.a7⟩, ?_⟩
  calc W8 m ρ c (Proc.devRef .tc main_v64)
    _ = (dat2 (V7 m ρ) c).arrAt 3 cfg2.N := W8_arr m ρ c 3
    _ = mixOf 0x3F46E010#32 0x3E647FBE#32 (W7 m ρ c (Proc.devRef .tc main_v61)) (W7 m ρ c (Proc.devRef .tc main_v32))
          (W7 m ρ c (Proc.devRef .tc main_v63)) := Regions.region2 (V7 m ρ) c
    _ = layerOf 0x3F46E010#32 0x3E647FBE#32 R C N X0 (w1 CW) H := by rw [ha, h5.v32, hw]; rfl

/-! ## Layer 3 -/

/-- Layer 3's stretch writes none of the carried buffers. -/
theorem s3_inv {W : Valuation τ sig (Elt Ideal)} {R C N X0 CW WO BO} (h : Inv W R C N X0 CW WO BO) :
    Inv (StableHlo.after (hostOps3 (F := Ideal)) W) R C N X0 CW WO BO where
  v3 := (show StableHlo.after (hostOps3 (F := Ideal)) W (Proc.devRef .tc main_v3) = W (Proc.devRef .tc main_v3) by stretch_keep hostOps3).trans h.v3
  v6 := (show StableHlo.after (hostOps3 (F := Ideal)) W (Proc.devRef .tc main_v6) = W (Proc.devRef .tc main_v6) by stretch_keep hostOps3).trans h.v6
  v31 := (show StableHlo.after (hostOps3 (F := Ideal)) W (Proc.devRef .tc main_v31) = W (Proc.devRef .tc main_v31) by stretch_keep hostOps3).trans h.v31
  v32 := (show StableHlo.after (hostOps3 (F := Ideal)) W (Proc.devRef .tc main_v32) = W (Proc.devRef .tc main_v32) by stretch_keep hostOps3).trans h.v32
  a5 := (show StableHlo.after (hostOps3 (F := Ideal)) W (Proc.devRef .tc main_arg5) = W (Proc.devRef .tc main_arg5) by stretch_keep hostOps3).trans h.a5
  a6 := (show StableHlo.after (hostOps3 (F := Ideal)) W (Proc.devRef .tc main_arg6) = W (Proc.devRef .tc main_arg6) by stretch_keep hostOps3).trans h.a6
  a7 := (show StableHlo.after (hostOps3 (F := Ideal)) W (Proc.devRef .tc main_arg7) = W (Proc.devRef .tc main_arg7) by stretch_keep hostOps3).trans h.a7

/-- Layer 3's stretch leaves the propagated features: the previous features' rows gathered at the sources, scaled
    by the coefficients, summed into the targets. -/
theorem s3_agg (W : Valuation τ sig (Elt Ideal)) :
    StableHlo.after (hostOps3 (F := Ideal)) W (Proc.devRef .tc main_v77)
      = aggOf (W (Proc.devRef .tc main_v3)) (W (Proc.devRef .tc main_v6)) (W (Proc.devRef .tc main_v31))
          (W (Proc.devRef .tc main_v64)) := by
  after_results_simp
  rfl

/-- … and the layer's matrix cut out of the stack. -/
theorem s3_w (W : Valuation τ sig (Elt Ideal)) :
    StableHlo.after (hostOps3 (F := Ideal)) W (Proc.devRef .tc main_v79) = w2 (W (Proc.devRef .tc main_arg5)) := by
  after_results_simp
  rfl

/-- Layer 3 whole: from the boundary before its stretch to the boundary after its mix. -/
theorem layer3 (c : Dev nD) {R C N X0 CW WO BO H} (h : Inv (W8 m ρ c) R C N X0 CW WO BO)
    (hH : W8 m ρ c (Proc.devRef .tc main_v64) = H) :
    Inv (W10 m ρ c) R C N X0 CW WO BO
      ∧ W10 m ρ c (Proc.devRef .tc main_v80) = layerOf 0x3F588995#32 0x3E1DD9AD#32 R C N X0 (w2 CW) H := by
  have h5 : Inv (W9 m ρ c) R C N X0 CW WO BO := s3_inv h
  have ha : W9 m ρ c (Proc.devRef .tc main_v77) = aggOf R C N H :=
    (s3_agg (W8 m ρ c)).trans (by rw [h.v3, h.v6, h.v31, hH])
  have hw : W9 m ρ c (Proc.devRef .tc main_v79) = w2 CW :=
    (s3_w (W8 m ρ c)).trans (by rw [h.a5])
  refine ⟨⟨(W10_of_ne m ρ c main_v3 (by decide)).trans h5.v3, (W10_of_ne m ρ c main_v6 (by decide)).trans h5.v6, (W10_of_ne m ρ c main_v31 (by decide)).trans h5.v31,
    ((W10_arr m ρ c 1).trans (((dat3 (V9 m ρ) c).arrAt_in 1 rfl _).trans (A_eq3 (V9 m ρ) c 1))).trans h5.v32,
    (W10_of_ne m ρ c main_arg5 (by decide)).trans h5.a5, (W10_of_ne m ρ c main_arg6 (by decide)).trans h5.a6, (W10_of_ne m ρ c main_arg7 (by decide)).trans h5.a7⟩, ?_⟩
  calc W10 m ρ c (Proc.devRef .tc main_v80)
    _ = (dat3 (V9 m ρ) c).arrAt 3 cfg3.N := W10_arr m ρ c 3
    _ = mixOf 0x3F588995#32 0x3E1DD9AD#32 (W9 m ρ c (Proc.devRef .tc main_v77)) (W9 m ρ c (Proc.devRef .tc main_v32))
          (W9 m ρ c (Proc.devRef .tc main_v79)) := Regions.region3 (V9 m ρ) c
    _ = layerOf 0x3F588995#32 0x3E1DD9AD#32 R C N X0 (w2 CW) H := by rw [ha, h5.v32, hw]; rfl

/-! ## Layer 4 -/

/-- Layer 4's stretch writes none of the carried buffers. -/
theorem s4_inv {W : Valuation τ sig (Elt Ideal)} {R C N X0 CW WO BO} (h : Inv W R C N X0 CW WO BO) :
    Inv (StableHlo.after (hostOps4 (F := Ideal)) W) R C N X0 CW WO BO where
  v3 := (show StableHlo.after (hostOps4 (F := Ideal)) W (Proc.devRef .tc main_v3) = W (Proc.devRef .tc main_v3) by stretch_keep hostOps4).trans h.v3
  v6 := (show StableHlo.after (hostOps4 (F := Ideal)) W (Proc.devRef .tc main_v6) = W (Proc.devRef .tc main_v6) by stretch_keep hostOps4).trans h.v6
  v31 := (show StableHlo.after (hostOps4 (F := Ideal)) W (Proc.devRef .tc main_v31) = W (Proc.devRef .tc main_v31) by stretch_keep hostOps4).trans h.v31
  v32 := (show StableHlo.after (hostOps4 (F := Ideal)) W (Proc.devRef .tc main_v32) = W (Proc.devRef .tc main_v32) by stretch_keep hostOps4).trans h.v32
  a5 := (show StableHlo.after (hostOps4 (F := Ideal)) W (Proc.devRef .tc main_arg5) = W (Proc.devRef .tc main_arg5) by stretch_keep hostOps4).trans h.a5
  a6 := (show StableHlo.after (hostOps4 (F := Ideal)) W (Proc.devRef .tc main_arg6) = W (Proc.devRef .tc main_arg6) by stretch_keep hostOps4).trans h.a6
  a7 := (show StableHlo.after (hostOps4 (F := Ideal)) W (Proc.devRef .tc main_arg7) = W (Proc.devRef .tc main_arg7) by stretch_keep hostOps4).trans h.a7

/-- Layer 4's stretch leaves the propagated features: the previous features' rows gathered at the sources, scaled
    by the coefficients, summed into the targets. -/
theorem s4_agg (W : Valuation τ sig (Elt Ideal)) :
    StableHlo.after (hostOps4 (F := Ideal)) W (Proc.devRef .tc main_v93)
      = aggOf (W (Proc.devRef .tc main_v3)) (W (Proc.devRef .tc main_v6)) (W (Proc.devRef .tc main_v31))
          (W (Proc.devRef .tc main_v80)) := by
  after_results_simp
  rfl

/-- … and the layer's matrix cut out of the stack. -/
theorem s4_w (W : Valuation τ sig (Elt Ideal)) :
    StableHlo.after (hostOps4 (F := Ideal)) W (Proc.devRef .tc main_v95) = w3 (W (Proc.devRef .tc main_arg5)) := by
  after_results_simp
  rfl

/-- Layer 4 whole: from the boundary before its stretch to the boundary after its mix. -/
theorem layer4 (c : Dev nD) {R C N X0 CW WO BO H} (h : Inv (W10 m ρ c) R C N X0 CW WO BO)
    (hH : W10 m ρ c (Proc.devRef .tc main_v80) = H) :
    Inv (W12 m ρ c) R C N X0 CW WO BO
      ∧ W12 m ρ c (Proc.devRef .tc main_v96) = layerOf 0x3F61D8F9#32 0x3DF1383B#32 R C N X0 (w3 CW) H := by
  have h5 : Inv (W11 m ρ c) R C N X0 CW WO BO := s4_inv h
  have ha : W11 m ρ c (Proc.devRef .tc main_v93) = aggOf R C N H :=
    (s4_agg (W10 m ρ c)).trans (by rw [h.v3, h.v6, h.v31, hH])
  have hw : W11 m ρ c (Proc.devRef .tc main_v95) = w3 CW :=
    (s4_w (W10 m ρ c)).trans (by rw [h.a5])
  refine ⟨⟨(W12_of_ne m ρ c main_v3 (by decide)).trans h5.v3, (W12_of_ne m ρ c main_v6 (by decide)).trans h5.v6, (W12_of_ne m ρ c main_v31 (by decide)).trans h5.v31,
    ((W12_arr m ρ c 1).trans (((dat4 (V11 m ρ) c).arrAt_in 1 rfl _).trans (A_eq4 (V11 m ρ) c 1))).trans h5.v32,
    (W12_of_ne m ρ c main_arg5 (by decide)).trans h5.a5, (W12_of_ne m ρ c main_arg6 (by decide)).trans h5.a6, (W12_of_ne m ρ c main_arg7 (by decide)).trans h5.a7⟩, ?_⟩
  calc W12 m ρ c (Proc.devRef .tc main_v96)
    _ = (dat4 (V11 m ρ) c).arrAt 3 cfg4.N := W12_arr m ρ c 3
    _ = mixOf 0x3F61D8F9#32 0x3DF1383B#32 (W11 m ρ c (Proc.devRef .tc main_v93)) (W11 m ρ c (Proc.devRef .tc main_v32))
          (W11 m ρ c (Proc.devRef .tc main_v95)) := Regions.region4 (V11 m ρ) c
    _ = layerOf 0x3F61D8F9#32 0x3DF1383B#32 R C N X0 (w3 CW) H := by rw [ha, h5.v32, hw]; rfl

/-! ## Layer 5 -/

/-- Layer 5's stretch writes none of the carried buffers. -/
theorem s5_inv {W : Valuation τ sig (Elt Ideal)} {R C N X0 CW WO BO} (h : Inv W R C N X0 CW WO BO) :
    Inv (StableHlo.after (hostOps5 (F := Ideal)) W) R C N X0 CW WO BO where
  v3 := (show StableHlo.after (hostOps5 (F := Ideal)) W (Proc.devRef .tc main_v3) = W (Proc.devRef .tc main_v3) by stretch_keep hostOps5).trans h.v3
  v6 := (show StableHlo.after (hostOps5 (F := Ideal)) W (Proc.devRef .tc main_v6) = W (Proc.devRef .tc main_v6) by stretch_keep hostOps5).trans h.v6
  v31 := (show StableHlo.after (hostOps5 (F := Ideal)) W (Proc.devRef .tc main_v31) = W (Proc.devRef .tc main_v31) by stretch_keep hostOps5).trans h.v31
  v32 := (show StableHlo.after (hostOps5 (F := Ideal)) W (Proc.devRef .tc main_v32) = W (Proc.devRef .tc main_v32) by stretch_keep hostOps5).trans h.v32
  a5 := (show StableHlo.after (hostOps5 (F := Ideal)) W (Proc.devRef .tc main_arg5) = W (Proc.devRef .tc main_arg5) by stretch_keep hostOps5).trans h.a5
  a6 := (show StableHlo.after (hostOps5 (F := Ideal)) W (Proc.devRef .tc main_arg6) = W (Proc.devRef .tc main_arg6) by stretch_keep hostOps5).trans h.a6
  a7 := (show StableHlo.after (hostOps5 (F := Ideal)) W (Proc.devRef .tc main_arg7) = W (Proc.devRef .tc main_arg7) by stretch_keep hostOps5).trans h.a7

/-- Layer 5's stretch leaves the propagated features: the previous features' rows gathered at the sources, scaled
    by the coefficients, summed into the targets. -/
theorem s5_agg (W : Valuation τ sig (Elt Ideal)) :
    StableHlo.after (hostOps5 (F := Ideal)) W (Proc.devRef .tc main_v109)
      = aggOf (W (Proc.devRef .tc main_v3)) (W (Proc.devRef .tc main_v6)) (W (Proc.devRef .tc main_v31))
          (W (Proc.devRef .tc main_v96)) := by
  after_results_simp
  rfl

/-- … and the layer's matrix cut out of the stack. -/
theorem s5_w (W : Valuation τ sig (Elt Ideal)) :
    StableHlo.after (hostOps5 (F := Ideal)) W (Proc.devRef .tc main_v111) = w4 (W (Proc.devRef .tc main_arg5)) := by
  after_results_simp
  rfl

/-- Layer 5 whole: from the boundary before its stretch to the boundary after its mix. -/
theorem layer5 (c : Dev nD) {R C N X0 CW WO BO H} (h : Inv (W12 m ρ c) R C N X0 CW WO BO)
    (hH : W12 m ρ c (Proc.devRef .tc main_v96) = H) :
    Inv (W14 m ρ c) R C N X0 CW WO BO
      ∧ W14 m ρ c (Proc.devRef .tc main_v112) = layerOf 0x3F6799C1#32 0x3DC331FC#32 R C N X0 (w4 CW) H := by
  have h5 : Inv (W13 m ρ c) R C N X0 CW WO BO := s5_inv h
  have ha : W13 m ρ c (Proc.devRef .tc main_v109) = aggOf R C N H :=
    (s5_agg (W12 m ρ c)).trans (by rw [h.v3, h.v6, h.v31, hH])
  have hw : W13 m ρ c (Proc.devRef .tc main_v111) = w4 CW :=
    (s5_w (W12 m ρ c)).trans (by rw [h.a5])
  refine ⟨⟨(W14_of_ne m ρ c main_v3 (by decide)).trans h5.v3, (W14_of_ne m ρ c main_v6 (by decide)).trans h5.v6, (W14_of_ne m ρ c main_v31 (by decide)).trans h5.v31,
    ((W14_arr m ρ c 1).trans (((dat5 (V13 m ρ) c).arrAt_in 1 rfl _).trans (A_eq5 (V13 m ρ) c 1))).trans h5.v32,
    (W14_of_ne m ρ c main_arg5 (by decide)).trans h5.a5, (W14_of_ne m ρ c main_arg6 (by decide)).trans h5.a6, (W14_of_ne m ρ c main_arg7 (by decide)).trans h5.a7⟩, ?_⟩
  calc W14 m ρ c (Proc.devRef .tc main_v112)
    _ = (dat5 (V13 m ρ) c).arrAt 3 cfg5.N := W14_arr m ρ c 3
    _ = mixOf 0x3F6799C1#32 0x3DC331FC#32 (W13 m ρ c (Proc.devRef .tc main_v109)) (W13 m ρ c (Proc.devRef .tc main_v32))
          (W13 m ρ c (Proc.devRef .tc main_v111)) := Regions.region5 (V13 m ρ) c
    _ = layerOf 0x3F6799C1#32 0x3DC331FC#32 R C N X0 (w4 CW) H := by rw [ha, h5.v32, hw]; rfl

/-! ## Layer 6 -/

/-- Layer 6's stretch writes none of the carried buffers. -/
theorem s6_inv {W : Valuation τ sig (Elt Ideal)} {R C N X0 CW WO BO} (h : Inv W R C N X0 CW WO BO) :
    Inv (StableHlo.after (hostOps6 (F := Ideal)) W) R C N X0 CW WO BO where
  v3 := (show StableHlo.after (hostOps6 (F := Ideal)) W (Proc.devRef .tc main_v3) = W (Proc.devRef .tc main_v3) by stretch_keep hostOps6).trans h.v3
  v6 := (show StableHlo.after (hostOps6 (F := Ideal)) W (Proc.devRef .tc main_v6) = W (Proc.devRef .tc main_v6) by stretch_keep hostOps6).trans h.v6
  v31 := (show StableHlo.after (hostOps6 (F := Ideal)) W (Proc.devRef .tc main_v31) = W (Proc.devRef .tc main_v31) by stretch_keep hostOps6).trans h.v31
  v32 := (show StableHlo.after (hostOps6 (F := Ideal)) W (Proc.devRef .tc main_v32) = W (Proc.devRef .tc main_v32) by stretch_keep hostOps6).trans h.v32
  a5 := (show StableHlo.after (hostOps6 (F := Ideal)) W (Proc.devRef .tc main_arg5) = W (Proc.devRef .tc main_arg5) by stretch_keep hostOps6).trans h.a5
  a6 := (show StableHlo.after (hostOps6 (F := Ideal)) W (Proc.devRef .tc main_arg6) = W (Proc.devRef .tc main_arg6) by stretch_keep hostOps6).trans h.a6
  a7 := (show StableHlo.after (hostOps6 (F := Ideal)) W (Proc.devRef .tc main_arg7) = W (Proc.devRef .tc main_arg7) by stretch_keep hostOps6).trans h.a7

/-- Layer 6's stretch leaves the propagated features: the previous features' rows gathered at the sources, scaled
    by the coefficients, summed into the targets. -/
theorem s6_agg (W : Valuation τ sig (Elt Ideal)) :
    StableHlo.after (hostOps6 (F := Ideal)) W (Proc.devRef .tc main_v125)
      = aggOf (W (Proc.devRef .tc main_v3)) (W (Proc.devRef .tc main_v6)) (W (Proc.devRef .tc main_v31))
          (W (Proc.devRef .tc main_v112)) := by
  after_results_simp
  rfl

/-- … and the layer's matrix cut out of the stack. -/
theorem s6_w (W : Valuation τ sig (Elt Ideal)) :
    StableHlo.after (hostOps6 (F := Ideal)) W (Proc.devRef .tc main_v127) = w5 (W (Proc.devRef .tc main_arg5)) := by
  after_results_simp
  rfl

/-- Layer 6 whole: from the boundary before its stretch to the boundary after its mix. -/
theorem layer6 (c : Dev nD) {R C N X0 CW WO BO H} (h : Inv (W14 m ρ c) R C N X0 CW WO BO)
    (hH : W14 m ρ c (Proc.devRef .tc main_v112) = H) :
    Inv (W16 m ρ c) R C N X0 CW WO BO
      ∧ W16 m ρ c (Proc.devRef .tc main_v128) = layerOf 0x3F6B8252#32 0x3DA3ED6E#32 R C N X0 (w5 CW) H := by
  have h5 : Inv (W15 m ρ c) R C N X0 CW WO BO := s6_inv h
  have ha : W15 m ρ c (Proc.devRef .tc main_v125) = aggOf R C N H :=
    (s6_agg (W14 m ρ c)).trans (by rw [h.v3, h.v6, h.v31, hH])
  have hw : W15 m ρ c (Proc.devRef .tc main_v127) = w5 CW :=
    (s6_w (W14 m ρ c)).trans (by rw [h.a5])
  refine ⟨⟨(W16_of_ne m ρ c main_v3 (by decide)).trans h5.v3, (W16_of_ne m ρ c main_v6 (by decide)).trans h5.v6, (W16_of_ne m ρ c main_v31 (by decide)).trans h5.v31,
    ((W16_arr m ρ c 1).trans (((dat6 (V15 m ρ) c).arrAt_in 1 rfl _).trans (A_eq6 (V15 m ρ) c 1))).trans h5.v32,
    (W16_of_ne m ρ c main_arg5 (by decide)).trans h5.a5, (W16_of_ne m ρ c main_arg6 (by decide)).trans h5.a6, (W16_of_ne m ρ c main_arg7 (by decide)).trans h5.a7⟩, ?_⟩
  calc W16 m ρ c (Proc.devRef .tc main_v128)
    _ = (dat6 (V15 m ρ) c).arrAt 3 cfg6.N := W16_arr m ρ c 3
    _ = mixOf 0x3F6B8252#32 0x3DA3ED6E#32 (W15 m ρ c (Proc.devRef .tc main_v125)) (W15 m ρ c (Proc.devRef .tc main_v32))
          (W15 m ρ c (Proc.devRef .tc main_v127)) := Regions.region6 (V15 m ρ) c
    _ = layerOf 0x3F6B8252#32 0x3DA3ED6E#32 R C N X0 (w5 CW) H := by rw [ha, h5.v32, hw]; rfl

/-! ## Layer 7 -/

/-- Layer 7's stretch writes none of the carried buffers. -/
theorem s7_inv {W : Valuation τ sig (Elt Ideal)} {R C N X0 CW WO BO} (h : Inv W R C N X0 CW WO BO) :
    Inv (StableHlo.after (hostOps7 (F := Ideal)) W) R C N X0 CW WO BO where
  v3 := (show StableHlo.after (hostOps7 (F := Ideal)) W (Proc.devRef .tc main_v3) = W (Proc.devRef .tc main_v3) by stretch_keep hostOps7).trans h.v3
  v6 := (show StableHlo.after (hostOps7 (F := Ideal)) W (Proc.devRef .tc main_v6) = W (Proc.devRef .tc main_v6) by stretch_keep hostOps7).trans h.v6
  v31 := (show StableHlo.after (hostOps7 (F := Ideal)) W (Proc.devRef .tc main_v31) = W (Proc.devRef .tc main_v31) by stretch_keep hostOps7).trans h.v31
  v32 := (show StableHlo.after (hostOps7 (F := Ideal)) W (Proc.devRef .tc main_v32) = W (Proc.devRef .tc main_v32) by stretch_keep hostOps7).trans h.v32
  a5 := (show StableHlo.after (hostOps7 (F := Ideal)) W (Proc.devRef .tc main_arg5) = W (Proc.devRef .tc main_arg5) by stretch_keep hostOps7).trans h.a5
  a6 := (show StableHlo.after (hostOps7 (F := Ideal)) W (Proc.devRef .tc main_arg6) = W (Proc.devRef .tc main_arg6) by stretch_keep hostOps7).trans h.a6
  a7 := (show StableHlo.after (hostOps7 (F := Ideal)) W (Proc.devRef .tc main_arg7) = W (Proc.devRef .tc main_arg7) by stretch_keep hostOps7).trans h.a7

/-- Layer 7's stretch leaves the propagated features: the previous features' rows gathered at the sources, scaled
    by the coefficients, summed into the targets. -/
theorem s7_agg (W : Valuation τ sig (Elt Ideal)) :
    StableHlo.after (hostOps7 (F := Ideal)) W (Proc.devRef .tc main_v141)
      = aggOf (W (Proc.devRef .tc main_v3)) (W (Proc.devRef .tc main_v6)) (W (Proc.devRef .tc main_v31))
          (W (Proc.devRef .tc main_v128)) := by
  after_results_simp
  rfl

/-- … and the layer's matrix cut out of the stack. -/
theorem s7_w (W : Valuation τ sig (Elt Ideal)) :
    StableHlo.after (hostOps7 (F := Ideal)) W (Proc.devRef .tc main_v143) = w6 (W (Proc.devRef .tc main_arg5)) := by
  after_results_simp
  rfl

/-- Layer 7 whole: from the boundary before its stretch to the boundary after its mix. -/
theorem layer7 (c : Dev nD) {R C N X0 CW WO BO H} (h : Inv (W16 m ρ c) R C N X0 CW WO BO)
    (hH : W16 m ρ c (Proc.devRef .tc main_v128) = H) :
    Inv (W18 m ρ c) R C N X0 CW WO BO
      ∧ W18 m ρ c (Proc.devRef .tc main_v144) = layerOf 0x3F6E567C#32 0x3D8D4C22#32 R C N X0 (w6 CW) H := by
  have h5 : Inv (W17 m ρ c) R C N X0 CW WO BO := s7_inv h
  have ha : W17 m ρ c (Proc.devRef .tc main_v141) = aggOf R C N H :=
    (s7_agg (W16 m ρ c)).trans (by rw [h.v3, h.v6, h.v31, hH])
  have hw : W17 m ρ c (Proc.devRef .tc main_v143) = w6 CW :=
    (s7_w (W16 m ρ c)).trans (by rw [h.a5])
  refine ⟨⟨(W18_of_ne m ρ c main_v3 (by decide)).trans h5.v3, (W18_of_ne m ρ c main_v6 (by decide)).trans h5.v6, (W18_of_ne m ρ c main_v31 (by decide)).trans h5.v31,
    ((W18_arr m ρ c 1).trans (((dat7 (V17 m ρ) c).arrAt_in 1 rfl _).trans (A_eq7 (V17 m ρ) c 1))).trans h5.v32,
    (W18_of_ne m ρ c main_arg5 (by decide)).trans h5.a5, (W18_of_ne m ρ c main_arg6 (by decide)).trans h5.a6, (W18_of_ne m ρ c main_arg7 (by decide)).trans h5.a7⟩, ?_⟩
  calc W18 m ρ c (Proc.devRef .tc main_v144)
    _ = (dat7 (V17 m ρ) c).arrAt 3 cfg7.N := W18_arr m ρ c 3
    _ = mixOf 0x3F6E567C#32 0x3D8D4C22#32 (W17 m ρ c (Proc.devRef .tc main_v141)) (W17 m ρ c (Proc.devRef .tc main_v32))
          (W17 m ρ c (Proc.devRef .tc main_v143)) := Regions.region7 (V17 m ρ) c
    _ = layerOf 0x3F6E567C#32 0x3D8D4C22#32 R C N X0 (w6 CW) H := by rw [ha, h5.v32, hw]; rfl

/-! ## Layer 8 -/

/-- Layer 8's stretch writes none of the carried buffers. -/
theorem s8_inv {W : Valuation τ sig (Elt Ideal)} {R C N X0 CW WO BO} (h : Inv W R C N X0 CW WO BO) :
    Inv (StableHlo.after (hostOps8 (F := Ideal)) W) R C N X0 CW WO BO where
  v3 := (show StableHlo.after (hostOps8 (F := Ideal)) W (Proc.devRef .tc main_v3) = W (Proc.devRef .tc main_v3) by stretch_keep hostOps8).trans h.v3
  v6 := (show StableHlo.after (hostOps8 (F := Ideal)) W (Proc.devRef .tc main_v6) = W (Proc.devRef .tc main_v6) by stretch_keep hostOps8).trans h.v6
  v31 := (show StableHlo.after (hostOps8 (F := Ideal)) W (Proc.devRef .tc main_v31) = W (Proc.devRef .tc main_v31) by stretch_keep hostOps8).trans h.v31
  v32 := (show StableHlo.after (hostOps8 (F := Ideal)) W (Proc.devRef .tc main_v32) = W (Proc.devRef .tc main_v32) by stretch_keep hostOps8).trans h.v32
  a5 := (show StableHlo.after (hostOps8 (F := Ideal)) W (Proc.devRef .tc main_arg5) = W (Proc.devRef .tc main_arg5) by stretch_keep hostOps8).trans h.a5
  a6 := (show StableHlo.after (hostOps8 (F := Ideal)) W (Proc.devRef .tc main_arg6) = W (Proc.devRef .tc main_arg6) by stretch_keep hostOps8).trans h.a6
  a7 := (show StableHlo.after (hostOps8 (F := Ideal)) W (Proc.devRef .tc main_arg7) = W (Proc.devRef .tc main_arg7) by stretch_keep hostOps8).trans h.a7

/-- Layer 8's stretch leaves the propagated features: the previous features' rows gathered at the sources, scaled
    by the coefficients, summed into the targets. -/
theorem s8_agg (W : Valuation τ sig (Elt Ideal)) :
    StableHlo.after (hostOps8 (F := Ideal)) W (Proc.devRef .tc main_v157)
      = aggOf (W (Proc.devRef .tc main_v3)) (W (Proc.devRef .tc main_v6)) (W (Proc.devRef .tc main_v31))
          (W (Proc.devRef .tc main_v144)) := by
  after_results_simp
  rfl

/-- … and the layer's matrix cut out of the stack. -/
theorem s8_w (W : Valuation τ sig (Elt Ideal)) :
    StableHlo.after (hostOps8 (F := Ideal)) W (Proc.devRef .tc main_v159) = w7 (W (Proc.devRef .tc main_arg5)) := by
  after_results_simp
  rfl

/-- Layer 8 whole: from the boundary before its stretch to the boundary after its mix. -/
theorem layer8 (c : Dev nD) {R C N X0 CW WO BO H} (h : Inv (W18 m ρ c) R C N X0 CW WO BO)
    (hH : W18 m ρ c (Proc.devRef .tc main_v144) = H) :
    Inv (W20 m ρ c) R C N X0 CW WO BO
      ∧ W20 m ρ c (Proc.devRef .tc main_v160) = layerOf 0x3F707AE8#32 0x3D785186#32 R C N X0 (w7 CW) H := by
  have h5 : Inv (W19 m ρ c) R C N X0 CW WO BO := s8_inv h
  have ha : W19 m ρ c (Proc.devRef .tc main_v157) = aggOf R C N H :=
    (s8_agg (W18 m ρ c)).trans (by rw [h.v3, h.v6, h.v31, hH])
  have hw : W19 m ρ c (Proc.devRef .tc main_v159) = w7 CW :=
    (s8_w (W18 m ρ c)).trans (by rw [h.a5])
  refine ⟨⟨(W20_of_ne m ρ c main_v3 (by decide)).trans h5.v3, (W20_of_ne m ρ c main_v6 (by decide)).trans h5.v6, (W20_of_ne m ρ c main_v31 (by decide)).trans h5.v31,
    ((W20_arr m ρ c 1).trans (((dat8 (V19 m ρ) c).arrAt_in 1 rfl _).trans (A_eq8 (V19 m ρ) c 1))).trans h5.v32,
    (W20_of_ne m ρ c main_arg5 (by decide)).trans h5.a5, (W20_of_ne m ρ c main_arg6 (by decide)).trans h5.a6, (W20_of_ne m ρ c main_arg7 (by decide)).trans h5.a7⟩, ?_⟩
  calc W20 m ρ c (Proc.devRef .tc main_v160)
    _ = (dat8 (V19 m ρ) c).arrAt 3 cfg8.N := W20_arr m ρ c 3
    _ = mixOf 0x3F707AE8#32 0x3D785186#32 (W19 m ρ c (Proc.devRef .tc main_v157)) (W19 m ρ c (Proc.devRef .tc main_v32))
          (W19 m ρ c (Proc.devRef .tc main_v159)) := Regions.region8 (V19 m ρ) c
    _ = layerOf 0x3F707AE8#32 0x3D785186#32 R C N X0 (w7 CW) H := by rw [ha, h5.v32, hw]; rfl

/-! ## The output projection, and the run -/

/-- The last boundary's contents at the result buffer are the network of the launch arguments. -/
theorem fold_net (c : Dev nD) :
    W21 m ρ c (Proc.devRef .tc main_v161)
      = netOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have i4 := start m ρ c
  obtain ⟨i6, e6⟩ := layer1 m ρ c i4 i4.v32
  obtain ⟨i8, e8⟩ := layer2 m ρ c i6 e6
  obtain ⟨i10, e10⟩ := layer3 m ρ c i8 e8
  obtain ⟨i12, e12⟩ := layer4 m ρ c i10 e10
  obtain ⟨i14, e14⟩ := layer5 m ρ c i12 e12
  obtain ⟨i16, e16⟩ := layer6 m ρ c i14 e14
  obtain ⟨i18, e18⟩ := layer7 m ρ c i16 e16
  obtain ⟨i20, e20⟩ := layer8 m ρ c i18 e18
  calc W21 m ρ c (Proc.devRef .tc main_v161)
    _ = (dat9 (V20 m ρ) c).arrAt 3 cfg9.N := W21_arr m ρ c 3
    _ = projOf (W20 m ρ c (Proc.devRef .tc main_v160)) (W20 m ρ c (Proc.devRef .tc main_arg6))
          (W20 m ρ c (Proc.devRef .tc main_arg7)) := Regions.region9 (V20 m ρ) c
    _ = _ := by rw [e20, i20.a6, i20.a7]; rfl

/-- THE RUN: every weakly fair execution of the main function terminates, nothing faulting; the result buffer ends
    holding the network of the launch arguments, and the arguments end as launched. -/
theorem run : θ_run defs (onTc (τ := τ) (main (F := Ideal))) ⟨m, fun _ => 0, ρ⟩ (fun r => ∀ c : Dev nD,
      r.2.mem ((c.tc : Thread nD τ).loc main_v161)
        = netOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (fold_net m ρ c), (h c).2⟩) (run_fold m ρ)

end Cert.Gcn.Ker

end
-- ==== Proof.RefKeep.lean ====
/-
  The reference program's operations, cut into ten consecutive lines: which buffers each line writes, and that every
  other buffer keeps its contents through the line.  Each operation writes exactly one buffer and no buffer is written
  twice, so a line's written buffers are a plain list of references and "not written" is decided on that list.
-/
import proofs.«103257_j52364241273198_2_alg».proof.Proof.RefOps
import Idealize.ShloMosaic.Lib.StableHlo.Run
import Idealize.ShloMosaic.PureOps.Ideal

set_option maxRecDepth 16384

noncomputable section

namespace Cert.Gcn.Ref

open Cert.ReferenceIdeal Cert.ReferenceIdeal.Gen Idealize.ShloMosaic Idealize.ShloMosaic.TcCoe Idealize.SL.Sem Idealize.ShloMosaic.StableHlo

/-- The valuations of the device's buffers at the extended reals. -/
abbrev Vl := Valuation τ sig (Elt Ideal)

/-- Running two lines one after the other is running their concatenation. -/
theorem after_append (l₁ l₂ : List (HloOp τ sig (Elt Ideal))) (V : Vl) : after (l₁ ++ l₂) V = after l₂ (after l₁ V) := by
  induction l₁ generalizing V with
  | nil => rfl
  | cons op l ih => simp only [List.cons_append, after_cons, ih]

/-- An operation whose one written buffer is a reference of the list `W` writes inside `W`. -/
theorem writes_sub_of_mem {W : List (Ref sig .tc)} {op : HloOp τ sig (Elt Ideal)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map.mpr ⟨y, hy, rfl⟩

/-- The references `opsPre` writes, in order. -/
def wPre : List (Ref sig .tc) := [main_v0, main_v1, main_v2, main_v3, main_v4, main_v5, main_v6, main_cst, main_v7, main_v8, main_cst_0, main_v9, main_v10, main_v11, main_cst_1, main_v12, main_v13, main_v14, main_cst_2, main_call0_v0, main_call0_v1, main_v15, main_c, main_v16, main_v17, main_c_3, main_v18, main_v19, main_v20, main_v21, main_v22, main_v23, main_c_4, main_v24, main_v25, main_c_5, main_v26, main_v27, main_v28, main_v29, main_v30, main_v31, main_v32, main_v33, main_v34, main_v35, main_call1_cst, main_call1_v0, main_v36]
theorem opsPre_writes : (opsPre (F := Ideal)).Forall fun op => op.writes ⊆ (wPre.map (Proc.devRef (τ := τ) .tc)).toFinset :=
  ⟨writes_sub_of_mem main_v0 rfl (by decide), writes_sub_of_mem main_v1 rfl (by decide), writes_sub_of_mem main_v2 rfl (by decide), writes_sub_of_mem main_v3 rfl (by decide), writes_sub_of_mem main_v4 rfl (by decide), writes_sub_of_mem main_v5 rfl (by decide), writes_sub_of_mem main_v6 rfl (by decide), writes_sub_of_mem main_cst rfl (by decide), writes_sub_of_mem main_v7 rfl (by decide), writes_sub_of_mem main_v8 rfl (by decide), writes_sub_of_mem main_cst_0 rfl (by decide), writes_sub_of_mem main_v9 rfl (by decide), writes_sub_of_mem main_v10 rfl (by decide), writes_sub_of_mem main_v11 rfl (by decide), writes_sub_of_mem main_cst_1 rfl (by decide), writes_sub_of_mem main_v12 rfl (by decide), writes_sub_of_mem main_v13 rfl (by decide), writes_sub_of_mem main_v14 rfl (by decide), writes_sub_of_mem main_cst_2 rfl (by decide), writes_sub_of_mem main_call0_v0 rfl (by decide), writes_sub_of_mem main_call0_v1 rfl (by decide), writes_sub_of_mem main_v15 rfl (by decide), writes_sub_of_mem main_c rfl (by decide), writes_sub_of_mem main_v16 rfl (by decide), writes_sub_of_mem main_v17 rfl (by decide), writes_sub_of_mem main_c_3 rfl (by decide), writes_sub_of_mem main_v18 rfl (by decide), writes_sub_of_mem main_v19 rfl (by decide), writes_sub_of_mem main_v20 rfl (by decide), writes_sub_of_mem main_v21 rfl (by decide), writes_sub_of_mem main_v22 rfl (by decide), writes_sub_of_mem main_v23 rfl (by decide), writes_sub_of_mem main_c_4 rfl (by decide), writes_sub_of_mem main_v24 rfl (by decide), writes_sub_of_mem main_v25 rfl (by decide), writes_sub_of_mem main_c_5 rfl (by decide), writes_sub_of_mem main_v26 rfl (by decide), writes_sub_of_mem main_v27 rfl (by decide), writes_sub_of_mem main_v28 rfl (by decide), writes_sub_of_mem main_v29 rfl (by decide), writes_sub_of_mem main_v30 rfl (by decide), writes_sub_of_mem main_v31 rfl (by decide), writes_sub_of_mem main_v32 rfl (by decide), writes_sub_of_mem main_v33 rfl (by decide), writes_sub_of_mem main_v34 rfl (by decide), writes_sub_of_mem main_v35 rfl (by decide), writes_sub_of_mem main_call1_cst rfl (by decide), writes_sub_of_mem main_call1_v0 rfl (by decide), writes_sub_of_mem main_v36 rfl (by decide)⟩
/-- A reference `opsPre` does not write keeps its contents. -/
theorem opsPre_keep (R : Vl) {r : Ref sig .tc} (hr : r ∉ wPre) : after opsPre R (Proc.devRef .tc r) = R (Proc.devRef .tc r) :=
  after_of_writes_sub opsPre R opsPre_writes hr

/-- The references `opsL1` writes, in order. -/
def wL1 : List (Ref sig .tc) := [main_v37, main_c_6, main_v38, main_v39, main_c_7, main_v40, main_v41, main_v42, main_v43, main_v44, main_v45, main_v46, main_cst_8, main_v47, main_v48, main_v49, main_cst_9, main_v50, main_v51, main_cst_10, main_v52, main_v53, main_v54, main_cst_11, main_v55, main_v56, main_v57, main_v58, main_v59, main_cst_12, main_v60, main_v61, main_v62, main_call2_cst, main_call2_v0, main_v63]
theorem opsL1_writes : (opsL1 (F := Ideal)).Forall fun op => op.writes ⊆ (wL1.map (Proc.devRef (τ := τ) .tc)).toFinset :=
  ⟨writes_sub_of_mem main_v37 rfl (by decide), writes_sub_of_mem main_c_6 rfl (by decide), writes_sub_of_mem main_v38 rfl (by decide), writes_sub_of_mem main_v39 rfl (by decide), writes_sub_of_mem main_c_7 rfl (by decide), writes_sub_of_mem main_v40 rfl (by decide), writes_sub_of_mem main_v41 rfl (by decide), writes_sub_of_mem main_v42 rfl (by decide), writes_sub_of_mem main_v43 rfl (by decide), writes_sub_of_mem main_v44 rfl (by decide), writes_sub_of_mem main_v45 rfl (by decide), writes_sub_of_mem main_v46 rfl (by decide), writes_sub_of_mem main_cst_8 rfl (by decide), writes_sub_of_mem main_v47 rfl (by decide), writes_sub_of_mem main_v48 rfl (by decide), writes_sub_of_mem main_v49 rfl (by decide), writes_sub_of_mem main_cst_9 rfl (by decide), writes_sub_of_mem main_v50 rfl (by decide), writes_sub_of_mem main_v51 rfl (by decide), writes_sub_of_mem main_cst_10 rfl (by decide), writes_sub_of_mem main_v52 rfl (by decide), writes_sub_of_mem main_v53 rfl (by decide), writes_sub_of_mem main_v54 rfl (by decide), writes_sub_of_mem main_cst_11 rfl (by decide), writes_sub_of_mem main_v55 rfl (by decide), writes_sub_of_mem main_v56 rfl (by decide), writes_sub_of_mem main_v57 rfl (by decide), writes_sub_of_mem main_v58 rfl (by decide), writes_sub_of_mem main_v59 rfl (by decide), writes_sub_of_mem main_cst_12 rfl (by decide), writes_sub_of_mem main_v60 rfl (by decide), writes_sub_of_mem main_v61 rfl (by decide), writes_sub_of_mem main_v62 rfl (by decide), writes_sub_of_mem main_call2_cst rfl (by decide), writes_sub_of_mem main_call2_v0 rfl (by decide), writes_sub_of_mem main_v63 rfl (by decide)⟩
/-- A reference `opsL1` does not write keeps its contents. -/
theorem opsL1_keep (R : Vl) {r : Ref sig .tc} (hr : r ∉ wL1) : after opsL1 R (Proc.devRef .tc r) = R (Proc.devRef .tc r) :=
  after_of_writes_sub opsL1 R opsL1_writes hr

/-- The references `opsL2` writes, in order. -/
def wL2 : List (Ref sig .tc) := [main_v64, main_c_13, main_v65, main_v66, main_c_14, main_v67, main_v68, main_v69, main_v70, main_v71, main_v72, main_v73, main_cst_15, main_v74, main_v75, main_v76, main_cst_16, main_v77, main_v78, main_cst_17, main_v79, main_v80, main_v81, main_cst_18, main_v82, main_v83, main_v84, main_v85, main_v86, main_cst_19, main_v87, main_v88, main_v89, main_call3_cst, main_call3_v0, main_v90]
theorem opsL2_writes : (opsL2 (F := Ideal)).Forall fun op => op.writes ⊆ (wL2.map (Proc.devRef (τ := τ) .tc)).toFinset :=
  ⟨writes_sub_of_mem main_v64 rfl (by decide), writes_sub_of_mem main_c_13 rfl (by decide), writes_sub_of_mem main_v65 rfl (by decide), writes_sub_of_mem main_v66 rfl (by decide), writes_sub_of_mem main_c_14 rfl (by decide), writes_sub_of_mem main_v67 rfl (by decide), writes_sub_of_mem main_v68 rfl (by decide), writes_sub_of_mem main_v69 rfl (by decide), writes_sub_of_mem main_v70 rfl (by decide), writes_sub_of_mem main_v71 rfl (by decide), writes_sub_of_mem main_v72 rfl (by decide), writes_sub_of_mem main_v73 rfl (by decide), writes_sub_of_mem main_cst_15 rfl (by decide), writes_sub_of_mem main_v74 rfl (by decide), writes_sub_of_mem main_v75 rfl (by decide), writes_sub_of_mem main_v76 rfl (by decide), writes_sub_of_mem main_cst_16 rfl (by decide), writes_sub_of_mem main_v77 rfl (by decide), writes_sub_of_mem main_v78 rfl (by decide), writes_sub_of_mem main_cst_17 rfl (by decide), writes_sub_of_mem main_v79 rfl (by decide), writes_sub_of_mem main_v80 rfl (by decide), writes_sub_of_mem main_v81 rfl (by decide), writes_sub_of_mem main_cst_18 rfl (by decide), writes_sub_of_mem main_v82 rfl (by decide), writes_sub_of_mem main_v83 rfl (by decide), writes_sub_of_mem main_v84 rfl (by decide), writes_sub_of_mem main_v85 rfl (by decide), writes_sub_of_mem main_v86 rfl (by decide), writes_sub_of_mem main_cst_19 rfl (by decide), writes_sub_of_mem main_v87 rfl (by decide), writes_sub_of_mem main_v88 rfl (by decide), writes_sub_of_mem main_v89 rfl (by decide), writes_sub_of_mem main_call3_cst rfl (by decide), writes_sub_of_mem main_call3_v0 rfl (by decide), writes_sub_of_mem main_v90 rfl (by decide)⟩
/-- A reference `opsL2` does not write keeps its contents. -/
theorem opsL2_keep (R : Vl) {r : Ref sig .tc} (hr : r ∉ wL2) : after opsL2 R (Proc.devRef .tc r) = R (Proc.devRef .tc r) :=
  after_of_writes_sub opsL2 R opsL2_writes hr

/-- The references `opsL3` writes, in order. -/
def wL3 : List (Ref sig .tc) := [main_v91, main_c_20, main_v92, main_v93, main_c_21, main_v94, main_v95, main_v96, main_v97, main_v98, main_v99, main_v100, main_cst_22, main_v101, main_v102, main_v103, main_cst_23, main_v104, main_v105, main_cst_24, main_v106, main_v107, main_v108, main_cst_25, main_v109, main_v110, main_v111, main_v112, main_v113, main_cst_26, main_v114, main_v115, main_v116, main_call4_cst, main_call4_v0, main_v117]
theorem opsL3_writes : (opsL3 (F := Ideal)).Forall fun op => op.writes ⊆ (wL3.map (Proc.devRef (τ := τ) .tc)).toFinset :=
  ⟨writes_sub_of_mem main_v91 rfl (by decide), writes_sub_of_mem main_c_20 rfl (by decide), writes_sub_of_mem main_v92 rfl (by decide), writes_sub_of_mem main_v93 rfl (by decide), writes_sub_of_mem main_c_21 rfl (by decide), writes_sub_of_mem main_v94 rfl (by decide), writes_sub_of_mem main_v95 rfl (by decide), writes_sub_of_mem main_v96 rfl (by decide), writes_sub_of_mem main_v97 rfl (by decide), writes_sub_of_mem main_v98 rfl (by decide), writes_sub_of_mem main_v99 rfl (by decide), writes_sub_of_mem main_v100 rfl (by decide), writes_sub_of_mem main_cst_22 rfl (by decide), writes_sub_of_mem main_v101 rfl (by decide), writes_sub_of_mem main_v102 rfl (by decide), writes_sub_of_mem main_v103 rfl (by decide), writes_sub_of_mem main_cst_23 rfl (by decide), writes_sub_of_mem main_v104 rfl (by decide), writes_sub_of_mem main_v105 rfl (by decide), writes_sub_of_mem main_cst_24 rfl (by decide), writes_sub_of_mem main_v106 rfl (by decide), writes_sub_of_mem main_v107 rfl (by decide), writes_sub_of_mem main_v108 rfl (by decide), writes_sub_of_mem main_cst_25 rfl (by decide), writes_sub_of_mem main_v109 rfl (by decide), writes_sub_of_mem main_v110 rfl (by decide), writes_sub_of_mem main_v111 rfl (by decide), writes_sub_of_mem main_v112 rfl (by decide), writes_sub_of_mem main_v113 rfl (by decide), writes_sub_of_mem main_cst_26 rfl (by decide), writes_sub_of_mem main_v114 rfl (by decide), writes_sub_of_mem main_v115 rfl (by decide), writes_sub_of_mem main_v116 rfl (by decide), writes_sub_of_mem main_call4_cst rfl (by decide), writes_sub_of_mem main_call4_v0 rfl (by decide), writes_sub_of_mem main_v117 rfl (by decide)⟩
/-- A reference `opsL3` does not write keeps its contents. -/
theorem opsL3_keep (R : Vl) {r : Ref sig .tc} (hr : r ∉ wL3) : after opsL3 R (Proc.devRef .tc r) = R (Proc.devRef .tc r) :=
  after_of_writes_sub opsL3 R opsL3_writes hr

/-- The references `opsL4` writes, in order. -/
def wL4 : List (Ref sig .tc) := [main_v118, main_c_27, main_v119, main_v120, main_c_28, main_v121, main_v122, main_v123, main_v124, main_v125, main_v126, main_v127, main_cst_29, main_v128, main_v129, main_v130, main_cst_30, main_v131, main_v132, main_cst_31, main_v133, main_v134, main_v135, main_cst_32, main_v136, main_v137, main_v138, main_v139, main_v140, main_cst_33, main_v141, main_v142, main_v143, main_call5_cst, main_call5_v0, main_v144]
theorem opsL4_writes : (opsL4 (F := Ideal)).Forall fun op => op.writes ⊆ (wL4.map (Proc.devRef (τ := τ) .tc)).toFinset :=
  ⟨writes_sub_of_mem main_v118 rfl (by decide), writes_sub_of_mem main_c_27 rfl (by decide), writes_sub_of_mem main_v119 rfl (by decide), writes_sub_of_mem main_v120 rfl (by decide), writes_sub_of_mem main_c_28 rfl (by decide), writes_sub_of_mem main_v121 rfl (by decide), writes_sub_of_mem main_v122 rfl (by decide), writes_sub_of_mem main_v123 rfl (by decide), writes_sub_of_mem main_v124 rfl (by decide), writes_sub_of_mem main_v125 rfl (by decide), writes_sub_of_mem main_v126 rfl (by decide), writes_sub_of_mem main_v127 rfl (by decide), writes_sub_of_mem main_cst_29 rfl (by decide), writes_sub_of_mem main_v128 rfl (by decide), writes_sub_of_mem main_v129 rfl (by decide), writes_sub_of_mem main_v130 rfl (by decide), writes_sub_of_mem main_cst_30 rfl (by decide), writes_sub_of_mem main_v131 rfl (by decide), writes_sub_of_mem main_v132 rfl (by decide), writes_sub_of_mem main_cst_31 rfl (by decide), writes_sub_of_mem main_v133 rfl (by decide), writes_sub_of_mem main_v134 rfl (by decide), writes_sub_of_mem main_v135 rfl (by decide), writes_sub_of_mem main_cst_32 rfl (by decide), writes_sub_of_mem main_v136 rfl (by decide), writes_sub_of_mem main_v137 rfl (by decide), writes_sub_of_mem main_v138 rfl (by decide), writes_sub_of_mem main_v139 rfl (by decide), writes_sub_of_mem main_v140 rfl (by decide), writes_sub_of_mem main_cst_33 rfl (by decide), writes_sub_of_mem main_v141 rfl (by decide), writes_sub_of_mem main_v142 rfl (by decide), writes_sub_of_mem main_v143 rfl (by decide), writes_sub_of_mem main_call5_cst rfl (by decide), writes_sub_of_mem main_call5_v0 rfl (by decide), writes_sub_of_mem main_v144 rfl (by decide)⟩
/-- A reference `opsL4` does not write keeps its contents. -/
theorem opsL4_keep (R : Vl) {r : Ref sig .tc} (hr : r ∉ wL4) : after opsL4 R (Proc.devRef .tc r) = R (Proc.devRef .tc r) :=
  after_of_writes_sub opsL4 R opsL4_writes hr

/-- The references `opsL5` writes, in order. -/
def wL5 : List (Ref sig .tc) := [main_v145, main_c_34, main_v146, main_v147, main_c_35, main_v148, main_v149, main_v150, main_v151, main_v152, main_v153, main_v154, main_cst_36, main_v155, main_v156, main_v157, main_cst_37, main_v158, main_v159, main_cst_38, main_v160, main_v161, main_v162, main_cst_39, main_v163, main_v164, main_v165, main_v166, main_v167, main_cst_40, main_v168, main_v169, main_v170, main_call6_cst, main_call6_v0, main_v171]
theorem opsL5_writes : (opsL5 (F := Ideal)).Forall fun op => op.writes ⊆ (wL5.map (Proc.devRef (τ := τ) .tc)).toFinset :=
  ⟨writes_sub_of_mem main_v145 rfl (by decide), writes_sub_of_mem main_c_34 rfl (by decide), writes_sub_of_mem main_v146 rfl (by decide), writes_sub_of_mem main_v147 rfl (by decide), writes_sub_of_mem main_c_35 rfl (by decide), writes_sub_of_mem main_v148 rfl (by decide), writes_sub_of_mem main_v149 rfl (by decide), writes_sub_of_mem main_v150 rfl (by decide), writes_sub_of_mem main_v151 rfl (by decide), writes_sub_of_mem main_v152 rfl (by decide), writes_sub_of_mem main_v153 rfl (by decide), writes_sub_of_mem main_v154 rfl (by decide), writes_sub_of_mem main_cst_36 rfl (by decide), writes_sub_of_mem main_v155 rfl (by decide), writes_sub_of_mem main_v156 rfl (by decide), writes_sub_of_mem main_v157 rfl (by decide), writes_sub_of_mem main_cst_37 rfl (by decide), writes_sub_of_mem main_v158 rfl (by decide), writes_sub_of_mem main_v159 rfl (by decide), writes_sub_of_mem main_cst_38 rfl (by decide), writes_sub_of_mem main_v160 rfl (by decide), writes_sub_of_mem main_v161 rfl (by decide), writes_sub_of_mem main_v162 rfl (by decide), writes_sub_of_mem main_cst_39 rfl (by decide), writes_sub_of_mem main_v163 rfl (by decide), writes_sub_of_mem main_v164 rfl (by decide), writes_sub_of_mem main_v165 rfl (by decide), writes_sub_of_mem main_v166 rfl (by decide), writes_sub_of_mem main_v167 rfl (by decide), writes_sub_of_mem main_cst_40 rfl (by decide), writes_sub_of_mem main_v168 rfl (by decide), writes_sub_of_mem main_v169 rfl (by decide), writes_sub_of_mem main_v170 rfl (by decide), writes_sub_of_mem main_call6_cst rfl (by decide), writes_sub_of_mem main_call6_v0 rfl (by decide), writes_sub_of_mem main_v171 rfl (by decide)⟩
/-- A reference `opsL5` does not write keeps its contents. -/
theorem opsL5_keep (R : Vl) {r : Ref sig .tc} (hr : r ∉ wL5) : after opsL5 R (Proc.devRef .tc r) = R (Proc.devRef .tc r) :=
  after_of_writes_sub opsL5 R opsL5_writes hr

/-- The references `opsL6` writes, in order. -/
def wL6 : List (Ref sig .tc) := [main_v172, main_c_41, main_v173, main_v174, main_c_42, main_v175, main_v176, main_v177, main_v178, main_v179, main_v180, main_v181, main_cst_43, main_v182, main_v183, main_v184, main_cst_44, main_v185, main_v186, main_cst_45, main_v187, main_v188, main_v189, main_cst_46, main_v190, main_v191, main_v192, main_v193, main_v194, main_cst_47, main_v195, main_v196, main_v197, main_call7_cst, main_call7_v0, main_v198]
theorem opsL6_writes : (opsL6 (F := Ideal)).Forall fun op => op.writes ⊆ (wL6.map (Proc.devRef (τ := τ) .tc)).toFinset :=
  ⟨writes_sub_of_mem main_v172 rfl (by decide), writes_sub_of_mem main_c_41 rfl (by decide), writes_sub_of_mem main_v173 rfl (by decide), writes_sub_of_mem main_v174 rfl (by decide), writes_sub_of_mem main_c_42 rfl (by decide), writes_sub_of_mem main_v175 rfl (by decide), writes_sub_of_mem main_v176 rfl (by decide), writes_sub_of_mem main_v177 rfl (by decide), writes_sub_of_mem main_v178 rfl (by decide), writes_sub_of_mem main_v179 rfl (by decide), writes_sub_of_mem main_v180 rfl (by decide), writes_sub_of_mem main_v181 rfl (by decide), writes_sub_of_mem main_cst_43 rfl (by decide), writes_sub_of_mem main_v182 rfl (by decide), writes_sub_of_mem main_v183 rfl (by decide), writes_sub_of_mem main_v184 rfl (by decide), writes_sub_of_mem main_cst_44 rfl (by decide), writes_sub_of_mem main_v185 rfl (by decide), writes_sub_of_mem main_v186 rfl (by decide), writes_sub_of_mem main_cst_45 rfl (by decide), writes_sub_of_mem main_v187 rfl (by decide), writes_sub_of_mem main_v188 rfl (by decide), writes_sub_of_mem main_v189 rfl (by decide), writes_sub_of_mem main_cst_46 rfl (by decide), writes_sub_of_mem main_v190 rfl (by decide), writes_sub_of_mem main_v191 rfl (by decide), writes_sub_of_mem main_v192 rfl (by decide), writes_sub_of_mem main_v193 rfl (by decide), writes_sub_of_mem main_v194 rfl (by decide), writes_sub_of_mem main_cst_47 rfl (by decide), writes_sub_of_mem main_v195 rfl (by decide), writes_sub_of_mem main_v196 rfl (by decide), writes_sub_of_mem main_v197 rfl (by decide), writes_sub_of_mem main_call7_cst rfl (by decide), writes_sub_of_mem main_call7_v0 rfl (by decide), writes_sub_of_mem main_v198 rfl (by decide)⟩
/-- A reference `opsL6` does not write keeps its contents. -/
theorem opsL6_keep (R : Vl) {r : Ref sig .tc} (hr : r ∉ wL6) : after opsL6 R (Proc.devRef .tc r) = R (Proc.devRef .tc r) :=
  after_of_writes_sub opsL6 R opsL6_writes hr

/-- The references `opsL7` writes, in order. -/
def wL7 : List (Ref sig .tc) := [main_v199, main_c_48, main_v200, main_v201, main_c_49, main_v202, main_v203, main_v204, main_v205, main_v206, main_v207, main_v208, main_cst_50, main_v209, main_v210, main_v211, main_cst_51, main_v212, main_v213, main_cst_52, main_v214, main_v215, main_v216, main_cst_53, main_v217, main_v218, main_v219, main_v220, main_v221, main_cst_54, main_v222, main_v223, main_v224, main_call8_cst, main_call8_v0, main_v225]
theorem opsL7_writes : (opsL7 (F := Ideal)).Forall fun op => op.writes ⊆ (wL7.map (Proc.devRef (τ := τ) .tc)).toFinset :=
  ⟨writes_sub_of_mem main_v199 rfl (by decide), writes_sub_of_mem main_c_48 rfl (by decide), writes_sub_of_mem main_v200 rfl (by decide), writes_sub_of_mem main_v201 rfl (by decide), writes_sub_of_mem main_c_49 rfl (by decide), writes_sub_of_mem main_v202 rfl (by decide), writes_sub_of_mem main_v203 rfl (by decide), writes_sub_of_mem main_v204 rfl (by decide), writes_sub_of_mem main_v205 rfl (by decide), writes_sub_of_mem main_v206 rfl (by decide), writes_sub_of_mem main_v207 rfl (by decide), writes_sub_of_mem main_v208 rfl (by decide), writes_sub_of_mem main_cst_50 rfl (by decide), writes_sub_of_mem main_v209 rfl (by decide), writes_sub_of_mem main_v210 rfl (by decide), writes_sub_of_mem main_v211 rfl (by decide), writes_sub_of_mem main_cst_51 rfl (by decide), writes_sub_of_mem main_v212 rfl (by decide), writes_sub_of_mem main_v213 rfl (by decide), writes_sub_of_mem main_cst_52 rfl (by decide), writes_sub_of_mem main_v214 rfl (by decide), writes_sub_of_mem main_v215 rfl (by decide), writes_sub_of_mem main_v216 rfl (by decide), writes_sub_of_mem main_cst_53 rfl (by decide), writes_sub_of_mem main_v217 rfl (by decide), writes_sub_of_mem main_v218 rfl (by decide), writes_sub_of_mem main_v219 rfl (by decide), writes_sub_of_mem main_v220 rfl (by decide), writes_sub_of_mem main_v221 rfl (by decide), writes_sub_of_mem main_cst_54 rfl (by decide), writes_sub_of_mem main_v222 rfl (by decide), writes_sub_of_mem main_v223 rfl (by decide), writes_sub_of_mem main_v224 rfl (by decide), writes_sub_of_mem main_call8_cst rfl (by decide), writes_sub_of_mem main_call8_v0 rfl (by decide), writes_sub_of_mem main_v225 rfl (by decide)⟩
/-- A reference `opsL7` does not write keeps its contents. -/
theorem opsL7_keep (R : Vl) {r : Ref sig .tc} (hr : r ∉ wL7) : after opsL7 R (Proc.devRef .tc r) = R (Proc.devRef .tc r) :=
  after_of_writes_sub opsL7 R opsL7_writes hr

/-- The references `opsL8` writes, in order. -/
def wL8 : List (Ref sig .tc) := [main_v226, main_c_55, main_v227, main_v228, main_c_56, main_v229, main_v230, main_v231, main_v232, main_v233, main_v234, main_v235, main_cst_57, main_v236, main_v237, main_v238, main_cst_58, main_v239, main_v240, main_cst_59, main_v241, main_v242, main_v243, main_cst_60, main_v244, main_v245, main_v246, main_v247, main_v248, main_cst_61, main_v249, main_v250, main_v251, main_call9_cst, main_call9_v0, main_v252]
theorem opsL8_writes : (opsL8 (F := Ideal)).Forall fun op => op.writes ⊆ (wL8.map (Proc.devRef (τ := τ) .tc)).toFinset :=
  ⟨writes_sub_of_mem main_v226 rfl (by decide), writes_sub_of_mem main_c_55 rfl (by decide), writes_sub_of_mem main_v227 rfl (by decide), writes_sub_of_mem main_v228 rfl (by decide), writes_sub_of_mem main_c_56 rfl (by decide), writes_sub_of_mem main_v229 rfl (by decide), writes_sub_of_mem main_v230 rfl (by decide), writes_sub_of_mem main_v231 rfl (by decide), writes_sub_of_mem main_v232 rfl (by decide), writes_sub_of_mem main_v233 rfl (by decide), writes_sub_of_mem main_v234 rfl (by decide), writes_sub_of_mem main_v235 rfl (by decide), writes_sub_of_mem main_cst_57 rfl (by decide), writes_sub_of_mem main_v236 rfl (by decide), writes_sub_of_mem main_v237 rfl (by decide), writes_sub_of_mem main_v238 rfl (by decide), writes_sub_of_mem main_cst_58 rfl (by decide), writes_sub_of_mem main_v239 rfl (by decide), writes_sub_of_mem main_v240 rfl (by decide), writes_sub_of_mem main_cst_59 rfl (by decide), writes_sub_of_mem main_v241 rfl (by decide), writes_sub_of_mem main_v242 rfl (by decide), writes_sub_of_mem main_v243 rfl (by decide), writes_sub_of_mem main_cst_60 rfl (by decide), writes_sub_of_mem main_v244 rfl (by decide), writes_sub_of_mem main_v245 rfl (by decide), writes_sub_of_mem main_v246 rfl (by decide), writes_sub_of_mem main_v247 rfl (by decide), writes_sub_of_mem main_v248 rfl (by decide), writes_sub_of_mem main_cst_61 rfl (by decide), writes_sub_of_mem main_v249 rfl (by decide), writes_sub_of_mem main_v250 rfl (by decide), writes_sub_of_mem main_v251 rfl (by decide), writes_sub_of_mem main_call9_cst rfl (by decide), writes_sub_of_mem main_call9_v0 rfl (by decide), writes_sub_of_mem main_v252 rfl (by decide)⟩
/-- A reference `opsL8` does not write keeps its contents. -/
theorem opsL8_keep (R : Vl) {r : Ref sig .tc} (hr : r ∉ wL8) : after opsL8 R (Proc.devRef .tc r) = R (Proc.devRef .tc r) :=
  after_of_writes_sub opsL8 R opsL8_writes hr

/-- The references `opsFin` writes, in order. -/
def wFin : List (Ref sig .tc) := [main_v253, main_v254, main_v255, main_v256]
theorem opsFin_writes : (opsFin (F := Ideal)).Forall fun op => op.writes ⊆ (wFin.map (Proc.devRef (τ := τ) .tc)).toFinset :=
  ⟨writes_sub_of_mem main_v253 rfl (by decide), writes_sub_of_mem main_v254 rfl (by decide), writes_sub_of_mem main_v255 rfl (by decide), writes_sub_of_mem main_v256 rfl (by decide)⟩
/-- A reference `opsFin` does not write keeps its contents. -/
theorem opsFin_keep (R : Vl) {r : Ref sig .tc} (hr : r ∉ wFin) : after opsFin R (Proc.devRef .tc r) = R (Proc.devRef .tc r) :=
  after_of_writes_sub opsFin R opsFin_writes hr

/-- The buffers read by more than one line: the eight arguments, the two edge lists, the edge coefficients and the
    first projection. -/
def persist : List (Ref sig .tc) := [main_arg0, main_arg1, main_arg2, main_arg3, main_arg4, main_arg5, main_arg6, main_arg7, main_v3, main_v6, main_v31, main_v36]

/-- No layer and not the last line writes any of them. -/
theorem persist_L1 : ∀ r ∈ persist, r ∉ wL1 := by decide
theorem persist_L2 : ∀ r ∈ persist, r ∉ wL2 := by decide
theorem persist_L3 : ∀ r ∈ persist, r ∉ wL3 := by decide
theorem persist_L4 : ∀ r ∈ persist, r ∉ wL4 := by decide
theorem persist_L5 : ∀ r ∈ persist, r ∉ wL5 := by decide
theorem persist_L6 : ∀ r ∈ persist, r ∉ wL6 := by decide
theorem persist_L7 : ∀ r ∈ persist, r ∉ wL7 := by decide
theorem persist_L8 : ∀ r ∈ persist, r ∉ wL8 := by decide
theorem persist_Fin : ∀ r ∈ persist, r ∉ wFin := by decide

/-- The whole run is the ten lines one after the other. -/
abbrev upTo8 (V : Vl) : Vl :=
  after opsL8 (after opsL7 (after opsL6 (after opsL5 (after opsL4 (after opsL3 (after opsL2 (after opsL1 (after opsPre V))))))))

theorem after_ops (V : Vl) : after ops V = after opsFin (upTo8 V) := by
  show after (opsPre ++ (opsL1 ++ (opsL2 ++ (opsL3 ++ (opsL4 ++ (opsL5 ++ (opsL6 ++ (opsL7 ++ (opsL8 ++ opsFin))))))))) V = _
  rw [after_append, after_append, after_append, after_append, after_append, after_append, after_append, after_append, after_append]

end Cert.Gcn.Ref

end
-- ==== Proof.RefRun.lean ====
/-
  The reference program's run, read back one line at a time.

  The program is a straight line of 341 array operations, cut into ten consecutive lines: a first line (the edge lists
  with their self-loops, the edge coefficients, the input projection), eight layers, and the output projection.  Every
  later line reads only a dozen buffers of the earlier ones — the eight arguments, the two edge lists, the coefficients,
  the first projection — and the features of the layer before it; no line writes any of them.  So the run is a chain:
  an invariant about those buffers (`Inv`) holds after the first line and passes through every layer, while the last
  buffer of layer l holds the model's features `h_l`; the last line then leaves the model's network in the result buffer.
-/
import proofs.«103257_j52364241273198_2_alg».proof.Proof.RefKeep
import proofs.«103257_j52364241273198_2_alg».proof.Proof.Model
import proofs.«103257_j52364241273198_2_alg».proof.Proof.LibAfterJoin
import Idealize.ShloMosaic.Lib.StableHlo.Run

set_option maxRecDepth 16384

noncomputable section

namespace Cert.Gcn.Ref

open Cert.ReferenceIdeal Cert.ReferenceIdeal.Gen Idealize.ShloMosaic Idealize.ShloMosaic.TcCoe Idealize.SL.Sem Idealize.ShloMosaic.StableHlo

/-! ## What each line computes, read back at the buffers later lines use -/

/-- The sources of the edges. -/
theorem pre_row (R : Vl) : after opsPre R (Proc.devRef .tc main_v3) = rowOf (R (Proc.devRef .tc main_arg1)) := by
  after_results_join
  rfl
/-- The targets of the edges. -/
theorem pre_col (R : Vl) : after opsPre R (Proc.devRef .tc main_v6) = colOf (R (Proc.devRef .tc main_arg1)) := by
  after_results_join
  rfl
/-- The edge coefficients. -/
theorem pre_nrm (R : Vl) : after opsPre R (Proc.devRef .tc main_v31) = normOf (R (Proc.devRef .tc main_arg1)) (R (Proc.devRef .tc main_arg2)) := by
  after_results_join
  rfl
/-- The input projection. -/
theorem pre_x0 (R : Vl) : after opsPre R (Proc.devRef .tc main_v36) = linOf (R (Proc.devRef .tc main_arg0)) (R (Proc.devRef .tc main_arg3)) (R (Proc.devRef .tc main_arg4)) := by
  after_results_join
  rfl

/-- Layer 1, from the edge lists, the coefficients, the first projection, the weights and the features before it. -/
theorem layer1_res (R : Vl) {row col : IVec S1700000 32} {nrm : FVec Ideal S1700000 .f32} {x0 : FVec Ideal S100000x64 .f32}
    {cw : FVec Ideal S8x64x64 .f32}
    (h3 : (R (Proc.devRef .tc main_v3)) = row) (h6 : (R (Proc.devRef .tc main_v6)) = col) (h31 : (R (Proc.devRef .tc main_v31)) = nrm)
    (h36 : (R (Proc.devRef .tc main_v36)) = x0) (h5 : (R (Proc.devRef .tc main_arg5)) = cw) :
    after opsL1 R (Proc.devRef .tc main_v63) = layerOf 0x3F183370#32 0x3ECF991F#32 row col nrm x0 (w0 cw) x0 := by
  subst h3 h6 h31 h36 h5
  after_results_join
  rfl

/-- Layer 2, from the edge lists, the coefficients, the first projection, the weights and the features before it. -/
theorem layer2_res (R : Vl) {row col : IVec S1700000 32} {nrm : FVec Ideal S1700000 .f32} {x0 k : FVec Ideal S100000x64 .f32}
    {cw : FVec Ideal S8x64x64 .f32}
    (h3 : (R (Proc.devRef .tc main_v3)) = row) (h6 : (R (Proc.devRef .tc main_v6)) = col) (h31 : (R (Proc.devRef .tc main_v31)) = nrm)
    (h36 : (R (Proc.devRef .tc main_v36)) = x0) (h5 : (R (Proc.devRef .tc main_arg5)) = cw) (hf : (R (Proc.devRef .tc main_v63)) = k) :
    after opsL2 R (Proc.devRef .tc main_v90) = layerOf 0x3F46E010#32 0x3E647FBE#32 row col nrm x0 (w1 cw) k := by
  subst h3 h6 h31 h36 h5 hf
  after_results_join
  rfl

/-- Layer 3, from the edge lists, the coefficients, the first projection, the weights and the features before it. -/
theorem layer3_res (R : Vl) {row col : IVec S1700000 32} {nrm : FVec Ideal S1700000 .f32} {x0 k : FVec Ideal S100000x64 .f32}
    {cw : FVec Ideal S8x64x64 .f32}
    (h3 : (R (Proc.devRef .tc main_v3)) = row) (h6 : (R (Proc.devRef .tc main_v6)) = col) (h31 : (R (Proc.devRef .tc main_v31)) = nrm)
    (h36 : (R (Proc.devRef .tc main_v36)) = x0) (h5 : (R (Proc.devRef .tc main_arg5)) = cw) (hf : (R (Proc.devRef .tc main_v90)) = k) :
    after opsL3 R (Proc.devRef .tc main_v117) = layerOf 0x3F588995#32 0x3E1DD9AD#32 row col nrm x0 (w2 cw) k := by
  subst h3 h6 h31 h36 h5 hf
  after_results_join
  rfl

/-- Layer 4, from the edge lists, the coefficients, the first projection, the weights and the features before it. -/
theorem layer4_res (R : Vl) {row col : IVec S1700000 32} {nrm : FVec Ideal S1700000 .f32} {x0 k : FVec Ideal S100000x64 .f32}
    {cw : FVec Ideal S8x64x64 .f32}
    (h3 : (R (Proc.devRef .tc main_v3)) = row) (h6 : (R (Proc.devRef .tc main_v6)) = col) (h31 : (R (Proc.devRef .tc main_v31)) = nrm)
    (h36 : (R (Proc.devRef .tc main_v36)) = x0) (h5 : (R (Proc.devRef .tc main_arg5)) = cw) (hf : (R (Proc.devRef .tc main_v117)) = k) :
    after opsL4 R (Proc.devRef .tc main_v144) = layerOf 0x3F61D8F9#32 0x3DF1383B#32 row col nrm x0 (w3 cw) k := by
  subst h3 h6 h31 h36 h5 hf
  after_results_join
  rfl

/-- Layer 5, from the edge lists, the coefficients, the first projection, the weights and the features before it. -/
theorem layer5_res (R : Vl) {row col : IVec S1700000 32} {nrm : FVec Ideal S1700000 .f32} {x0 k : FVec Ideal S100000x64 .f32}
    {cw : FVec Ideal S8x64x64 .f32}
    (h3 : (R (Proc.devRef .tc main_v3)) = row) (h6 : (R (Proc.devRef .tc main_v6)) = col) (h31 : (R (Proc.devRef .tc main_v31)) = nrm)
    (h36 : (R (Proc.devRef .tc main_v36)) = x0) (h5 : (R (Proc.devRef .tc main_arg5)) = cw) (hf : (R (Proc.devRef .tc main_v144)) = k) :
    after opsL5 R (Proc.devRef .tc main_v171) = layerOf 0x3F6799C1#32 0x3DC331FC#32 row col nrm x0 (w4 cw) k := by
  subst h3 h6 h31 h36 h5 hf
  after_results_join
  rfl

/-- Layer 6, from the edge lists, the coefficients, the first projection, the weights and the features before it. -/
theorem layer6_res (R : Vl) {row col : IVec S1700000 32} {nrm : FVec Ideal S1700000 .f32} {x0 k : FVec Ideal S100000x64 .f32}
    {cw : FVec Ideal S8x64x64 .f32}
    (h3 : (R (Proc.devRef .tc main_v3)) = row) (h6 : (R (Proc.devRef .tc main_v6)) = col) (h31 : (R (Proc.devRef .tc main_v31)) = nrm)
    (h36 : (R (Proc.devRef .tc main_v36)) = x0) (h5 : (R (Proc.devRef .tc main_arg5)) = cw) (hf : (R (Proc.devRef .tc main_v171)) = k) :
    after opsL6 R (Proc.devRef .tc main_v198) = layerOf 0x3F6B8252#32 0x3DA3ED6E#32 row col nrm x0 (w5 cw) k := by
  subst h3 h6 h31 h36 h5 hf
  after_results_join
  rfl

/-- Layer 7, from the edge lists, the coefficients, the first projection, the weights and the features before it. -/
theorem layer7_res (R : Vl) {row col : IVec S1700000 32} {nrm : FVec Ideal S1700000 .f32} {x0 k : FVec Ideal S100000x64 .f32}
    {cw : FVec Ideal S8x64x64 .f32}
    (h3 : (R (Proc.devRef .tc main_v3)) = row) (h6 : (R (Proc.devRef .tc main_v6)) = col) (h31 : (R (Proc.devRef .tc main_v31)) = nrm)
    (h36 : (R (Proc.devRef .tc main_v36)) = x0) (h5 : (R (Proc.devRef .tc main_arg5)) = cw) (hf : (R (Proc.devRef .tc main_v198)) = k) :
    after opsL7 R (Proc.devRef .tc main_v225) = layerOf 0x3F6E567C#32 0x3D8D4C22#32 row col nrm x0 (w6 cw) k := by
  subst h3 h6 h31 h36 h5 hf
  after_results_join
  rfl

/-- Layer 8, from the edge lists, the coefficients, the first projection, the weights and the features before it. -/
theorem layer8_res (R : Vl) {row col : IVec S1700000 32} {nrm : FVec Ideal S1700000 .f32} {x0 k : FVec Ideal S100000x64 .f32}
    {cw : FVec Ideal S8x64x64 .f32}
    (h3 : (R (Proc.devRef .tc main_v3)) = row) (h6 : (R (Proc.devRef .tc main_v6)) = col) (h31 : (R (Proc.devRef .tc main_v31)) = nrm)
    (h36 : (R (Proc.devRef .tc main_v36)) = x0) (h5 : (R (Proc.devRef .tc main_arg5)) = cw) (hf : (R (Proc.devRef .tc main_v225)) = k) :
    after opsL8 R (Proc.devRef .tc main_v252) = layerOf 0x3F707AE8#32 0x3D785186#32 row col nrm x0 (w7 cw) k := by
  subst h3 h6 h31 h36 h5 hf
  after_results_join
  rfl

/-- The output projection. -/
theorem fin_res (R : Vl) {h : FVec Ideal S100000x64 .f32} {wout : FVec Ideal S64x20 .f32} {bout : FVec Ideal S20 .f32}
    (h252 : (R (Proc.devRef .tc main_v252)) = h) (h6 : (R (Proc.devRef .tc main_arg6)) = wout) (h7 : (R (Proc.devRef .tc main_arg7)) = bout) :
    after opsFin R (Proc.devRef .tc main_v256) = projOf h wout bout := by
  subst h252 h6 h7
  after_results_join
  rfl

/-! ## The buffers every layer reads -/

/-- What the buffers read by more than one line hold, all through the layers: the eight arguments as launched, the
    edge lists, the edge coefficients and the first projection. -/
structure Inv (x : FVec Ideal S100000x300 .f32) (e : IVec S2x1600000 32) (ew : FVec Ideal S1600000 .f32) (win : FVec Ideal S300x64 .f32) (bin : FVec Ideal S64 .f32) (cw : FVec Ideal S8x64x64 .f32) (wout : FVec Ideal S64x20 .f32) (bout : FVec Ideal S20 .f32) (R : Vl) : Prop where
  a0 : (R (Proc.devRef .tc main_arg0)) = x
  a1 : (R (Proc.devRef .tc main_arg1)) = e
  a2 : (R (Proc.devRef .tc main_arg2)) = ew
  a3 : (R (Proc.devRef .tc main_arg3)) = win
  a4 : (R (Proc.devRef .tc main_arg4)) = bin
  a5 : (R (Proc.devRef .tc main_arg5)) = cw
  a6 : (R (Proc.devRef .tc main_arg6)) = wout
  a7 : (R (Proc.devRef .tc main_arg7)) = bout
  row : (R (Proc.devRef .tc main_v3)) = rowOf e
  col : (R (Proc.devRef .tc main_v6)) = colOf e
  nrm : (R (Proc.devRef .tc main_v31)) = normOf e ew
  x0 : (R (Proc.devRef .tc main_v36)) = linOf x win bin

/-- `Inv` passes to any valuation that agrees on those buffers. -/
theorem Inv.keep {x : FVec Ideal S100000x300 .f32} {e : IVec S2x1600000 32} {ew : FVec Ideal S1600000 .f32} {win : FVec Ideal S300x64 .f32} {bin : FVec Ideal S64 .f32} {cw : FVec Ideal S8x64x64 .f32} {wout : FVec Ideal S64x20 .f32} {bout : FVec Ideal S20 .f32} {R R' : Vl} (h : Inv x e ew win bin cw wout bout R)
    (hk : ∀ r ∈ persist, R' (Proc.devRef .tc r) = R (Proc.devRef .tc r)) : Inv x e ew win bin cw wout bout R' :=
  ⟨(hk main_arg0 (by decide)).trans h.a0, (hk main_arg1 (by decide)).trans h.a1, (hk main_arg2 (by decide)).trans h.a2, (hk main_arg3 (by decide)).trans h.a3, (hk main_arg4 (by decide)).trans h.a4, (hk main_arg5 (by decide)).trans h.a5, (hk main_arg6 (by decide)).trans h.a6, (hk main_arg7 (by decide)).trans h.a7,
    (hk main_v3 (by decide)).trans h.row, (hk main_v6 (by decide)).trans h.col, (hk main_v31 (by decide)).trans h.nrm,
    (hk main_v36 (by decide)).trans h.x0⟩

/-- After the first line `Inv` holds of the arguments' contents before it. -/
theorem pre_inv (R : Vl) : Inv (R (Proc.devRef .tc main_arg0)) (R (Proc.devRef .tc main_arg1)) (R (Proc.devRef .tc main_arg2)) (R (Proc.devRef .tc main_arg3)) (R (Proc.devRef .tc main_arg4)) (R (Proc.devRef .tc main_arg5)) (R (Proc.devRef .tc main_arg6)) (R (Proc.devRef .tc main_arg7)) (after opsPre R) :=
  ⟨opsPre_keep R (by decide), opsPre_keep R (by decide), opsPre_keep R (by decide), opsPre_keep R (by decide), opsPre_keep R (by decide), opsPre_keep R (by decide), opsPre_keep R (by decide), opsPre_keep R (by decide),
    pre_row R, pre_col R, pre_nrm R, pre_x0 R⟩

/-- Layer 1 keeps `Inv` and leaves the features after 1 layer in its last buffer. -/
theorem layer1 {x : FVec Ideal S100000x300 .f32} {e : IVec S2x1600000 32} {ew : FVec Ideal S1600000 .f32} {win : FVec Ideal S300x64 .f32} {bin : FVec Ideal S64 .f32} {cw : FVec Ideal S8x64x64 .f32} {wout : FVec Ideal S64x20 .f32} {bout : FVec Ideal S20 .f32} {R : Vl} (h : Inv x e ew win bin cw wout bout R) :
    Inv x e ew win bin cw wout bout (after opsL1 R) ∧ after opsL1 R (Proc.devRef .tc main_v63) = h1 x e ew win bin cw :=
  ⟨h.keep fun r hr => opsL1_keep R (persist_L1 r hr), layer1_res R h.row h.col h.nrm h.x0 h.a5⟩

/-- Layer 2 keeps `Inv` and leaves the features after 2 layers in its last buffer. -/
theorem layer2 {x : FVec Ideal S100000x300 .f32} {e : IVec S2x1600000 32} {ew : FVec Ideal S1600000 .f32} {win : FVec Ideal S300x64 .f32} {bin : FVec Ideal S64 .f32} {cw : FVec Ideal S8x64x64 .f32} {wout : FVec Ideal S64x20 .f32} {bout : FVec Ideal S20 .f32} {R : Vl} (h : Inv x e ew win bin cw wout bout R)
    (hf : (R (Proc.devRef .tc main_v63)) = h1 x e ew win bin cw) :
    Inv x e ew win bin cw wout bout (after opsL2 R) ∧ after opsL2 R (Proc.devRef .tc main_v90) = h2 x e ew win bin cw :=
  ⟨h.keep fun r hr => opsL2_keep R (persist_L2 r hr), layer2_res R h.row h.col h.nrm h.x0 h.a5 hf⟩

/-- Layer 3 keeps `Inv` and leaves the features after 3 layers in its last buffer. -/
theorem layer3 {x : FVec Ideal S100000x300 .f32} {e : IVec S2x1600000 32} {ew : FVec Ideal S1600000 .f32} {win : FVec Ideal S300x64 .f32} {bin : FVec Ideal S64 .f32} {cw : FVec Ideal S8x64x64 .f32} {wout : FVec Ideal S64x20 .f32} {bout : FVec Ideal S20 .f32} {R : Vl} (h : Inv x e ew win bin cw wout bout R)
    (hf : (R (Proc.devRef .tc main_v90)) = h2 x e ew win bin cw) :
    Inv x e ew win bin cw wout bout (after opsL3 R) ∧ after opsL3 R (Proc.devRef .tc main_v117) = h3 x e ew win bin cw :=
  ⟨h.keep fun r hr => opsL3_keep R (persist_L3 r hr), layer3_res R h.row h.col h.nrm h.x0 h.a5 hf⟩

/-- Layer 4 keeps `Inv` and leaves the features after 4 layers in its last buffer. -/
theorem layer4 {x : FVec Ideal S100000x300 .f32} {e : IVec S2x1600000 32} {ew : FVec Ideal S1600000 .f32} {win : FVec Ideal S300x64 .f32} {bin : FVec Ideal S64 .f32} {cw : FVec Ideal S8x64x64 .f32} {wout : FVec Ideal S64x20 .f32} {bout : FVec Ideal S20 .f32} {R : Vl} (h : Inv x e ew win bin cw wout bout R)
    (hf : (R (Proc.devRef .tc main_v117)) = h3 x e ew win bin cw) :
    Inv x e ew win bin cw wout bout (after opsL4 R) ∧ after opsL4 R (Proc.devRef .tc main_v144) = h4 x e ew win bin cw :=
  ⟨h.keep fun r hr => opsL4_keep R (persist_L4 r hr), layer4_res R h.row h.col h.nrm h.x0 h.a5 hf⟩

/-- Layer 5 keeps `Inv` and leaves the features after 5 layers in its last buffer. -/
theorem layer5 {x : FVec Ideal S100000x300 .f32} {e : IVec S2x1600000 32} {ew : FVec Ideal S1600000 .f32} {win : FVec Ideal S300x64 .f32} {bin : FVec Ideal S64 .f32} {cw : FVec Ideal S8x64x64 .f32} {wout : FVec Ideal S64x20 .f32} {bout : FVec Ideal S20 .f32} {R : Vl} (h : Inv x e ew win bin cw wout bout R)
    (hf : (R (Proc.devRef .tc main_v144)) = h4 x e ew win bin cw) :
    Inv x e ew win bin cw wout bout (after opsL5 R) ∧ after opsL5 R (Proc.devRef .tc main_v171) = h5 x e ew win bin cw :=
  ⟨h.keep fun r hr => opsL5_keep R (persist_L5 r hr), layer5_res R h.row h.col h.nrm h.x0 h.a5 hf⟩

/-- Layer 6 keeps `Inv` and leaves the features after 6 layers in its last buffer. -/
theorem layer6 {x : FVec Ideal S100000x300 .f32} {e : IVec S2x1600000 32} {ew : FVec Ideal S1600000 .f32} {win : FVec Ideal S300x64 .f32} {bin : FVec Ideal S64 .f32} {cw : FVec Ideal S8x64x64 .f32} {wout : FVec Ideal S64x20 .f32} {bout : FVec Ideal S20 .f32} {R : Vl} (h : Inv x e ew win bin cw wout bout R)
    (hf : (R (Proc.devRef .tc main_v171)) = h5 x e ew win bin cw) :
    Inv x e ew win bin cw wout bout (after opsL6 R) ∧ after opsL6 R (Proc.devRef .tc main_v198) = h6 x e ew win bin cw :=
  ⟨h.keep fun r hr => opsL6_keep R (persist_L6 r hr), layer6_res R h.row h.col h.nrm h.x0 h.a5 hf⟩

/-- Layer 7 keeps `Inv` and leaves the features after 7 layers in its last buffer. -/
theorem layer7 {x : FVec Ideal S100000x300 .f32} {e : IVec S2x1600000 32} {ew : FVec Ideal S1600000 .f32} {win : FVec Ideal S300x64 .f32} {bin : FVec Ideal S64 .f32} {cw : FVec Ideal S8x64x64 .f32} {wout : FVec Ideal S64x20 .f32} {bout : FVec Ideal S20 .f32} {R : Vl} (h : Inv x e ew win bin cw wout bout R)
    (hf : (R (Proc.devRef .tc main_v198)) = h6 x e ew win bin cw) :
    Inv x e ew win bin cw wout bout (after opsL7 R) ∧ after opsL7 R (Proc.devRef .tc main_v225) = h7 x e ew win bin cw :=
  ⟨h.keep fun r hr => opsL7_keep R (persist_L7 r hr), layer7_res R h.row h.col h.nrm h.x0 h.a5 hf⟩

/-- Layer 8 keeps `Inv` and leaves the features after 8 layers in its last buffer. -/
theorem layer8 {x : FVec Ideal S100000x300 .f32} {e : IVec S2x1600000 32} {ew : FVec Ideal S1600000 .f32} {win : FVec Ideal S300x64 .f32} {bin : FVec Ideal S64 .f32} {cw : FVec Ideal S8x64x64 .f32} {wout : FVec Ideal S64x20 .f32} {bout : FVec Ideal S20 .f32} {R : Vl} (h : Inv x e ew win bin cw wout bout R)
    (hf : (R (Proc.devRef .tc main_v225)) = h7 x e ew win bin cw) :
    Inv x e ew win bin cw wout bout (after opsL8 R) ∧ after opsL8 R (Proc.devRef .tc main_v252) = h8 x e ew win bin cw :=
  ⟨h.keep fun r hr => opsL8_keep R (persist_L8 r hr), layer8_res R h.row h.col h.nrm h.x0 h.a5 hf⟩

/-! ## The whole run -/

/-- After the first line and the eight layers: `Inv` of the launch contents' arguments, and the features after eight layers. -/
theorem inv8 (V : Vl) : Inv (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (upTo8 V)
    ∧ upTo8 V (Proc.devRef .tc main_v252) = h8 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  obtain ⟨i1, f1⟩ := layer1 (pre_inv V)
  obtain ⟨i2, f2⟩ := layer2 i1 f1
  obtain ⟨i3, f3⟩ := layer3 i2 f2
  obtain ⟨i4, f4⟩ := layer4 i3 f3
  obtain ⟨i5, f5⟩ := layer5 i4 f4
  obtain ⟨i6, f6⟩ := layer6 i5 f5
  obtain ⟨i7, f7⟩ := layer7 i6 f6
  exact layer8 i7 f7

/-- The result buffer after the whole line: the network of the arguments' contents before it. -/
theorem ops_res (V : Vl) : after ops V (Proc.devRef .tc main_v256) = netOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops]
  exact fin_res _ (inv8 V).2 (inv8 V).1.a6 (inv8 V).1.a7

/-- A buffer read by more than one line, after the whole line: as after the eight layers. -/
theorem ops_persist (V : Vl) {r : Ref sig .tc} (hr : r ∈ persist) : after ops V (Proc.devRef .tc r) = upTo8 V (Proc.devRef .tc r) := by
  rw [after_ops]
  exact opsFin_keep _ (persist_Fin r hr)

/-- On every device, from any memory with zero counters: every weakly fair execution of the reference program terminates
    with the result buffer at the model's network of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v256) = Cert.Gcn.netOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v256).trans (ops_res (launchContents m c)),
      (h c main_arg0).trans ((ops_persist _ (by decide)).trans (inv8 (launchContents m c)).1.a0),
      (h c main_arg1).trans ((ops_persist _ (by decide)).trans (inv8 (launchContents m c)).1.a1),
      (h c main_arg2).trans ((ops_persist _ (by decide)).trans (inv8 (launchContents m c)).1.a2),
      (h c main_arg3).trans ((ops_persist _ (by decide)).trans (inv8 (launchContents m c)).1.a3),
      (h c main_arg4).trans ((ops_persist _ (by decide)).trans (inv8 (launchContents m c)).1.a4),
      (h c main_arg5).trans ((ops_persist _ (by decide)).trans (inv8 (launchContents m c)).1.a5),
      (h c main_arg6).trans ((ops_persist _ (by decide)).trans (inv8 (launchContents m c)).1.a6),
      (h c main_arg7).trans ((ops_persist _ (by decide)).trans (inv8 (launchContents m c)).1.a7)⟩)
    (run_seq scopedRefs_eq scopedSems_eq defs main (fun _ => ops) main_eq (fun _ => ops_sub) m ρ)

end Cert.Gcn.Ref

end
-- ==== Proof.lean ====
/-
  A graph network of eight layers, tiled for the TensorCore, against the same network in plain array operations.

  Both programs first give every node a self-loop of weight 1 and compute, from the edge list and the edge weights, a
  coefficient per edge: deg^(-1/2) at the source, times the weight, times deg^(-1/2) at the target (0 where the degree
  is not positive).  Then x0 = max (x·W_in + b_in) 0; eight times h ↦ max ((1-β_l)·z + β_l·(z·W_l)) 0 with
  z = c9·(A h) + c1·x0, where A h gathers the source rows, scales them by the coefficients and adds them into the target
  rows; and last h·W_out + b_out.  The constants c9, c1, 1-β_l, β_l are the same binary words in both programs.

  The tiled program runs the three dense stages on blocks of 5000 or 10000 consecutive rows, with operands cast to a
  shorter float format (the identity on the extended reals); the gathers and scatter-adds between them are the same host
  operations as the plain program's.  Entry (r, j) of a dense stage needs only row r of its row-tiled operands — a
  matrix product's entry is the sum over k of A(r,k)·B(k,j) whatever the number of rows of A — so the blocks side by
  side are the whole-array stage (Proof/Stages.lean, Proof/Regions.lean).  Followed through the ten stages and the host
  operations between them, each program's result is the one whole-array term of Proof/Model.lean of its arguments
  (Proof/KernelRun.lean, Proof/RefRun.lean); the arguments agree, so the results are equal.  No finiteness is used:
  nothing is distributed or cancelled.  The idealization rewrote no operation, so it is preserved trivially.
-/
import proofs.«103257_j52364241273198_2_alg».proof.Defs
import proofs.«103257_j52364241273198_2_alg».proof.Proof.Gen.Kernel
import proofs.«103257_j52364241273198_2_alg».proof.Proof.Gen.Kernel.Skeleton
import proofs.«103257_j52364241273198_2_alg».proof.Proof.Gen.Kernel.Launch
import proofs.«103257_j52364241273198_2_alg».proof.Proof.Gen.Kernel.Points
import proofs.«103257_j52364241273198_2_alg».proof.Proof.Gen.Kernel.Frame
import proofs.«103257_j52364241273198_2_alg».proof.Proof.Gen.KernelIdeal
import proofs.«103257_j52364241273198_2_alg».proof.Proof.Gen.KernelIdeal.Skeleton
import proofs.«103257_j52364241273198_2_alg».proof.Proof.Gen.KernelIdeal.Launch
import proofs.«103257_j52364241273198_2_alg».proof.Proof.Gen.KernelIdeal.Points
import proofs.«103257_j52364241273198_2_alg».proof.Proof.Gen.KernelIdeal.Frame
import proofs.«103257_j52364241273198_2_alg».proof.Proof.Gen.ReferenceIdeal
import proofs.«103257_j52364241273198_2_alg».proof.Proof.Gen.Pre_finite_inputs
import proofs.«103257_j52364241273198_2_alg».proof.Proof.Model
import proofs.«103257_j52364241273198_2_alg».proof.Proof.KernelRun
import proofs.«103257_j52364241273198_2_alg».proof.Proof.RefRun
import Idealize.ShloMosaic.Adequacy
import Idealize.ShloMosaic.Init

noncomputable section

namespace Cert.Proof

open Idealize.ShloMosaic Idealize.SL.Sem

/-- The three programs run and keep their arguments; the tiled program's idealization changes nothing; and at the ideal
    values the tiled program and the plain one end with the same array, the network of their (agreeing) arguments. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.Gcn.Ref.run m ρ),
    trivial,
    fun m ρ m' ρ' _ hagree =>
      ⟨fun c => Cert.Gcn.netOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.Gcn.Ker.run m ρ,
        (θ_run Cert.ReferenceIdeal.defs _ _).mono (fun _ h c => ⟨by
          rw [(h c).1, (hagree c).1, (hagree c).2.1, (hagree c).2.2.1, (hagree c).2.2.2.1, (hagree c).2.2.2.2.1,
            (hagree c).2.2.2.2.2.1, (hagree c).2.2.2.2.2.2.1, (hagree c).2.2.2.2.2.2.2], (h c).2⟩) (Cert.Gcn.Ref.run m' ρ')⟩⟩

end Cert.Proof

end
